-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S64 : Shape := ⟨1, ![64]⟩
abbrev S64x16 : Shape := ⟨2, ![64, 16]⟩
abbrev S8x1024 : Shape := ⟨2, ![8, 1024]⟩
abbrev S8 : Shape := ⟨1, ![8]⟩
abbrev S4x8 : Shape := ⟨2, ![4, 8]⟩
abbrev S4 : Shape := ⟨1, ![4]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg14 : FVec F S4x8 .f32) (main_arg15 : FVec F S4 .f32) (main_v63 : IVec S_ 1) (main_v67 : IVec S_ 1) : IVec S_ 1 :=
  let main_v68 : IVec S_ 1 := andi main_v63 main_v67
  let main_v69 : FVec F S4x8 .f32 := Host.absf main_arg14
  let main_cst_26 : FVec F S_ .f32 := constant S_ .f32 0x7F800000#32
  let main_v70 : FVec F S4x8 .f32 := broadcastInDim S4x8 ![] bcast_S_S4x8 main_cst_26
  let main_v71 : IVec S4x8 1 := cmpf .olt main_v69 main_v70
  let main_c_27 : IVec S_ 1 := constantI S_ 1 1#1
  let main_v72 : IVec S_ 1 := (fun x v => Host.reduce IntOp.andi x v reducesTo_S4x8_S_d0_1 h_S_) main_v71 main_c_27
  let main_v73 : IVec S_ 1 := andi main_v68 main_v72
  let main_v74 : FVec F S4 .f32 := Host.absf main_arg15
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  main_v78

def fn_part3 {F : FTy → Type} [FloatOps F] (main_arg11 : FVec F S8 .f32) (main_arg12 : FVec F S8 .f32) (main_arg13 : FVec F S8 .f32) (main_arg14 : FVec F S4x8 .f32) (main_arg15 : FVec F S4 .f32) (main_v48 : IVec S_ 1) (main_v49 : FVec F S8x1024 .f32) (main_v50 : FVec F S8x1024 .f32) : IVec S_ 1 :=
  let main_v51 : IVec S8x1024 1 := cmpf .olt main_v49 main_v50
  let main_c_19 : IVec S_ 1 := constantI S_ 1 1#1
  let main_v52 : IVec S_ 1 := (fun x v => Host.reduce IntOp.andi x v reducesTo_S8x1024_S_d0_1 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg14 main_arg15 main_v63 main_v67

def fn_part2 {F : FTy → Type} [FloatOps F] (main_arg7 : FVec F S64x16 .f32) (main_arg8 : FVec F S64x16 .f32) (main_arg9 : FVec F S64x16 .f32) (main_arg10 : FVec F S8x1024 .f32) (main_arg11 : FVec F S8 .f32) (main_arg12 : FVec F S8 .f32) (main_arg13 : FVec F S8 .f32) (main_arg14 : FVec F S4x8 .f32) (main_arg15 : FVec F S4 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S64x16 .f32 := Host.absf main_arg8
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S64x16 .f32 := Host.absf main_arg9
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S8x1024 .f32 := Host.absf main_arg10
  let main_cst_18 : FVec F S_ .f32 := constant S_ .f32 0x7F800000#32
  let main_v50 : FVec F S8x1024 .f32 := broadcastInDim S8x1024 ![] bcast_S_S8x1024 main_cst_18
  fn_part3 (F := F) main_arg11 main_arg12 main_arg13 main_arg14 main_arg15 main_v48 main_v49 main_v50

def fn_part1 {F : FTy → Type} [FloatOps F] (main_arg4 : FVec F S64 .f32) (main_arg5 : FVec F S64 .f32) (main_arg6 : FVec F S64x16 .f32) (main_arg7 : FVec F S64x16 .f32) (main_arg8 : FVec F S64x16 .f32) (main_arg9 : FVec F S64x16 .f32) (main_arg10 : FVec F S8x1024 .f32) (main_arg11 : FVec F S8 .f32) (main_arg12 : FVec F S8 .f32) (main_arg13 : FVec F S8 .f32) (main_arg14 : FVec F S4x8 .f32) (main_arg15 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S65536x64 .f32) (main_arg1 : FVec F S65536x64 .f32) (main_arg2 : FVec F S64 .f32) (main_arg3 : FVec F S64 .f32) (main_arg4 : FVec F S64 .f32) (main_arg5 : FVec F S64 .f32) (main_arg6 : FVec F S64x16 .f32) (main_arg7 : FVec F S64x16 .f32) (main_arg8 : FVec F S64x16 .f32) (main_arg9 : FVec F S64x16 .f32) (main_arg10 : FVec F S8x1024 .f32) (main_arg11 : FVec F S8 .f32) (main_arg12 : FVec F S8 .f32) (main_arg13 : FVec F S8 .f32) (main_arg14 : FVec F S4x8 .f32) (main_arg15 : FVec F S4 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S65536x64 : Shape := ⟨2, ![65536, 64]⟩
abbrev S64 : Shape := ⟨1, ![64]⟩
abbrev S64x16 : Shape := ⟨2, ![64, 16]⟩
abbrev S8x1024 : Shape := ⟨2, ![8, 1024]⟩
abbrev S8 : Shape := ⟨1, ![8]⟩
abbrev S4x8 : Shape := ⟨2, ![4, 8]⟩
abbrev S4 : Shape := ⟨1, ![4]⟩
abbrev S_ : Shape := ⟨0, ![]⟩
abbrev S65536x8 : Shape := ⟨2, ![65536, 8]⟩
abbrev S65536x1 : Shape := ⟨2, ![65536, 1]⟩
abbrev S2048x64 : Shape := ⟨2, ![2048, 64]⟩
abbrev S2048x8 : Shape := ⟨2, ![2048, 8]⟩
abbrev S2048x1 : Shape := ⟨2, ![2048, 1]⟩
abbrev S1x64 : Shape := ⟨2, ![1, 64]⟩
abbrev S2048 : Shape := ⟨1, ![2048]⟩
abbrev S2048x64x1 : Shape := ⟨3, ![2048, 64, 1]⟩
abbrev S1x64x16 : Shape := ⟨3, ![1, 64, 16]⟩
abbrev S2048x64x16 : Shape := ⟨3, ![2048, 64, 16]⟩
abbrev S2048x16 : Shape := ⟨2, ![2048, 16]⟩
abbrev S2048x1024 : Shape := ⟨2, ![2048, 1024]⟩
abbrev S1024x8 : Shape := ⟨2, ![1024, 8]⟩
abbrev S1x8 : Shape := ⟨2, ![1, 8]⟩
abbrev S8192x8 : Shape := ⟨2, ![8192, 8]⟩
abbrev S8192x1 : Shape := ⟨2, ![8192, 1]⟩
abbrev S8x4 : Shape := ⟨2, ![8, 4]⟩
abbrev S8192x4 : Shape := ⟨2, ![8192, 4]⟩
abbrev S1x4 : Shape := ⟨2, ![1, 4]⟩
abbrev S8192 : Shape := ⟨1, ![8192]⟩

abbrev nBuf : Space → Nat
  | .hbm => 52
  | .vmem => 31
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S64x16, .f32⟩
  | .hbm, ⟨9, _⟩ => ⟨S64x16, .f32⟩
  | .hbm, ⟨10, _⟩ => ⟨S8x1024, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S4x8, .f32⟩
  | .hbm, ⟨15, _⟩ => ⟨S4, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S65536x8, .f32⟩
  | .hbm, ⟨22, _⟩ => ⟨S65536x1, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .i32⟩
  | .hbm, ⟨29, _⟩ => ⟨S_, .f32⟩
  | .hbm, ⟨30, _⟩ => ⟨S8, .f32⟩
  | .hbm, ⟨31, _⟩ => ⟨S1x8, .f32⟩
  | .hbm, ⟨32, _⟩ => ⟨S_, .f32⟩
  | .hbm, ⟨33, _⟩ => ⟨S1x8, .f32⟩
  | .hbm, ⟨34, _⟩ => ⟨S1x8, .f32⟩
  | .hbm, ⟨35, _⟩ => ⟨S65536x8, .f32⟩
  | .hbm, ⟨36, _⟩ => ⟨S65536x8, .f32⟩
  | .hbm, ⟨37, _⟩ => ⟨S65536x8, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S65536x1, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64x16, .f32⟩
  | .local _ .vmem, ⟨10, _⟩ => ⟨S64x16, .f32⟩
  | .local _ .vmem, ⟨11, _⟩ => ⟨S64x16, .f32⟩
  | .local _ .vmem, ⟨12, _⟩ => ⟨S64x16, .f32⟩
  | .local _ .vmem, ⟨13, _⟩ => ⟨S8x1024, .f32⟩
  | .local _ .vmem, ⟨14, _⟩ => ⟨S8, .f32⟩
  | .local _ .vmem, ⟨15, _⟩ => ⟨S2048x8, .f32⟩
  | .local _ .vmem, ⟨16, _⟩ => ⟨S2048x8, .f32⟩
  | .local _ .vmem, ⟨17, _⟩ => ⟨S2048x1, .f32⟩
  | .local _ .vmem, ⟨18, _⟩ => ⟨S2048x1, .f32⟩
  | .local _ .vmem, ⟨19, _⟩ => ⟨S8192x8, .f32⟩
  | .local _ .vmem, ⟨20, _⟩ => ⟨S8192x8, .f32⟩
  | .local _ .vmem, ⟨21, _⟩ => ⟨S8192x1, .f32⟩
  | .local _ .vmem, ⟨22, _⟩ => ⟨S8192x1, .f32⟩
  | .local _ .vmem, ⟨23, _⟩ => ⟨S8, .f32⟩
  | .local _ .vmem, ⟨24, _⟩ => ⟨S8, .f32⟩
  | .local _ .vmem, ⟨25, _⟩ => ⟨S8, .f32⟩
  | .local _ .vmem, ⟨26, _⟩ => ⟨S8, .f32⟩
  | .local _ .vmem, ⟨27, _⟩ => ⟨S4x8, .f32⟩
  | .local _ .vmem, ⟨28, _⟩ => ⟨S4, .f32⟩
  | .local _ .vmem, ⟨29, _⟩ => ⟨S8192x1, .f32⟩
  | .local _ .vmem, ⟨30, _⟩ => ⟨S8192x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_cst_1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_cst_3 : Ref sig .tc := ⟨.hbm, 45, rfl⟩
abbrev main_call0_v12 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v7 : Ref sig .tc := ⟨.hbm, 50, rfl⟩
abbrev main_v8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem8_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8192x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  reducesTo_S65536x64_S64_d0 : S65536x64.ReducesTo [0] S64
  h_S_ : 0 < S_.numel
  bcast_S_S64 : S_.BroadcastsInDim S64 (![] : Fin 0 → Fin S64.rank)
  inb_S2048x64_S2048x64_0_0 : ∀ a, (![0, 0] : Fin 2 → Nat) a + S2048x64.size a ≤ S2048x64.size a
  h_S2048x64 : 0 < S2048x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  inb_S64x16_S64x16_0_0 : ∀ a, (![0, 0] : Fin 2 → Nat) a + S64x16.size a ≤ S64x16.size a
  h_S64x16 : 0 < S64x16.numel
  shapeCasts_S2048x64_S2048x64x1 : S2048x64.ShapeCasts S2048x64x1
  shapeCasts_S64x16_S1x64x16 : S64x16.ShapeCasts S1x64x16
  broadcasts_S2048x64x1_S2048x64x16 : S2048x64x1.Broadcasts S2048x64x16
  broadcasts_S1x64x16_S2048x64x16 : S1x64x16.Broadcasts S2048x64x16
  reduces_S2048x64x16_S2048x16 : S2048x64x16.Reduces [1] S2048x16
  reduces_S2048x16_S2048 : S2048x16.Reduces [1] S2048
  inb_S2048x1_S2048x1_0_0 : ∀ a, (![0, 0] : Fin 2 → Nat) a + S2048x1.size a ≤ S2048x1.size a
  h_S2048x1 : 0 < S2048x1.numel
  shapeCasts_S2048x64x16_S2048x1024 : S2048x64x16.ShapeCasts S2048x1024
  inb_S8x1024_S8x1024_0_0 : ∀ a, (![0, 0] : Fin 2 → Nat) a + S8x1024.size a ≤ S8x1024.size a
  h_S8x1024 : 0 < S8x1024.numel
  inb_S8_S8_0 : ∀ a, (![0] : Fin 1 → Nat) a + S8.size a ≤ S8.size a
  h_S8 : 0 < S8.numel
  transposes_S8x1024_p1_0_S1024x8 : S8x1024.Transposes [1, 0] S1024x8
  shapeCasts_S8_S1x8 : S8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  reducesTo_S65536x8_S8_d0 : S65536x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S_S1x8 : S_.BroadcastsInDim S1x8 (![] : Fin 0 → Fin S1x8.rank)
  bcast_S1x8_S65536x8_0_1 : S1x8.BroadcastsInDim S65536x8 (![0, 1] : Fin 2 → Fin S65536x8.rank)
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  shapeCasts_S8_S8 : S8.ShapeCasts S8
  broadcasts_S1x8_S8192x8 : S1x8.Broadcasts S8192x8
  inb_S4x8_S4x8_0_0 : ∀ a, (![0, 0] : Fin 2 → Nat) a + S4x8.size a ≤ S4x8.size a
  h_S4x8 : 0 < S4x8.numel
  inb_S4_S4_0 : ∀ a, (![0] : Fin 1 → Nat) a + S4.size a ≤ S4.size a
  h_S4 : 0 < S4.numel
  transposes_S4x8_p1_0_S8x4 : S4x8.Transposes [1, 0] S8x4
  shapeCasts_S4_S1x4 : S4.ShapeCasts S1x4
  broadcasts_S1x4_S8192x4 : S1x4.Broadcasts S8192x4
  reduces_S8192x4_S8192 : S8192x4.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  dot_S2048x1024_S1024x8_S2048x8_1_0_0_1_n_n_wf : DotDims.WF S2048x1024 S1024x8 S2048x8 [1] [0] [0] [1] [] []
  dot_S8192x8_S8x4_S8192x4_1_0_0_1_n_n_wf : DotDims.WF S8192x8 S8x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S65536x64.size a
  hwx0_1 : ∀ i : grid0.Coords, EltTy.bits .f32 = 32 ∨ (Rect.block (s := S65536x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .f32 = 32 ∨ (Rect.block (s := S64x16) S64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x16.size a ≤ S64x16.size a
  hwx0_8 : ∀ i : grid0.Coords, EltTy.bits .f32 = 32 ∨ (Rect.block (s := S64x16) S64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x16.size a ≤ S64x16.size a
  hwx0_9 : ∀ i : grid0.Coords, EltTy.bits .f32 = 32 ∨ (Rect.block (s := S64x16) S64x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x16.size a ≤ S64x16.size a
  hwx0_10 : ∀ i : grid0.Coords, EltTy.bits .f32 = 32 ∨ (Rect.block (s := S64x16) S64x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x1024.size a ≤ S8x1024.size a
  hwx0_11 : ∀ i : grid0.Coords, EltTy.bits .f32 = 32 ∨ (Rect.block (s := S8x1024) S8x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x8.size a ≤ S65536x8.size a
  hwx0_13 : ∀ i : grid0.Coords, EltTy.bits .f32 = 32 ∨ (Rect.block (s := S65536x8) S2048x8.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x1.size a ≤ S65536x1.size a
  hwx0_14 : ∀ i : grid0.Coords, EltTy.bits .f32 = 32 ∨ (Rect.block (s := S65536x1) S2048x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S65536x8.size a
  hwx1_0 : ∀ i : grid1.Coords, EltTy.bits .f32 = 32 ∨ (Rect.block (s := S65536x8) S8192x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S65536x1.size a
  hwx1_1 : ∀ i : grid1.Coords, EltTy.bits .f32 = 32 ∨ (Rect.block (s := S65536x1) S8192x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8.size a ≤ S8.size a
  hwx1_2 : ∀ i : grid1.Coords, EltTy.bits .f32 = 32 ∨ (Rect.block (s := S8) S8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8.size a ≤ S8.size a
  hwx1_4 : ∀ i : grid1.Coords, EltTy.bits .f32 = 32 ∨ (Rect.block (s := S8) S8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8.size a ≤ S8.size a
  hwx1_5 : ∀ i : grid1.Coords, EltTy.bits .f32 = 32 ∨ (Rect.block (s := S8) S8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x8.size a ≤ S4x8.size a
  hwx1_6 : ∀ i : grid1.Coords, EltTy.bits .f32 = 32 ∨ (Rect.block (s := S4x8) S4x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4.size a ≤ S4.size a
  hwx1_7 : ∀ i : grid1.Coords, EltTy.bits .f32 = 32 ∨ (Rect.block (s := S4) S4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8192x1.size a ≤ S65536x1.size a
  hwx1_8 : ∀ i : grid1.Coords, EltTy.bits .f32 = 32 ∨ (Rect.block (s := S65536x1) S8192x1.size (cc1_transform_8 i) (hinb1_8 i)).WholeWords (EltTy.packing .f32)

variable [Facts₀]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S8x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3_0) S2048x8.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3_1) S2048x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v3_0) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S4x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S8192x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S65536x64 : Shape := ⟨2, ![65536, 64]⟩
abbrev S64 : Shape := ⟨1, ![64]⟩
abbrev S64x16 : Shape := ⟨2, ![64, 16]⟩
abbrev S8x1024 : Shape := ⟨2, ![8, 1024]⟩
abbrev S8 : Shape := ⟨1, ![8]⟩
abbrev S4x8 : Shape := ⟨2, ![4, 8]⟩
abbrev S4 : Shape := ⟨1, ![4]⟩
abbrev S1x64 : Shape := ⟨2, ![1, 64]⟩
abbrev S_ : Shape := ⟨0, ![]⟩
abbrev S65536 : Shape := ⟨1, ![65536]⟩
abbrev S65536x1 : Shape := ⟨2, ![65536, 1]⟩
abbrev S65536x64x1 : Shape := ⟨3, ![65536, 64, 1]⟩
abbrev S1x64x16 : Shape := ⟨3, ![1, 64, 16]⟩
abbrev S65536x64x16 : Shape := ⟨3, ![65536, 64, 16]⟩
abbrev S65536x16 : Shape := ⟨2, ![65536, 16]⟩
abbrev S65536x1024 : Shape := ⟨2, ![65536, 1024]⟩
abbrev S1024x8 : Shape := ⟨2, ![1024, 8]⟩
abbrev S65536x8 : Shape := ⟨2, ![65536, 8]⟩
abbrev S1x8 : Shape := ⟨2, ![1, 8]⟩
abbrev S8x4 : Shape := ⟨2, ![8, 4]⟩
abbrev S65536x4 : Shape := ⟨2, ![65536, 4]⟩
abbrev S1x4 : Shape := ⟨2, ![1, 4]⟩

abbrev nBuf : Space → Nat
  | .hbm => 141
  | .vmem => 0
  | .smem => 0
  | _ => 0

abbrev hbmTy0_0 (i : Nat) : BufTy := match i % 128 with
  | 0 => ⟨S65536x64, .f32⟩
  | 1 => ⟨S65536x64, .f32⟩
  | 2 => ⟨S64, .f32⟩
  | 3 => ⟨S64, .f32⟩
  | 4 => ⟨S64, .f32⟩
  | 5 => ⟨S64, .f32⟩
  | 6 => ⟨S64x16, .f32⟩
  | 7 => ⟨S64x16, .f32⟩
  | 8 => ⟨S64x16, .f32⟩
  | 9 => ⟨S64x16, .f32⟩
  | 10 => ⟨S8x1024, .f32⟩
  | 11 => ⟨S8, .f32⟩
  | 12 => ⟨S8, .f32⟩
  | 13 => ⟨S8, .f32⟩
  | 14 => ⟨S4x8, .f32⟩
  | 15 => ⟨S4, .f32⟩
  | 16 => ⟨S1x64, .f32⟩
  | 17 => ⟨S65536x64, .f32⟩
  | 18 => ⟨S65536x64, .f32⟩
  | 19 => ⟨S1x64, .f32⟩
  | 20 => ⟨S65536x64, .f32⟩
  | 21 => ⟨S65536x64, .f32⟩
  | 22 => ⟨S65536x64, .f32⟩
  | 23 => ⟨S_, .f32⟩
  | 24 => ⟨S64, .f32⟩
  | 25 => ⟨S_, .f32⟩
  | 26 => ⟨S64, .f32⟩
  | 27 => ⟨S64, .f32⟩
  | 28 => ⟨S64, .f32⟩
  | 29 => ⟨S64, .f32⟩
  | 30 => ⟨S1x64, .f32⟩
  | 31 => ⟨S65536x64, .f32⟩
  | 32 => ⟨S65536x64, .f32⟩
  | 33 => ⟨S65536x64, .f32⟩
  | 34 => ⟨S_, .f32⟩
  | 35 => ⟨S65536, .f32⟩
  | 36 => ⟨S65536x1, .f32⟩
  | 37 => ⟨S_, .f32⟩
  | 38 => ⟨S65536x1, .f32⟩
  | 39 => ⟨S65536x1, .f32⟩
  | 40 => ⟨S65536x64x1, .f32⟩
  | 41 => ⟨S65536x64x1, .f32⟩
  | 42 => ⟨S1x64x16, .f32⟩
  | 43 => ⟨S65536x64x16, .f32⟩
  | 44 => ⟨S65536x64x16, .f32⟩
  | 45 => ⟨S65536x64x16, .f32⟩
  | 46 => ⟨S1x64x16, .f32⟩
  | 47 => ⟨S65536x64x16, .f32⟩
  | 48 => ⟨S65536x64x16, .f32⟩
  | 49 => ⟨S65536x64x16, .f32⟩
  | 50 => ⟨S65536x64x16, .f32⟩
  | 51 => ⟨S1x64x16, .f32⟩
  | 52 => ⟨S65536x64x16, .f32⟩
  | 53 => ⟨S65536x64x16, .f32⟩
  | 54 => ⟨S65536x64x16, .f32⟩
  | 55 => ⟨S1x64x16, .f32⟩
  | 56 => ⟨S65536x64x16, .f32⟩
  | 57 => ⟨S65536x64x16, .f32⟩
  | 58 => ⟨S65536x64x16, .f32⟩
  | 59 => ⟨S65536x64x16, .f32⟩
  | 60 => ⟨S65536x64x16, .f32⟩
  | 61 => ⟨S_, .f32⟩
  | 62 => ⟨S65536x16, .f32⟩
  | 63 => ⟨S65536x16, .f32⟩
  | 64 => ⟨S65536x64x16, .f32⟩
  | 65 => ⟨S_, .f32⟩
  | 66 => ⟨S65536x16, .f32⟩
  | 67 => ⟨S65536x16, .f32⟩
  | 68 => ⟨S_, .f32⟩
  | 69 => ⟨S65536x16, .f32⟩
  | 70 => ⟨S65536x16, .f32⟩
  | 71 => ⟨S_, .f32⟩
  | 72 => ⟨S65536, .f32⟩
  | 73 => ⟨S65536x1, .f32⟩
  | 74 => ⟨S_, .f32⟩
  | 75 => ⟨S65536x1, .f32⟩
  | 76 => ⟨S65536x1, .f32⟩
  | 77 => ⟨S65536x1024, .f32⟩
  | 78 => ⟨S1024x8, .f32⟩
  | 79 => ⟨S65536x8, .f32⟩
  | 80 => ⟨S1x8, .f32⟩
  | 81 => ⟨S65536x8, .f32⟩
  | 82 => ⟨S65536x8, .f32⟩
  | 83 => ⟨S_, .f32⟩
  | 84 => ⟨S8, .f32⟩
  | 85 => ⟨S_, .f32⟩
  | 86 => ⟨S8, .f32⟩
  | 87 => ⟨S8, .f32⟩
  | 88 => ⟨S_, .i32⟩
  | 89 => ⟨S_, .f32⟩
  | 90 => ⟨S8, .f32⟩
  | 91 => ⟨S1x8, .f32⟩
  | 92 => ⟨S_, .f32⟩
  | 93 => ⟨S1x8, .f32⟩
  | 94 => ⟨S1x8, .f32⟩
  | 95 => ⟨S65536x8, .f32⟩
  | 96 => ⟨S65536x8, .f32⟩
  | 97 => ⟨S65536x8, .f32⟩
  | 98 => ⟨S_, .f32⟩
  | 99 => ⟨S_, .f32⟩
  | 100 => ⟨S_, .f32⟩
  | 101 => ⟨S_, .f32⟩
  | 102 => ⟨S8, .f32⟩
  | 103 => ⟨S8, .f32⟩
  | 104 => ⟨S8, .f32⟩
  | 105 => ⟨S_, .f32⟩
  | 106 => ⟨S_, .i1⟩
  | 107 => ⟨S_, .f32⟩
  | 108 => ⟨S_, .f32⟩
  | 109 => ⟨S8, .f32⟩
  | 110 => ⟨S8, .f32⟩
  | 111 => ⟨S1x8, .f32⟩
  | 112 => ⟨S65536x8, .f32⟩
  | 113 => ⟨S65536x8, .f32⟩
  | 114 => ⟨S_, .f32⟩
  | 115 => ⟨S8, .f32⟩
  | 116 => ⟨S8, .f32⟩
  | 117 => ⟨S8, .f32⟩
  | 118 => ⟨S1x8, .f32⟩
  | 119 => ⟨S65536x8, .f32⟩
  | 120 => ⟨S65536x8, .f32⟩
  | 121 => ⟨S1x8, .f32⟩
  | 122 => ⟨S65536x8, .f32⟩
  | 123 => ⟨S65536x8, .f32⟩
  | 124 => ⟨S1x8, .f32⟩
  | 125 => ⟨S65536x8, .f32⟩
  | 126 => ⟨S65536x8, .f32⟩
  | 127 => ⟨S65536x8, .f32⟩
  | _ => ⟨S65536x64, .f32⟩

abbrev hbmTy0_1 (i : Nat) : BufTy := match i % 128 with
  | 0 => ⟨S8x4, .f32⟩
  | 1 => ⟨S65536x4, .f32⟩
  | 2 => ⟨S1x4, .f32⟩
  | 3 => ⟨S65536x4, .f32⟩
  | 4 => ⟨S65536x4, .f32⟩
  | 5 => ⟨S_, .f32⟩
  | 6 => ⟨S65536, .f32⟩
  | 7 => ⟨S65536x1, .f32⟩
  | 8 => ⟨S_, .f32⟩
  | 9 => ⟨S65536x1, .f32⟩
  | 10 => ⟨S65536x1, .f32⟩
  | 11 => ⟨S65536x1, .f32⟩
  | 12 => ⟨S65536x1, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_c : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_cst_3 : Ref sig .tc := ⟨.hbm, 105, rfl⟩
abbrev main_call0_v12 : Ref sig .tc := ⟨.hbm, 106, rfl⟩
abbrev main_call0_cst_4 : Ref sig .tc := ⟨.hbm, 107, rfl⟩
abbrev main_call0_call0_v0 : Ref sig .tc := ⟨.hbm, 108, rfl⟩
abbrev main_call0_call0_v1 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_10 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_11 : Ref sig .tc := ⟨.hbm, 133, rfl⟩
abbrev main_v83 : Ref sig .tc := ⟨.hbm, 134, rfl⟩
abbrev main_v84 : Ref sig .tc := ⟨.hbm, 135, rfl⟩
abbrev main_cst_12 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  reducesTo_S65536x64_S64_d0 : S65536x64.ReducesTo [0] S64
  h_S_ : 0 < S_.numel
  bcast_S_S64 : S_.BroadcastsInDim S64 (![] : Fin 0 → Fin S64.rank)
  reducesTo_S65536x64_S65536_d1 : S65536x64.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x64_S65536x64x1_0_1 : S65536x64.BroadcastsInDim S65536x64x1 (![0, 1] : Fin 2 → Fin S65536x64x1.rank)
  bcast_S64x16_S1x64x16_1_2 : S64x16.BroadcastsInDim S1x64x16 (![1, 2] : Fin 2 → Fin S1x64x16.rank)
  bcast_S65536x64x1_S65536x64x16_0_1_2 : S65536x64x1.BroadcastsInDim S65536x64x16 (![0, 1, 2] : Fin 3 → Fin S65536x64x16.rank)
  bcast_S1x64x16_S65536x64x16_0_1_2 : S1x64x16.BroadcastsInDim S65536x64x16 (![0, 1, 2] : Fin 3 → Fin S65536x64x16.rank)
  reducesTo_S65536x64x16_S65536x16_d1 : S65536x64x16.ReducesTo [1] S65536x16
  bcast_S_S65536x16 : S_.BroadcastsInDim S65536x16 (![] : Fin 0 → Fin S65536x16.rank)
  reducesTo_S65536x16_S65536_d1 : S65536x16.ReducesTo [1] S65536
  shapeCasts_S65536x64x16_S65536x1024 : S65536x64x16.ShapeCasts S65536x1024
  transposes_S8x1024_S1024x8_1_0 : S8x1024.Transposes [1, 0] S1024x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  reducesTo_S65536x8_S8_d0 : S65536x8.ReducesTo [0] S8
  bcast_S_S8 : S_.BroadcastsInDim S8 (![] : Fin 0 → Fin S8.rank)
  bcast_S_S1x8 : S_.BroadcastsInDim S1x8 (![] : Fin 0 → Fin S1x8.rank)
  transposes_S4x8_S8x4_1_0 : S4x8.Transposes [1, 0] S8x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  reducesTo_S65536x4_S65536_d1 : S65536x4.ReducesTo [1] S65536
  dot_S65536x1024_S1024x8_S65536x8_1_0_0_1_n_n_wf : DotDims.WF S65536x1024 S1024x8 S65536x8 [1] [0] [0] [1] [] []
  dot_S65536x8_S8x4_S65536x4_1_0_0_1_n_n_wf : DotDims.WF S65536x8 S8x4 S65536x4 [1] [0] [0] [1] [] []

variable [Facts₀]

def dot_S65536x1024_S1024x8_S65536x8_1_0_0_1_n_n : DotDims S65536x1024 S1024x8 S65536x8 where
  lhsContracting := [1]
  rhsContracting := [0]
  lhsNonContracting := [0]
  rhsNonContracting := [1]
  lhsBatch := []
  rhsBatch := []
  wf := dot_S65536x1024_S1024x8_S65536x8_1_0_0_1_n_n_wf
def dot_S65536x8_S8x4_S65536x4_1_0_0_1_n_n : DotDims S65536x8 S8x4 S65536x4 where
  lhsContracting := [1]
  rhsContracting := [0]
  lhsNonContracting := [0]
  rhsNonContracting := [1]
  lhsBatch := []
  rhsBatch := []
  wf := dot_S65536x8_S8x4_S65536x4_1_0_0_1_n_n_wf

class Facts : Prop extends Facts₀ where

variable [Facts]
-- ==== Proof.KRun.lean ====
/-
  The kernel program's run with its RESULT named: every weakly fair execution of @main ends with the result array at
  the contents the last region leaves in it (the fold `W5` of the host stretches and the two regions' write-backs from
  the launch memory), the argument arrays as launched. The launch over the five segments is the one the frame takes;
  only the last read-off keeps the result's buffer beside the arguments'.
-/
import proofs.«104323_j42159398977905_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read off the last thread state beside the arguments'. -/
theorem run_value : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.KernelIdeal.KRun

end
-- ==== Proof.KHost.lean ====
/-
  The host side of the kernel program: what the operations around the two regions compute. Before region 0 the column
  means of `Xc`; between the regions the batch mean and the batch variance of the hidden array that region 0 wrote
  (the variance by the outlined function: mean squared deviation, divided by the count less `ddof = 0`, kept where that
  divisor is positive). Each is named as ONE function of a whole array, and the buffers a region reads are read back
  through the fold of the host operations to these functions, to region 0's output arrays, or to the launch memory.
-/
import proofs.«104323_j42159398977905_1_alg».proof.Proof.Gen.KernelIdeal.Frame
import Idealize.ShloMosaic.Lib.StableHlo.Run

set_option maxRecDepth 16384

noncomputable section

namespace Cert.KernelIdeal.KHost

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

/-- The column means of `Xc` over the batch. -/
def xcMean (Xc : FVec F S65536x64 .f32) : FVec F S64 .f32 :=
  Host.divf (Host.reduceAdd Xc (constant S_ .f32 0x00000000#32) reducesTo_S65536x64_S64_d0 h_S_)
    (broadcastInDim S64 ![] bcast_S_S64 (constant S_ .f32 0x47800000#32))

/-- The batch mean of each hidden column. -/
def mu (h : FVec F S65536x8 .f32) : FVec F S8 .f32 :=
  Host.divf (Host.reduceAdd h (constant S_ .f32 0x00000000#32) reducesTo_S65536x8_S8_d0 h_S_)
    (broadcastInDim S8 ![] bcast_S_S8 (constant S_ .f32 0x47800000#32))

/-- The batch variance of each hidden column. -/
def var (h : FVec F S65536x8 .f32) : FVec F S8 .f32 :=
  have c : IVec S_ 32 := constantI S_ 32 0#32
  have cst : FVec F S_ .f32 := constant S_ .f32 0x00000000#32
  have u0 : FVec F S8 .f32 := Host.reduceAdd h cst reducesTo_S65536x8_S8_d0 h_S_
  have u1 : FVec F S1x8 .f32 := broadcastInDim S1x8 ![1] bcast_S8_S1x8_1 u0
  have cst_0 : FVec F S_ .f32 := constant S_ .f32 0x47800000#32
  have u2 : FVec F S1x8 .f32 := broadcastInDim S1x8 ![] bcast_S_S1x8 cst_0
  have u3 : FVec F S1x8 .f32 := Host.divf u1 u2
  have u4 : FVec F S65536x8 .f32 := broadcastInDim S65536x8 ![0, 1] bcast_S1x8_S65536x8_0_1 u3
  have u5 : FVec F S65536x8 .f32 := subf h u4
  have u6 : FVec F S65536x8 .f32 := mulf u5 u5
  have u7 : FVec F S_ .f32 := sitofp .f32 c
  have cst_1 : FVec F S_ .f32 := constant S_ .f32 0x47800000#32
  have u8 : FVec F S_ .f32 := subf cst_1 u7
  have cst_2 : FVec F S_ .f32 := constant S_ .f32 0x00000000#32
  have u9 : FVec F S8 .f32 := Host.reduceAdd u6 cst_2 reducesTo_S65536x8_S8_d0 h_S_
  have u10 : FVec F S8 .f32 := broadcastInDim S8 ![] bcast_S_S8 u8
  have u11 : FVec F S8 .f32 := Host.divf u9 u10
  have cst_3 : FVec F S_ .f32 := constant S_ .f32 0x00000000#32
  have u12 : IVec S_ 1 := cmpf .ogt u8 cst_3
  have cst_4 : FVec F S_ .f32 := constant S_ .f32 0x7FC00000#32
  have w0 : FVec F S_ .f32 := id cst_4
  have w1 : FVec F S8 .f32 := broadcastInDim S8 ![] bcast_S_S8 w0
  have w2 : FVec F S8 .f32 := select (broadcastInDim S8 ![] bcast_S_S8 u12) u11 w1
  w2

variable (m : (ℓ : Loc nD τ sig) → Buf (Elt F) ℓ) (ρ : Dev nD → PrngReg)

/-- Region 0 finds argument 0 as launched: no host operation before it writes an argument. -/
theorem V1_arg0 (c : Dev nD) : V1 m ρ c main_arg0 = m ((c : Thread nD τ).loc main_arg0) := by
  show StableHlo.after hostOps0 (W0 m ρ c) (Proc.devRef .tc main_arg0) = _
  after_results

/-- Region 0 finds argument 1 as launched: no host operation before it writes an argument. -/
theorem V1_arg1 (c : Dev nD) : V1 m ρ c main_arg1 = m ((c : Thread nD τ).loc main_arg1) := by
  show StableHlo.after hostOps0 (W0 m ρ c) (Proc.devRef .tc main_arg1) = _
  after_results

/-- Region 0 finds argument 2 as launched: no host operation before it writes an argument. -/
theorem V1_arg2 (c : Dev nD) : V1 m ρ c main_arg2 = m ((c : Thread nD τ).loc main_arg2) := by
  show StableHlo.after hostOps0 (W0 m ρ c) (Proc.devRef .tc main_arg2) = _
  after_results

/-- Region 0 finds argument 3 as launched: no host operation before it writes an argument. -/
theorem V1_arg3 (c : Dev nD) : V1 m ρ c main_arg3 = m ((c : Thread nD τ).loc main_arg3) := by
  show StableHlo.after hostOps0 (W0 m ρ c) (Proc.devRef .tc main_arg3) = _
  after_results

/-- Region 0 finds argument 4 as launched: no host operation before it writes an argument. -/
theorem V1_arg4 (c : Dev nD) : V1 m ρ c main_arg4 = m ((c : Thread nD τ).loc main_arg4) := by
  show StableHlo.after hostOps0 (W0 m ρ c) (Proc.devRef .tc main_arg4) = _
  after_results

/-- Region 0 finds argument 5 as launched: no host operation before it writes an argument. -/
theorem V1_arg5 (c : Dev nD) : V1 m ρ c main_arg5 = m ((c : Thread nD τ).loc main_arg5) := by
  show StableHlo.after hostOps0 (W0 m ρ c) (Proc.devRef .tc main_arg5) = _
  after_results

/-- Region 0 finds argument 6 as launched: no host operation before it writes an argument. -/
theorem V1_arg6 (c : Dev nD) : V1 m ρ c main_arg6 = m ((c : Thread nD τ).loc main_arg6) := by
  show StableHlo.after hostOps0 (W0 m ρ c) (Proc.devRef .tc main_arg6) = _
  after_results

/-- Region 0 finds argument 7 as launched: no host operation before it writes an argument. -/
theorem V1_arg7 (c : Dev nD) : V1 m ρ c main_arg7 = m ((c : Thread nD τ).loc main_arg7) := by
  show StableHlo.after hostOps0 (W0 m ρ c) (Proc.devRef .tc main_arg7) = _
  after_results

/-- Region 0 finds argument 8 as launched: no host operation before it writes an argument. -/
theorem V1_arg8 (c : Dev nD) : V1 m ρ c main_arg8 = m ((c : Thread nD τ).loc main_arg8) := by
  show StableHlo.after hostOps0 (W0 m ρ c) (Proc.devRef .tc main_arg8) = _
  after_results

/-- Region 0 finds argument 9 as launched: no host operation before it writes an argument. -/
theorem V1_arg9 (c : Dev nD) : V1 m ρ c main_arg9 = m ((c : Thread nD τ).loc main_arg9) := by
  show StableHlo.after hostOps0 (W0 m ρ c) (Proc.devRef .tc main_arg9) = _
  after_results

/-- Region 0 finds argument 10 as launched: no host operation before it writes an argument. -/
theorem V1_arg10 (c : Dev nD) : V1 m ρ c main_arg10 = m ((c : Thread nD τ).loc main_arg10) := by
  show StableHlo.after hostOps0 (W0 m ρ c) (Proc.devRef .tc main_arg10) = _
  after_results

/-- Region 0 finds argument 11 as launched: no host operation before it writes an argument. -/
theorem V1_arg11 (c : Dev nD) : V1 m ρ c main_arg11 = m ((c : Thread nD τ).loc main_arg11) := by
  show StableHlo.after hostOps0 (W0 m ρ c) (Proc.devRef .tc main_arg11) = _
  after_results

/-- Region 0 finds the column means of `Xc` in its third window's array. -/
theorem V1_v2 (c : Dev nD) : (V1 m ρ c main_v2 : S64.Idx → Elt F .f32) = xcMean (m ((c : Thread nD τ).loc main_arg1)) := by
  show StableHlo.after hostOps0 (W0 m ρ c) (Proc.devRef .tc main_v2) = _
  after_results
  rfl

/-- Region 1 finds region 0's hidden array: no host operation between the regions writes it. -/
theorem V4_v3_0 (c : Dev nD) : V4 m ρ c main_v3_0 = (dat0 (V1 m ρ) c).arrAt 13 cfg0.N := by
  show StableHlo.after hostOps1_1 (StableHlo.after hostOps1 (W2 m ρ c)) (Proc.devRef .tc main_v3_0) = _
  after_results
  exact W2_arr m ρ c 13

/-- Region 1 finds region 0's fm array. -/
theorem V4_v3_1 (c : Dev nD) : V4 m ρ c main_v3_1 = (dat0 (V1 m ρ) c).arrAt 14 cfg0.N := by
  show StableHlo.after hostOps1_1 (StableHlo.after hostOps1 (W2 m ρ c)) (Proc.devRef .tc main_v3_1) = _
  after_results
  exact W2_arr m ρ c 14

/-- Region 1 finds the batch means of region 0's hidden array. -/
theorem V4_v6 (c : Dev nD) : (V4 m ρ c main_v6 : S8.Idx → Elt F .f32) = mu ((dat0 (V1 m ρ) c).arrAt 13 cfg0.N) := by
  show StableHlo.after hostOps1_1 (StableHlo.after hostOps1 (W2 m ρ c)) (Proc.devRef .tc main_v6) = _
  after_results
  rw [show W2 m ρ c (Proc.devRef .tc main_v3_0) = (dat0 (V1 m ρ) c).arrAt 13 cfg0.N from W2_arr m ρ c 13]
  rfl

/-- Region 1 finds the batch variances of region 0's hidden array. -/
theorem V4_v7 (c : Dev nD) : (V4 m ρ c main_v7 : S8.Idx → Elt F .f32) = var ((dat0 (V1 m ρ) c).arrAt 13 cfg0.N) := by
  show StableHlo.after hostOps1_1 (StableHlo.after hostOps1 (W2 m ρ c)) (Proc.devRef .tc main_v7) = _
  after_results_simp
  rw [show W2 m ρ c (Proc.devRef .tc main_v3_0) = (dat0 (V1 m ρ) c).arrAt 13 cfg0.N from W2_arr m ρ c 13]
  generalize (dat0 (V1 m ρ) c).arrAt 13 cfg0.N = h
  unfold var
  rfl

/-- Region 1 finds argument 12 as launched. -/
theorem V4_arg12 (c : Dev nD) : V4 m ρ c main_arg12 = m ((c : Thread nD τ).loc main_arg12) := by
  show StableHlo.after hostOps1_1 (StableHlo.after hostOps1 (W2 m ρ c)) (Proc.devRef .tc main_arg12) = _
  after_results
  rw [W2_of_ne m ρ c main_arg12 (by decide)]
  show StableHlo.after hostOps0 (W0 m ρ c) (Proc.devRef .tc main_arg12) = _
  after_results

/-- Region 1 finds argument 13 as launched. -/
theorem V4_arg13 (c : Dev nD) : V4 m ρ c main_arg13 = m ((c : Thread nD τ).loc main_arg13) := by
  show StableHlo.after hostOps1_1 (StableHlo.after hostOps1 (W2 m ρ c)) (Proc.devRef .tc main_arg13) = _
  after_results
  rw [W2_of_ne m ρ c main_arg13 (by decide)]
  show StableHlo.after hostOps0 (W0 m ρ c) (Proc.devRef .tc main_arg13) = _
  after_results

/-- Region 1 finds argument 14 as launched. -/
theorem V4_arg14 (c : Dev nD) : V4 m ρ c main_arg14 = m ((c : Thread nD τ).loc main_arg14) := by
  show StableHlo.after hostOps1_1 (StableHlo.after hostOps1 (W2 m ρ c)) (Proc.devRef .tc main_arg14) = _
  after_results
  rw [W2_of_ne m ρ c main_arg14 (by decide)]
  show StableHlo.after hostOps0 (W0 m ρ c) (Proc.devRef .tc main_arg14) = _
  after_results

/-- Region 1 finds argument 15 as launched. -/
theorem V4_arg15 (c : Dev nD) : V4 m ρ c main_arg15 = m ((c : Thread nD τ).loc main_arg15) := by
  show StableHlo.after hostOps1_1 (StableHlo.after hostOps1 (W2 m ρ c)) (Proc.devRef .tc main_arg15) = _
  after_results
  rw [W2_of_ne m ρ c main_arg15 (by decide)]
  show StableHlo.after hostOps0 (W0 m ρ c) (Proc.devRef .tc main_arg15) = _
  after_results

end Cert.KernelIdeal.KHost

end
-- ==== Proof.Spec.lean ====
/-
  The mathematics both programs compute, one batch row at a time, over the extended reals.

  A row `n` of the batch carries two feature rows `xa, xc : Fin 64 → EReal`. Per field `f` and embedding coordinate `e` its
  second-order embedding is `emb f e = (xa f · W1 f e + B1 f e) · xc f + xa f · (W2 f e · xc f + B2 f e)`.
  * `first`  — the first-order term: the mean over the 64 fields of `(w1 f · xa f + b1 f) · xc f + xa f · (w2 f · xcm f + b2 f)`,
    `xcm` the column means of `Xc` over the whole batch;
  * `second` — the factorisation-machine term: the mean over the 16 embedding coordinates of
    `½ · ((∑_f emb f e)² − ∑_f (emb f e)²)`;
  * `hidden` — the first dense layer: `∑_k emb (k / 16) (k % 16) · lw j k + lb j` over the 1024 flattened coordinates;
  * `deep`   — from the normalised hidden row `z`: the mean over the 4 outputs of `∑_j tanh (z j · γ j + β j) · l2w q j + l2b q`.
  The result of a row is `(first + second) + deep`. Sums are finite sums (no order), quotients `Ideal.div`, the float
  literals (64, 16, 4, ½, the batch-norm ε) are kept as the words both programs print, never evaluated.
-/
import Idealize.ShloMosaic.PureOps.Ideal
import Idealize.ShloMosaic.Lib.ValueIdx

noncomputable section

namespace Cert.Spec

open Idealize.ShloMosaic Idealize.ShloMosaic.ValueIdx

/-- 64.0, 16.0, 4.0, 0.5 and the batch-norm ε, as the f32 words both programs carry. -/
abbrev c64 : EReal := Ideal.ofBits .f32 0x42800000#32
abbrev c16 : EReal := Ideal.ofBits .f32 0x41800000#32
abbrev c4 : EReal := Ideal.ofBits .f32 0x40800000#32
abbrev chalf : EReal := Ideal.ofBits .f32 0x3F000000#32
abbrev ceps : EReal := Ideal.ofBits .f32 0x3727C5AC#32

/-- A rank-2 array read as a matrix, one of its rows, and a rank-1 array read as a vector. -/
abbrev mat {a b : Nat} (X : (⟨2, ![a, b]⟩ : Shape).Idx → EReal) : Fin a → Fin b → EReal := fun i j => X (ix2 i j)
abbrev row {a b : Nat} (X : (⟨2, ![a, b]⟩ : Shape).Idx → EReal) (n : Fin a) : Fin b → EReal := fun j => X (ix2 n j)
abbrev vec {a : Nat} (X : (⟨1, ![a]⟩ : Shape).Idx → EReal) : Fin a → EReal := fun i => X (ix1 i)

/-- The second-order embedding of one row at field `f`, coordinate `e`. -/
def emb (xa xc : Fin 64 → EReal) (W1 B1 W2 B2 : Fin 64 → Fin 16 → EReal) (f : Fin 64) (e : Fin 16) : EReal :=
  (xa f * W1 f e + B1 f e) * xc f + xa f * (W2 f e * xc f + B2 f e)

/-- The first-order term of one row. -/
def first (xa xc w1 b1 w2 b2 xcm : Fin 64 → EReal) : EReal :=
  Ideal.div (∑ f : Fin 64, ((w1 f * xa f + b1 f) * xc f + xa f * (w2 f * xcm f + b2 f))) c64

/-- The factorisation-machine term of one row, from its embedding. -/
def second (E : Fin 64 → Fin 16 → EReal) : EReal :=
  Ideal.div (∑ e : Fin 16, chalf * ((∑ f : Fin 64, E f e) * (∑ f : Fin 64, E f e) - ∑ f : Fin 64, E f e * E f e)) c16

/-- Field and coordinate of a flattened embedding position. -/
abbrev fieldOf (k : Fin 1024) : Fin 64 := ⟨k.val / 16, by omega⟩
abbrev coordOf (k : Fin 1024) : Fin 16 := ⟨k.val % 16, by omega⟩

/-- The first dense layer of one row at output `j`. -/
def hidden (E : Fin 64 → Fin 16 → EReal) (lw : Fin 8 → Fin 1024 → EReal) (lb : Fin 8 → EReal) (j : Fin 8) : EReal :=
  (∑ k : Fin 1024, E (fieldOf k) (coordOf k) * lw j k) + lb j

/-- The deep term of one row, from its normalised hidden row `z`. -/
def deep (z γ β : Fin 8 → EReal) (l2w : Fin 4 → Fin 8 → EReal) (l2b : Fin 4 → EReal) : EReal :=
  Ideal.div (∑ q : Fin 4, ((∑ j : Fin 8, Ideal.tanh (z j * γ j + β j) * l2w q j) + l2b q)) c4

end Cert.Spec

end
-- ==== Proof.KBlocks0.lean ====
/-
  Region 0 (the embedding kernel), from blocks to arrays. Grid point `t` of 32 handles the 2048 batch rows
  `2048·t … 2048·t + 2047`: it reads those rows of `Xa` and `Xc` and the per-field parameters whole, and writes those
  rows of the hidden array [65536, 8] and of the fm array [65536, 1]. Since each written row is a function of the same
  row of the inputs alone, the two output arrays after the region are the row-wise functions of the whole input arrays.
-/
import proofs.«104323_j42159398977905_1_alg».proof.Proof.Gen.KernelIdeal.Frame
import proofs.«104323_j42159398977905_1_alg».proof.Proof.Spec
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The block index maps over the grid: the row-blocked windows (`Xa`, `Xc`, the two outputs) sit at block `t` of the
    row axis and block 0 of the other; every parameter window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 1) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem t_lt (t : Fin cfg0.N) : t.val < 32 := lt_of_lt_of_eq t.isLt N_0

/-- The batch row that row `r` of point `t`'s block is. -/
abbrev rowAt (t : Fin cfg0.N) (r : Fin 2048) : Fin 65536 := ⟨t.val * 2048 + r.val, by have := t_lt t; omega⟩

/-- A row of `Xa`'s block at point `t` is that batch row of `Xa`. -/
theorem blk_Xa (c : Dev nD) (t : Fin cfg0.N) (r : Fin 2048) (f : Fin 64) :
    iblk0 V c 0 t (ix2 r f) = (V c main_arg0 : S65536x64.Idx → Elt F .f32) (ix2 (rowAt t r) f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg0 (((cfg0.win 0).blk t).view.emb (ix2 r f)) = V c main_arg0 _
  refine congrArg _ ?_
  funext a; apply Fin.ext
  match a with
  | ⟨0, _⟩ => show win0_0.index t (0 : Fin 2) * 2048 + 1 * r.val = t.val * 2048 + r.val; omega
  | ⟨1, _⟩ => show win0_0.index t (1 : Fin 2) * 64 + 1 * f.val = f.val; omega

/-- A row of `Xc`'s block at point `t` is that batch row of `Xc`. -/
theorem blk_Xc (c : Dev nD) (t : Fin cfg0.N) (r : Fin 2048) (f : Fin 64) :
    iblk0 V c 1 t (ix2 r f) = (V c main_arg1 : S65536x64.Idx → Elt F .f32) (ix2 (rowAt t r) f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg1 (((cfg0.win 1).blk t).view.emb (ix2 r f)) = V c main_arg1 _
  refine congrArg _ ?_
  funext a; apply Fin.ext
  match a with
  | ⟨0, _⟩ => show win0_1.index t (0 : Fin 2) * 2048 + 1 * r.val = t.val * 2048 + r.val; omega
  | ⟨1, _⟩ => show win0_1.index t (1 : Fin 2) * 64 + 1 * f.val = f.val; omega

/-- The per-field vector window 2 holds its whole array at every point. -/
theorem blk_xcm (c : Dev nD) (t : Fin cfg0.N) (f : Fin 64) :
    iblk0 V c 2 t (ix1 f) = (V c main_v2 : S64.Idx → Elt F .f32) (ix1 f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_v2 (((cfg0.win 2).blk t).view.emb (ix1 f)) = V c main_v2 _
  refine congrArg _ ?_
  funext a; apply Fin.ext
  match a with
  | ⟨0, _⟩ => show win0_2.index t (0 : Fin 1) * 64 + 1 * f.val = f.val; omega

/-- The per-field vector window 3 holds its whole array at every point. -/
theorem blk_w1 (c : Dev nD) (t : Fin cfg0.N) (f : Fin 64) :
    iblk0 V c 3 t (ix1 f) = (V c main_arg2 : S64.Idx → Elt F .f32) (ix1 f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg2 (((cfg0.win 3).blk t).view.emb (ix1 f)) = V c main_arg2 _
  refine congrArg _ ?_
  funext a; apply Fin.ext
  match a with
  | ⟨0, _⟩ => show win0_3.index t (0 : Fin 1) * 64 + 1 * f.val = f.val; omega

/-- The per-field vector window 4 holds its whole array at every point. -/
theorem blk_b1 (c : Dev nD) (t : Fin cfg0.N) (f : Fin 64) :
    iblk0 V c 4 t (ix1 f) = (V c main_arg3 : S64.Idx → Elt F .f32) (ix1 f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg3 (((cfg0.win 4).blk t).view.emb (ix1 f)) = V c main_arg3 _
  refine congrArg _ ?_
  funext a; apply Fin.ext
  match a with
  | ⟨0, _⟩ => show win0_4.index t (0 : Fin 1) * 64 + 1 * f.val = f.val; omega

/-- The per-field vector window 5 holds its whole array at every point. -/
theorem blk_w2 (c : Dev nD) (t : Fin cfg0.N) (f : Fin 64) :
    iblk0 V c 5 t (ix1 f) = (V c main_arg4 : S64.Idx → Elt F .f32) (ix1 f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg4 (((cfg0.win 5).blk t).view.emb (ix1 f)) = V c main_arg4 _
  refine congrArg _ ?_
  funext a; apply Fin.ext
  match a with
  | ⟨0, _⟩ => show win0_5.index t (0 : Fin 1) * 64 + 1 * f.val = f.val; omega

/-- The per-field vector window 6 holds its whole array at every point. -/
theorem blk_b2 (c : Dev nD) (t : Fin cfg0.N) (f : Fin 64) :
    iblk0 V c 6 t (ix1 f) = (V c main_arg5 : S64.Idx → Elt F .f32) (ix1 f) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg5 (((cfg0.win 6).blk t).view.emb (ix1 f)) = V c main_arg5 _
  refine congrArg _ ?_
  funext a; apply Fin.ext
  match a with
  | ⟨0, _⟩ => show win0_6.index t (0 : Fin 1) * 64 + 1 * f.val = f.val; omega

/-- The per-field-and-coordinate window 7 holds its whole array at every point. -/
theorem blk_W1 (c : Dev nD) (t : Fin cfg0.N) (f : Fin 64) (e : Fin 16) :
    iblk0 V c 7 t (ix2 f e) = (V c main_arg6 : S64x16.Idx → Elt F .f32) (ix2 f e) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg6 (((cfg0.win 7).blk t).view.emb (ix2 f e)) = V c main_arg6 _
  refine congrArg _ ?_
  funext a; apply Fin.ext
  match a with
  | ⟨0, _⟩ => show win0_7.index t (0 : Fin 2) * 64 + 1 * f.val = f.val; omega
  | ⟨1, _⟩ => show win0_7.index t (1 : Fin 2) * 16 + 1 * e.val = e.val; omega

/-- The per-field-and-coordinate window 8 holds its whole array at every point. -/
theorem blk_B1 (c : Dev nD) (t : Fin cfg0.N) (f : Fin 64) (e : Fin 16) :
    iblk0 V c 8 t (ix2 f e) = (V c main_arg7 : S64x16.Idx → Elt F .f32) (ix2 f e) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg7 (((cfg0.win 8).blk t).view.emb (ix2 f e)) = V c main_arg7 _
  refine congrArg _ ?_
  funext a; apply Fin.ext
  match a with
  | ⟨0, _⟩ => show win0_8.index t (0 : Fin 2) * 64 + 1 * f.val = f.val; omega
  | ⟨1, _⟩ => show win0_8.index t (1 : Fin 2) * 16 + 1 * e.val = e.val; omega

/-- The per-field-and-coordinate window 9 holds its whole array at every point. -/
theorem blk_W2 (c : Dev nD) (t : Fin cfg0.N) (f : Fin 64) (e : Fin 16) :
    iblk0 V c 9 t (ix2 f e) = (V c main_arg8 : S64x16.Idx → Elt F .f32) (ix2 f e) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg8 (((cfg0.win 9).blk t).view.emb (ix2 f e)) = V c main_arg8 _
  refine congrArg _ ?_
  funext a; apply Fin.ext
  match a with
  | ⟨0, _⟩ => show win0_9.index t (0 : Fin 2) * 64 + 1 * f.val = f.val; omega
  | ⟨1, _⟩ => show win0_9.index t (1 : Fin 2) * 16 + 1 * e.val = e.val; omega

/-- The per-field-and-coordinate window 10 holds its whole array at every point. -/
theorem blk_B2 (c : Dev nD) (t : Fin cfg0.N) (f : Fin 64) (e : Fin 16) :
    iblk0 V c 10 t (ix2 f e) = (V c main_arg9 : S64x16.Idx → Elt F .f32) (ix2 f e) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg9 (((cfg0.win 10).blk t).view.emb (ix2 f e)) = V c main_arg9 _
  refine congrArg _ ?_
  funext a; apply Fin.ext
  match a with
  | ⟨0, _⟩ => show win0_10.index t (0 : Fin 2) * 64 + 1 * f.val = f.val; omega
  | ⟨1, _⟩ => show win0_10.index t (1 : Fin 2) * 16 + 1 * e.val = e.val; omega

/-- The dense layer's weight window holds its whole array at every point. -/
theorem blk_lw (c : Dev nD) (t : Fin cfg0.N) (j : Fin 8) (k : Fin 1024) :
    iblk0 V c 11 t (ix2 j k) = (V c main_arg10 : S8x1024.Idx → Elt F .f32) (ix2 j k) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg10 (((cfg0.win 11).blk t).view.emb (ix2 j k)) = V c main_arg10 _
  refine congrArg _ ?_
  funext a; apply Fin.ext
  match a with
  | ⟨0, _⟩ => show win0_11.index t (0 : Fin 2) * 8 + 1 * j.val = j.val; omega
  | ⟨1, _⟩ => show win0_11.index t (1 : Fin 2) * 1024 + 1 * k.val = k.val; omega

/-- The dense layer's bias window holds its whole array at every point. -/
theorem blk_lb (c : Dev nD) (t : Fin cfg0.N) (j : Fin 8) :
    iblk0 V c 12 t (ix1 j) = (V c main_arg11 : S8.Idx → Elt F .f32) (ix1 j) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  show V c main_arg11 (((cfg0.win 12).blk t).view.emb (ix1 j)) = V c main_arg11 _
  refine congrArg _ ?_
  funext a; apply Fin.ext
  match a with
  | ⟨0, _⟩ => show win0_12.index t (0 : Fin 1) * 8 + 1 * j.val = j.val; omega

/-- Where row `r`, column `j` of the hidden output's block at point `t` sits in the array. -/
theorem emb13 (t : Fin cfg0.N) (r : Fin 2048) (j : Fin 8) :
    ((cfg0.win 13).blk t).view.emb (ix2 r j) = (ix2 (rowAt t r) j : S65536x8.Idx) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  funext a; apply Fin.ext
  match a with
  | ⟨0, _⟩ => show win0_13.index t (0 : Fin 2) * 2048 + 1 * r.val = t.val * 2048 + r.val; omega
  | ⟨1, _⟩ => show win0_13.index t (1 : Fin 2) * 8 + 1 * j.val = j.val; omega

/-- Where row `r` of the fm output's block at point `t` sits in the array. -/
theorem emb14 (t : Fin cfg0.N) (r : Fin 2048) (j : Fin 1) :
    ((cfg0.win 14).blk t).view.emb (ix2 r j) = (ix2 (rowAt t r) j : S65536x1.Idx) := by
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts t
  funext a; apply Fin.ext
  match a with
  | ⟨0, _⟩ => show win0_14.index t (0 : Fin 2) * 2048 + 1 * r.val = t.val * 2048 + r.val; omega
  | ⟨1, _⟩ => show win0_14.index t (1 : Fin 2) * 1 + 1 * j.val = j.val; omega

end Cert.KernelIdeal.Blocks0

end
-- ==== Proof.SpecArr.lean ====
/-
  The row-wise mathematics of `Spec` lifted to whole arrays: the hidden array [65536, 8], the fm array [65536, 1] and
  the result [65536, 1] as functions of the argument arrays, index by index. Row `n` of each depends on row `n` of
  `Xa` and `Xc` and on the parameters; the result also on the per-column normaliser `z` of the hidden array.
-/
import proofs.«104323_j42159398977905_1_alg».proof.Proof.Spec

noncomputable section

namespace Cert.Spec

open Idealize.ShloMosaic Idealize.ShloMosaic.ValueIdx

abbrev A65536x64 : Shape := ⟨2, ![65536, 64]⟩
abbrev A65536x8 : Shape := ⟨2, ![65536, 8]⟩
abbrev A65536x1 : Shape := ⟨2, ![65536, 1]⟩
abbrev A64x16 : Shape := ⟨2, ![64, 16]⟩
abbrev A8x1024 : Shape := ⟨2, ![8, 1024]⟩
abbrev A4x8 : Shape := ⟨2, ![4, 8]⟩
abbrev A64 : Shape := ⟨1, ![64]⟩
abbrev A8 : Shape := ⟨1, ![8]⟩
abbrev A4 : Shape := ⟨1, ![4]⟩

/-- The embedding of batch row `n`. -/
abbrev embOf (Xa Xc : A65536x64.Idx → EReal) (W1 B1 W2 B2 : A64x16.Idx → EReal) (n : Fin 65536) : Fin 64 → Fin 16 → EReal :=
  emb (row Xa n) (row Xc n) (mat W1) (mat B1) (mat W2) (mat B2)

/-- The hidden array. -/
def hiddenArr (Xa Xc : A65536x64.Idx → EReal) (W1 B1 W2 B2 : A64x16.Idx → EReal) (lw : A8x1024.Idx → EReal)
    (lb : A8.Idx → EReal) : A65536x8.Idx → EReal :=
  fun i => hidden (embOf Xa Xc W1 B1 W2 B2 (i 0)) (mat lw) (vec lb) (i 1)

/-- The fm array: first-order plus factorisation-machine term of each row (`xcm` the column means of `Xc`). -/
def fmArr (Xa Xc : A65536x64.Idx → EReal) (xcm w1 b1 w2 b2 : A64.Idx → EReal) (W1 B1 W2 B2 : A64x16.Idx → EReal) :
    A65536x1.Idx → EReal :=
  fun i => first (row Xa (i 0)) (row Xc (i 0)) (vec w1) (vec b1) (vec w2) (vec b2) (vec xcm) + second (embOf Xa Xc W1 B1 W2 B2 (i 0))

/-- The result: each row's fm value plus the deep term of its normalised hidden row `z n`. -/
def outArr (fm : A65536x1.Idx → EReal) (z : Fin 65536 → Fin 8 → EReal) (γ β : A8.Idx → EReal) (l2w : A4x8.Idx → EReal)
    (l2b : A4.Idx → EReal) : A65536x1.Idx → EReal :=
  fun i => fm i + deep (z (i 0)) (vec γ) (vec β) (mat l2w) (vec l2b)

end Cert.Spec

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.PayEmbed.lean ====
/-
  The embed kernel's stored blocks READ AT AN INDEX, at the ideal values: each is the row-wise formula of Spec.lean over
  the loaded blocks.

  The body builds the second-order embedding block `[2048, 64, 16]` pointwise from the two feature blocks
  `[2048, 64]` (cast to `[2048, 64, 1]` and broadcast along the embedding axis) and the four tables `[64, 16]` (cast to
  `[1, 64, 16]` and broadcast down the rows): at `(r, f, e)` it is `Spec.emb` of row `r` (`emb_block`). From it
  * the hidden block `[2048, 8]`: the embedding flattened to `[2048, 1024]` — position `k` is field `k / 16`, coordinate
    `k % 16` (`flatten_apply`) — times the transposed weights, into a zero accumulator, plus the bias row: a sum over the
    1024 flattened positions (`matmulH_apply`), `Spec.hidden` (`hidden_block`);
  * the factorisation-machine column `[2048, 1]`: the first-order mean over the 64 fields plus the mean over the 16
    coordinates of `½ · ((∑_f emb)² − ∑_f emb²)`, each sum a reduction over one axis read as the `Fin`-indexed sum over
    that axis (`sumF2_apply`, `sumF3_apply`, `sumE_apply`), each mean a quotient by the literal word: `Spec.first +
    Spec.second` (`fm_block`).
  No algebra is used: the operand order of Spec.lean is the printed operations' order, and the float literals stay the
  words both sides carry.
-/
import proofs.«104323_j42159398977905_1_alg».proof.Proof.Gen.KernelIdeal.Skeleton
import proofs.«104323_j42159398977905_1_alg».proof.Proof.Spec
import proofs.«104323_j42159398977905_1_alg».proof.Proof.LibColumn
import Idealize.ShloMosaic.Lib.ValueLayout
import Idealize.ShloMosaic.PureOps.Ideal.Laws

noncomputable section

namespace Cert.KernelIdeal.PayRead

open Idealize.ShloMosaic Idealize.ShloMosaic.ValueIdx Cert.KernelIdeal Cert.KernelIdeal.Gen Cert.Spec Cert.LibColumn

/-! ## The embedding block -/

/-- The embedding block at `(r, f, e)` is the second-order embedding of row `r` at field `f`, coordinate `e`:
    `(xa f · W1 f e + B1 f e) · xc f + xa f · (W2 f e · xc f + B2 f e)`. Every operation is pointwise; the casts and
    broadcasts read the feature blocks at `(r, f)` and the tables at `(f, e)`. -/
theorem emb_block (v0 v1 : Vec Ideal S2048x64 .f32) (v25 v26 v27 v28 : Vec Ideal S64x16 .f32) (r : Fin 2048) (f : Fin 64) (e : Fin 16) :
    k0_pay1 (F := Ideal) v27 v28 (k0_pay5 v0) (k0_pay6 v1) (k0_pay7 v0 v1 v25 v26) (ix3 r f e)
      = Spec.emb (row v0 r) (row v1 r) (mat v25) (mat v26) (mat v27) (mat v28) f e := by
  unfold k0_pay1 k0_pay7 k0_pay5 k0_pay6 Spec.emb
  simp only [addf_apply, mulf_apply, broadcastTo_ab1_abc_apply, broadcastTo_1bc_abc_apply, shapeCast_ab_1ab_apply, shapeCast_ab_ab1_apply]

/-! ## The hidden block: a contraction over the 1024 flattened embedding positions -/

/-- The `[2048, 64, 16]` block flattened to `[2048, 1024]` reads, at `(r, k)`, the block at `(r, k / 16, k % 16)`: the
    two row-major positions agree, `(r · 64 + k / 16) · 16 + k % 16 = r · 1024 + k`. -/
theorem flatten_apply (x : FVec Ideal S2048x64x16 .f32) (r : Fin 2048) (k : Fin 1024) :
    shapeCast S2048x1024 x shapeCasts_S2048x64x16_S2048x1024 (ix2 r k) = x (ix3 r (fieldOf k) (coordOf k)) :=
  shapeCast_apply x _ _ _ (by
    rw [Shape.rowMajor_val_three, Shape.rowMajor_val_two]
    show (r.val * 64 + k.val / 16) * 16 + k.val % 16 = r.val * 1024 + k.val
    omega)

/-- The dimension numbers of the `[2048, 1024] × [1024, 8]` product: one contracting axis, no batch axis. -/
abbrev dotH : DotDims S2048x1024 S1024x8 S2048x8 := dot_S2048x1024_S1024x8_S2048x8_1_0_0_1_n_n

/-- The left operand's row coordinate is the result's. -/
theorem dotH_lhs0 (i : S2048x8.Idx) (q : dotH.contr.Idx) : (dotH.lhsIdx i q 0).val = (i 0).val := by
  unfold DotDims.lhsIdx
  rw [dif_neg (show ¬(0 : Fin S2048x1024.rank) ∈ dotH.lhsBatch by decide),
    dif_pos (show (0 : Fin S2048x1024.rank) ∈ dotH.lhsNonContracting by decide)]
  rfl

/-- The right operand's column coordinate is the result's. -/
theorem dotH_rhs1 (i : S2048x8.Idx) (q : dotH.contr.Idx) : (dotH.rhsIdx i q 1).val = (i 1).val := by
  unfold DotDims.rhsIdx
  rw [dif_neg (show ¬(1 : Fin S1024x8.rank) ∈ dotH.rhsBatch by decide),
    dif_pos (show (1 : Fin S1024x8.rank) ∈ dotH.rhsNonContracting by decide)]
  rfl

/-- The product into a zero accumulator at `(r, j)` is `∑ k, lhs (r, k) · rhs (k, j)` over the 1024 contracted positions:
    the sum over the contraction index, re-indexed through its one coordinate. -/
theorem matmulH_apply (lhs : FVec Ideal S2048x1024 .f32) (rhs : FVec Ideal S1024x8 .f32) (r : Fin 2048) (j : Fin 8) :
    matmul dot_S2048x1024_S1024x8_S2048x8_1_0_0_1_n_n none lhs rhs (constant S2048x8 .f32 0x00000000#32) (ix2 r j)
      = ∑ k : Fin 1024, lhs (ix2 r k) * rhs (ix2 k j) := by
  show FloatOps.matmul dotH none lhs rhs (constant S2048x8 .f32 0x00000000#32) (ix2 r j) = _
  rw [Ideal.matmul_constant_zero_apply, ← Equiv.sum_comp (contrEquiv1 dotH 1024 rfl rfl).symm]
  refine Finset.sum_congr rfl fun k _ => ?_
  have hk := contrEquiv1_symm_val dotH 1024 rfl rfl k
  have el : dotH.lhsIdx (ix2 r j) ((contrEquiv1 dotH 1024 rfl rfl).symm k) = ix2 r k := funext fun a => Fin.ext (by
    match a with
    | ⟨0, _⟩ => exact dotH_lhs0 _ _
    | ⟨1, _⟩ => exact (dotH.lhsIdx_val_of_single rfl _ _).trans hk)
  have er : dotH.rhsIdx (ix2 r j) ((contrEquiv1 dotH 1024 rfl rfl).symm k) = ix2 k j := funext fun a => Fin.ext (by
    match a with
    | ⟨0, _⟩ => exact (dotH.rhsIdx_val_of_single rfl _ _).trans hk
    | ⟨1, _⟩ => exact dotH_rhs1 _ _)
  rw [el, er]

/-- The `[8, 1024]` weights transposed read, at `(k, j)`, the weights at `(j, k)`. -/
theorem transposeH_apply (x : Vec Ideal S8x1024 .f32) (k : Fin 1024) (j : Fin 8) :
    transpose S1024x8 [1, 0] x transposes_S8x1024_p1_0_S1024x8 (ix2 k j) = x (ix2 j k) :=
  transpose_ix2_apply x _ k j

/-- The hidden block at `(r, j)` is the first dense layer of row `r` at output `j`:
    `∑ k, emb (k / 16) (k % 16) · lw j k + lb j`. -/
theorem hidden_block (v0 v1 : Vec Ideal S2048x64 .f32) (v25 v26 v27 v28 : Vec Ideal S64x16 .f32) (v64 : Vec Ideal S8x1024 .f32) (v65 : Vec Ideal S8 .f32) (r : Fin 2048) (j : Fin 8) :
    k0_pay3 (F := Ideal) v27 v28 (k0_pay5 v0) (k0_pay6 v1) (k0_pay7 v0 v1 v25 v26) v64 v65 (ix2 r j)
      = Spec.hidden (Spec.emb (row v0 r) (row v1 r) (mat v25) (mat v26) (mat v27) (mat v28)) (mat v64) (vec v65) j := by
  unfold k0_pay3 Spec.hidden
  simp only [addf_apply, matmulH_apply, flatten_apply, broadcastTo_1b_ab_apply, shapeCast_a_1a_apply, emb_block]
  refine congrArg₂ (· + ·) (Finset.sum_congr rfl fun k _ => ?_) rfl
  rw [transposeH_apply]

/-! ## The factorisation-machine column: sums over one axis -/

/-- The sum over the 64 fields of a `[2048, 64, 16]` block at `(r, e)`. -/
theorem sumF3_apply (src : FVec Ideal S2048x64x16 .f32) (r : Fin 2048) (e : Fin 16) :
    multiReduction .add [1] S2048x16 src 0x00000000#32 reduces_S2048x64x16_S2048x16 (.inl rfl) rfl (ix2 r e)
      = ∑ f : Fin 64, src (ix3 r f e) := by
  refine (Ideal.multiReduction_add_single src 0x00000000#32 reduces_S2048x64x16_S2048x16 (.inl rfl) rfl (ix2 r e)).trans ?_
  refine Finset.sum_congr rfl fun k _ => congrArg src (funext fun a => Fin.ext ?_)
  match a with
  | ⟨0, _⟩ => rfl
  | ⟨1, _⟩ => rfl
  | ⟨2, _⟩ => rfl

/-- The sum over the 16 coordinates of a `[2048, 16]` block at `r`. -/
theorem sumE_apply (src : FVec Ideal S2048x16 .f32) (r : Fin 2048) :
    multiReduction .add [1] S2048 src 0x00000000#32 reduces_S2048x16_S2048 (.inl rfl) rfl (ix1 r)
      = ∑ e : Fin 16, src (ix2 r e) := by
  refine (Ideal.multiReduction_add_single src 0x00000000#32 reduces_S2048x16_S2048 (.inl rfl) rfl (ix1 r)).trans ?_
  refine Finset.sum_congr rfl fun k _ => congrArg src (funext fun a => Fin.ext ?_)
  match a with
  | ⟨0, _⟩ => rfl
  | ⟨1, _⟩ => rfl

/-- The sum over the 64 fields of a `[2048, 64]` block at `r`. -/
theorem sumF2_apply (src : FVec Ideal S2048x64 .f32) (r : Fin 2048) :
    multiReduction .add [1] S2048 src 0x00000000#32 reduces_S2048x64_S2048 (.inl rfl) rfl (ix1 r)
      = ∑ f : Fin 64, src (ix2 r f) := by
  refine (Ideal.multiReduction_add_single src 0x00000000#32 reduces_S2048x64_S2048 (.inl rfl) rfl (ix1 r)).trans ?_
  refine Finset.sum_congr rfl fun k _ => congrArg src (funext fun a => Fin.ext ?_)
  match a with
  | ⟨0, _⟩ => rfl
  | ⟨1, _⟩ => rfl

/-- The factorisation-machine column at row `r` is the first-order term of the row plus its second-order term:
    the mean over the fields of `(w1 f · xa f + b1 f) · xc f + xa f · (w2 f · xcm f + b2 f)`, plus the mean over the
    coordinates of `½ · ((∑_f emb f e)² − ∑_f (emb f e)²)`. -/
theorem fm_block (v0 v1 : Vec Ideal S2048x64 .f32) (v2 v3 v4 v5 v6 : Vec Ideal S64 .f32) (v25 v26 v27 v28 : Vec Ideal S64x16 .f32) (r : Fin 2048) :
    k0_pay2 (F := Ideal) (k0_pay4 v0 v1 v2 v3 v4 v5 v6) v27 v28 (k0_pay5 v0) (k0_pay6 v1) (k0_pay7 v0 v1 v25 v26) (ix2 r (0 : Fin 1))
      = Spec.first (row v0 r) (row v1 r) (vec v2) (vec v3) (vec v4) (vec v5) (vec v6)
        + Spec.second (Spec.emb (row v0 r) (row v1 r) (mat v25) (mat v26) (mat v27) (mat v28)) := by
  unfold k0_pay2 k0_pay4 Spec.first Spec.second
  simp only [addf_apply, divf_apply, broadcast_apply, shapeCast_a_a1_apply, shapeCast_self, Ideal.ofBits_def]
  refine congrArg₂ (· + ·) (congrArg (Ideal.div · _) ?_) (congrArg (Ideal.div · _) ?_)
  · rw [sumF2_apply]
    simp only [addf_apply, mulf_apply, broadcastTo_1b_ab_apply, shapeCast_a_1a_apply]
  · rw [sumE_apply]
    refine Finset.sum_congr rfl fun e _ => ?_
    simp only [mulf_apply, subf_apply, broadcast_apply]
    rw [sumF3_apply, sumF3_apply]
    simp only [mulf_apply, emb_block]

end Cert.KernelIdeal.PayRead

end
-- ==== Proof.KFinal0.lean ====
/-
  Region 0, from blocks to arrays. What grid point `t` writes back to the hidden array and to the fm array is the
  row-wise function of the rows `2048·t …` of `Xa`, `Xc` and of the whole parameter arrays (the body's payload read at an
  index, each input block read where the output's rectangle says); every row is written by exactly the point that
  handles its block, so after the region the two arrays ARE the row-wise arrays of `SpecArr`.
-/
import proofs.«104323_j42159398977905_1_alg».proof.Proof.KBlocks0
import proofs.«104323_j42159398977905_1_alg».proof.Proof.SpecArr
import proofs.«104323_j42159398977905_1_alg».proof.Proof.PayEmbed

set_option maxRecDepth 16384

noncomputable section

namespace Cert.KernelIdeal.Final0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Blocks0 Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- WHAT POINT `t` WRITES BACK to the hidden array is block `t` of the row-wise hidden array of the arrays the region finds. -/
theorem flushed13_eq (c : Dev nD) (t : Fin cfg0.N) :
    (dat0 V c).flushed 13 t = ((cfg0.win 13).blk t).view.read (Elt Ideal)
      (hiddenArr (V c main_arg0) (V c main_arg1) (V c main_arg6) (V c main_arg7) (V c main_arg8) (V c main_arg9) (V c main_arg10) (V c main_arg11)) := by
  show (cfg0.win 13).cut (grid0.coords t) ((dat0 V c).after 13 t) = _
  rw [after0_13]
  unfold out0_13
  rw [View.canon_unit_zero hz2]
  simp only [View.ld_unit_zero (S := S2048x64) hz2, View.ld_unit_zero (S := S64x16) hz2, View.ld_unit_zero (S := S8x1024) hz2, View.ld_unit_zero (S := S8) hz1]
  funext y
  obtain ⟨r, j, rfl⟩ : ∃ (r : Fin 2048) (j : Fin 8), y = ix2 r j := ⟨y 0, y 1, eq_ix2 y⟩
  show k0_pay3 (F := Ideal) (iblk0 V c 9 t) (iblk0 V c 10 t) (k0_pay5 (iblk0 V c 0 t)) (k0_pay6 (iblk0 V c 1 t))
        (k0_pay7 (iblk0 V c 0 t) (iblk0 V c 1 t) (iblk0 V c 7 t) (iblk0 V c 8 t)) (iblk0 V c 11 t) (iblk0 V c 12 t) (ix2 r j)
      = hiddenArr (V c main_arg0) (V c main_arg1) (V c main_arg6) (V c main_arg7) (V c main_arg8) (V c main_arg9)
        (V c main_arg10) (V c main_arg11) (((cfg0.win 13).blk t).view.emb (ix2 r j))
  rw [emb13 t r j]
  refine (PayRead.hidden_block (iblk0 V c 0 t) (iblk0 V c 1 t) (iblk0 V c 7 t) (iblk0 V c 8 t) (iblk0 V c 9 t) (iblk0 V c 10 t)
    (iblk0 V c 11 t) (iblk0 V c 12 t) r j).trans ?_
  have hxa : (row (iblk0 V c 0 t) r : Fin 64 → EReal) = row (V c main_arg0) (rowAt t r) := funext fun f => blk_Xa V c t r f
  have hxc : (row (iblk0 V c 1 t) r : Fin 64 → EReal) = row (V c main_arg1) (rowAt t r) := funext fun f => blk_Xc V c t r f
  have hW1 : (mat (iblk0 V c 7 t) : Fin 64 → Fin 16 → EReal) = mat (V c main_arg6) := funext fun f => funext fun e => blk_W1 V c t f e
  have hB1 : (mat (iblk0 V c 8 t) : Fin 64 → Fin 16 → EReal) = mat (V c main_arg7) := funext fun f => funext fun e => blk_B1 V c t f e
  have hW2 : (mat (iblk0 V c 9 t) : Fin 64 → Fin 16 → EReal) = mat (V c main_arg8) := funext fun f => funext fun e => blk_W2 V c t f e
  have hB2 : (mat (iblk0 V c 10 t) : Fin 64 → Fin 16 → EReal) = mat (V c main_arg9) := funext fun f => funext fun e => blk_B2 V c t f e
  have hlw : (mat (iblk0 V c 11 t) : Fin 8 → Fin 1024 → EReal) = mat (V c main_arg10) := funext fun a => funext fun k => blk_lw V c t a k
  have hlb : (vec (iblk0 V c 12 t) : Fin 8 → EReal) = vec (V c main_arg11) := funext fun a => blk_lb V c t a
  rw [hxa, hxc, hW1, hB1, hW2, hB2, hlw, hlb]
  rfl

/-- WHAT POINT `t` WRITES BACK to the fm array is block `t` of the row-wise fm array of the arrays the region finds. -/
theorem flushed14_eq (c : Dev nD) (t : Fin cfg0.N) :
    (dat0 V c).flushed 14 t = ((cfg0.win 14).blk t).view.read (Elt Ideal)
      (fmArr (V c main_arg0) (V c main_arg1) (V c main_v2) (V c main_arg2) (V c main_arg3) (V c main_arg4) (V c main_arg5)
        (V c main_arg6) (V c main_arg7) (V c main_arg8) (V c main_arg9)) := by
  show (cfg0.win 14).cut (grid0.coords t) ((dat0 V c).after 14 t) = _
  rw [after0_14]
  unfold out0_14
  rw [View.canon_unit_zero hz2]
  simp only [View.ld_unit_zero (S := S2048x64) hz2, View.ld_unit_zero (S := S64x16) hz2, View.ld_unit_zero (S := S64) hz1]
  funext y
  obtain ⟨r, j, rfl⟩ : ∃ (r : Fin 2048) (j : Fin 1), y = ix2 r j := ⟨y 0, y 1, eq_ix2 y⟩
  obtain rfl : j = 0 := Subsingleton.elim _ _
  show k0_pay2 (F := Ideal) (k0_pay4 (iblk0 V c 0 t) (iblk0 V c 1 t) (iblk0 V c 3 t) (iblk0 V c 4 t) (iblk0 V c 5 t) (iblk0 V c 6 t) (iblk0 V c 2 t))
        (iblk0 V c 9 t) (iblk0 V c 10 t) (k0_pay5 (iblk0 V c 0 t)) (k0_pay6 (iblk0 V c 1 t))
        (k0_pay7 (iblk0 V c 0 t) (iblk0 V c 1 t) (iblk0 V c 7 t) (iblk0 V c 8 t)) (ix2 r (0 : Fin 1))
      = fmArr (V c main_arg0) (V c main_arg1) (V c main_v2) (V c main_arg2) (V c main_arg3) (V c main_arg4) (V c main_arg5)
        (V c main_arg6) (V c main_arg7) (V c main_arg8) (V c main_arg9) (((cfg0.win 14).blk t).view.emb (ix2 r (0 : Fin 1)))
  rw [emb14 t r 0]
  refine (PayRead.fm_block (iblk0 V c 0 t) (iblk0 V c 1 t) (iblk0 V c 3 t) (iblk0 V c 4 t) (iblk0 V c 5 t) (iblk0 V c 6 t) (iblk0 V c 2 t)
    (iblk0 V c 7 t) (iblk0 V c 8 t) (iblk0 V c 9 t) (iblk0 V c 10 t) r).trans ?_
  have hxa : (row (iblk0 V c 0 t) r : Fin 64 → EReal) = row (V c main_arg0) (rowAt t r) := funext fun f => blk_Xa V c t r f
  have hxc : (row (iblk0 V c 1 t) r : Fin 64 → EReal) = row (V c main_arg1) (rowAt t r) := funext fun f => blk_Xc V c t r f
  have hxcm : (vec (iblk0 V c 2 t) : Fin 64 → EReal) = vec (V c main_v2) := funext fun f => blk_xcm V c t f
  have hw1 : (vec (iblk0 V c 3 t) : Fin 64 → EReal) = vec (V c main_arg2) := funext fun f => blk_w1 V c t f
  have hb1 : (vec (iblk0 V c 4 t) : Fin 64 → EReal) = vec (V c main_arg3) := funext fun f => blk_b1 V c t f
  have hw2 : (vec (iblk0 V c 5 t) : Fin 64 → EReal) = vec (V c main_arg4) := funext fun f => blk_w2 V c t f
  have hb2 : (vec (iblk0 V c 6 t) : Fin 64 → EReal) = vec (V c main_arg5) := funext fun f => blk_b2 V c t f
  have hW1 : (mat (iblk0 V c 7 t) : Fin 64 → Fin 16 → EReal) = mat (V c main_arg6) := funext fun f => funext fun e => blk_W1 V c t f e
  have hB1 : (mat (iblk0 V c 8 t) : Fin 64 → Fin 16 → EReal) = mat (V c main_arg7) := funext fun f => funext fun e => blk_B1 V c t f e
  have hW2 : (mat (iblk0 V c 9 t) : Fin 64 → Fin 16 → EReal) = mat (V c main_arg8) := funext fun f => funext fun e => blk_W2 V c t f e
  have hB2 : (mat (iblk0 V c 10 t) : Fin 64 → Fin 16 → EReal) = mat (V c main_arg9) := funext fun f => funext fun e => blk_B2 V c t f e
  rw [hxa, hxc, hxcm, hw1, hb1, hw2, hb2, hW1, hB1, hW2, hB2]
  rfl

/-- An index of the hidden array is in point `t`'s block iff each coordinate is in the block's range on its axis. -/
theorem mem_blk13 (t : Fin cfg0.N) (i : S65536x8.Idx) :
    i ∈ ((cfg0.win 13).blk t).view.set ↔ ∀ a : Fin 2, win0_13.index t a * S2048x8.size a ≤ (i a).val ∧ (i a).val < win0_13.index t a * S2048x8.size a + S2048x8.size a := by
  show i ∈ ((View.whole main_v3_0).slice (win0_13.rect t)).set ↔ _
  rw [View.set_slice_whole, Rect.mem_set_unit]
  exact Iff.rfl

theorem mem_blk14 (t : Fin cfg0.N) (i : S65536x1.Idx) :
    i ∈ ((cfg0.win 14).blk t).view.set ↔ ∀ a : Fin 2, win0_14.index t a * S2048x1.size a ≤ (i a).val ∧ (i a).val < win0_14.index t a * S2048x1.size a + S2048x1.size a := by
  show i ∈ ((View.whole main_v3_1).slice (win0_14.rect t)).set ↔ _
  rw [View.set_slice_whole, Rect.mem_set_unit]
  exact Iff.rfl

/-- Every row of the hidden array is written by the point that handles its block of 2048 rows. -/
theorem cover13 (i : S65536x8.Idx) : ∃ t : Fin cfg0.N, (cfg0.win 13).flush t = true ∧ i ∈ ((cfg0.win 13).blk t).view.set := by
  have hi0 : (i 0).val < 65536 := (i 0).isLt
  have hi1 : (i 1).val < 8 := (i 1).isLt
  have hN : cfg0.N = 32 := N_0
  refine ⟨⟨(i 0).val / 2048, by omega⟩, flush0_13 _, ?_⟩
  rw [mem_blk13]
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts ⟨(i 0).val / 2048, by omega⟩
  intro a
  match a with
  | ⟨0, _⟩ =>
    show win0_13.index ⟨(i 0).val / 2048, _⟩ (0 : Fin 2) * 2048 ≤ (i 0).val ∧ (i 0).val < win0_13.index ⟨(i 0).val / 2048, _⟩ (0 : Fin 2) * 2048 + 2048
    rw [e13_0]; show (i 0).val / 2048 * 2048 ≤ (i 0).val ∧ (i 0).val < (i 0).val / 2048 * 2048 + 2048; omega
  | ⟨1, _⟩ =>
    show win0_13.index ⟨(i 0).val / 2048, _⟩ (1 : Fin 2) * 8 ≤ (i 1).val ∧ (i 1).val < win0_13.index ⟨(i 0).val / 2048, _⟩ (1 : Fin 2) * 8 + 8
    rw [e13_1]; omega

/-- Every row of the fm array is written by the point that handles its block of 2048 rows. -/
theorem cover14 (i : S65536x1.Idx) : ∃ t : Fin cfg0.N, (cfg0.win 14).flush t = true ∧ i ∈ ((cfg0.win 14).blk t).view.set := by
  have hi0 : (i 0).val < 65536 := (i 0).isLt
  have hi1 : (i 1).val < 1 := (i 1).isLt
  have hN : cfg0.N = 32 := N_0
  refine ⟨⟨(i 0).val / 2048, by omega⟩, flush0_14 _, ?_⟩
  rw [mem_blk14]
  obtain ⟨e0_0, e0_1, e1_0, e1_1, e2, e3, e4, e5, e6, e7_0, e7_1, e8_0, e8_1, e9_0, e9_1, e10_0, e10_1, e11_0, e11_1, e12, e13_0, e13_1, e14_0, e14_1⟩ := idx_facts ⟨(i 0).val / 2048, by omega⟩
  intro a
  match a with
  | ⟨0, _⟩ =>
    show win0_14.index ⟨(i 0).val / 2048, _⟩ (0 : Fin 2) * 2048 ≤ (i 0).val ∧ (i 0).val < win0_14.index ⟨(i 0).val / 2048, _⟩ (0 : Fin 2) * 2048 + 2048
    rw [e14_0]; show (i 0).val / 2048 * 2048 ≤ (i 0).val ∧ (i 0).val < (i 0).val / 2048 * 2048 + 2048; omega
  | ⟨1, _⟩ =>
    show win0_14.index ⟨(i 0).val / 2048, _⟩ (1 : Fin 2) * 1 ≤ (i 1).val ∧ (i 1).val < win0_14.index ⟨(i 0).val / 2048, _⟩ (1 : Fin 2) * 1 + 1
    rw [e14_1]; omega

/-- THE HIDDEN ARRAY after region 0: the row-wise hidden array of the arrays the region finds. -/
theorem final13 (c : Dev nD) : (dat0 V c).arrAt 13 cfg0.N
    = hiddenArr (V c main_arg0) (V c main_arg1) (V c main_arg6) (V c main_arg7) (V c main_arg8) (V c main_arg9) (V c main_arg10) (V c main_arg11) :=
  (dat0 V c).arrAt_eq_of_cover 13 _ (fun t _ => flushed13_eq V c t) cover13

/-- THE FM ARRAY after region 0: the row-wise fm array of the arrays the region finds. -/
theorem final14 (c : Dev nD) : (dat0 V c).arrAt 14 cfg0.N
    = fmArr (V c main_arg0) (V c main_arg1) (V c main_v2) (V c main_arg2) (V c main_arg3) (V c main_arg4) (V c main_arg5)
        (V c main_arg6) (V c main_arg7) (V c main_arg8) (V c main_arg9) :=
  (dat0 V c).arrAt_eq_of_cover 14 _ (fun t _ => flushed14_eq V c t) cover14

end Cert.KernelIdeal.Final0

end
-- ==== Proof.KBlocks1.lean ====
/-
  Region 1 (the finalize kernel), block reads. Grid point `t` of 8 handles the 8192 batch rows `8192·t … 8192·t + 8191`:
  it reads those rows of the hidden array and of the fm array, the per-column statistics and parameters whole, and writes
  those rows of the result.
-/
import proofs.«104323_j42159398977905_1_alg».proof.Proof.Gen.KernelIdeal.Frame
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The block index maps over the grid: the row-blocked windows (hidden, fm, result) sit at block `t` of the row axis
    and block 0 of the other; every other window at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

theorem t_lt (t : Fin cfg1.N) : t.val < 8 := lt_of_lt_of_eq t.isLt N_1

/-- The batch row that row `r` of point `t`'s block is. -/
abbrev rowAt (t : Fin cfg1.N) (r : Fin 8192) : Fin 65536 := ⟨t.val * 8192 + r.val, by have := t_lt t; omega⟩

/-- A row of the hidden window's block at point `t` is that batch row of the hidden array. -/
theorem blk_h (c : Dev nD) (t : Fin cfg1.N) (r : Fin 8192) (j : Fin 8) :
    iblk1 V c 0 t (ix2 r j) = (V c main_v3_0 : S65536x8.Idx → Elt F .f32) (ix2 (rowAt t r) j) := by
  obtain ⟨e0_0, e0_1, e1_0, e1_1, e2, e3, e4, e5, e6_0, e6_1, e7, e8_0, e8_1⟩ := idx_facts t
  show V c main_v3_0 (((cfg1.win 0).blk t).view.emb (ix2 r j)) = V c main_v3_0 _
  refine congrArg _ ?_
  funext a; apply Fin.ext
  match a with
  | ⟨0, _⟩ => show win1_0.index t (0 : Fin 2) * 8192 + 1 * r.val = t.val * 8192 + r.val; omega
  | ⟨1, _⟩ => show win1_0.index t (1 : Fin 2) * 8 + 1 * j.val = j.val; omega

/-- A row of the fm window's block at point `t` is that batch row of the fm array. -/
theorem blk_fm (c : Dev nD) (t : Fin cfg1.N) (r : Fin 8192) (j : Fin 1) :
    iblk1 V c 1 t (ix2 r j) = (V c main_v3_1 : S65536x1.Idx → Elt F .f32) (ix2 (rowAt t r) j) := by
  obtain ⟨e0_0, e0_1, e1_0, e1_1, e2, e3, e4, e5, e6_0, e6_1, e7, e8_0, e8_1⟩ := idx_facts t
  show V c main_v3_1 (((cfg1.win 1).blk t).view.emb (ix2 r j)) = V c main_v3_1 _
  refine congrArg _ ?_
  funext a; apply Fin.ext
  match a with
  | ⟨0, _⟩ => show win1_1.index t (0 : Fin 2) * 8192 + 1 * r.val = t.val * 8192 + r.val; omega
  | ⟨1, _⟩ => show win1_1.index t (1 : Fin 2) * 1 + 1 * j.val = j.val; omega

/-- The per-column vector window 2 holds its whole array at every point. -/
theorem blk_mu (c : Dev nD) (t : Fin cfg1.N) (j : Fin 8) :
    iblk1 V c 2 t (ix1 j) = (V c main_v6 : S8.Idx → Elt F .f32) (ix1 j) := by
  obtain ⟨e0_0, e0_1, e1_0, e1_1, e2, e3, e4, e5, e6_0, e6_1, e7, e8_0, e8_1⟩ := idx_facts t
  show V c main_v6 (((cfg1.win 2).blk t).view.emb (ix1 j)) = V c main_v6 _
  refine congrArg _ ?_
  funext a; apply Fin.ext
  match a with
  | ⟨0, _⟩ => show win1_2.index t (0 : Fin 1) * 8 + 1 * j.val = j.val; omega

/-- The per-column vector window 3 holds its whole array at every point. -/
theorem blk_var (c : Dev nD) (t : Fin cfg1.N) (j : Fin 8) :
    iblk1 V c 3 t (ix1 j) = (V c main_v7 : S8.Idx → Elt F .f32) (ix1 j) := by
  obtain ⟨e0_0, e0_1, e1_0, e1_1, e2, e3, e4, e5, e6_0, e6_1, e7, e8_0, e8_1⟩ := idx_facts t
  show V c main_v7 (((cfg1.win 3).blk t).view.emb (ix1 j)) = V c main_v7 _
  refine congrArg _ ?_
  funext a; apply Fin.ext
  match a with
  | ⟨0, _⟩ => show win1_3.index t (0 : Fin 1) * 8 + 1 * j.val = j.val; omega

/-- The per-column vector window 4 holds its whole array at every point. -/
theorem blk_gamma (c : Dev nD) (t : Fin cfg1.N) (j : Fin 8) :
    iblk1 V c 4 t (ix1 j) = (V c main_arg12 : S8.Idx → Elt F .f32) (ix1 j) := by
  obtain ⟨e0_0, e0_1, e1_0, e1_1, e2, e3, e4, e5, e6_0, e6_1, e7, e8_0, e8_1⟩ := idx_facts t
  show V c main_arg12 (((cfg1.win 4).blk t).view.emb (ix1 j)) = V c main_arg12 _
  refine congrArg _ ?_
  funext a; apply Fin.ext
  match a with
  | ⟨0, _⟩ => show win1_4.index t (0 : Fin 1) * 8 + 1 * j.val = j.val; omega

/-- The per-column vector window 5 holds its whole array at every point. -/
theorem blk_beta (c : Dev nD) (t : Fin cfg1.N) (j : Fin 8) :
    iblk1 V c 5 t (ix1 j) = (V c main_arg13 : S8.Idx → Elt F .f32) (ix1 j) := by
  obtain ⟨e0_0, e0_1, e1_0, e1_1, e2, e3, e4, e5, e6_0, e6_1, e7, e8_0, e8_1⟩ := idx_facts t
  show V c main_arg13 (((cfg1.win 5).blk t).view.emb (ix1 j)) = V c main_arg13 _
  refine congrArg _ ?_
  funext a; apply Fin.ext
  match a with
  | ⟨0, _⟩ => show win1_5.index t (0 : Fin 1) * 8 + 1 * j.val = j.val; omega

/-- The second dense layer's weight window holds its whole array at every point. -/
theorem blk_l2w (c : Dev nD) (t : Fin cfg1.N) (q : Fin 4) (j : Fin 8) :
    iblk1 V c 6 t (ix2 q j) = (V c main_arg14 : S4x8.Idx → Elt F .f32) (ix2 q j) := by
  obtain ⟨e0_0, e0_1, e1_0, e1_1, e2, e3, e4, e5, e6_0, e6_1, e7, e8_0, e8_1⟩ := idx_facts t
  show V c main_arg14 (((cfg1.win 6).blk t).view.emb (ix2 q j)) = V c main_arg14 _
  refine congrArg _ ?_
  funext a; apply Fin.ext
  match a with
  | ⟨0, _⟩ => show win1_6.index t (0 : Fin 2) * 4 + 1 * q.val = q.val; omega
  | ⟨1, _⟩ => show win1_6.index t (1 : Fin 2) * 8 + 1 * j.val = j.val; omega

/-- The second dense layer's bias window holds its whole array at every point. -/
theorem blk_l2b (c : Dev nD) (t : Fin cfg1.N) (q : Fin 4) :
    iblk1 V c 7 t (ix1 q) = (V c main_arg15 : S4.Idx → Elt F .f32) (ix1 q) := by
  obtain ⟨e0_0, e0_1, e1_0, e1_1, e2, e3, e4, e5, e6_0, e6_1, e7, e8_0, e8_1⟩ := idx_facts t
  show V c main_arg15 (((cfg1.win 7).blk t).view.emb (ix1 q)) = V c main_arg15 _
  refine congrArg _ ?_
  funext a; apply Fin.ext
  match a with
  | ⟨0, _⟩ => show win1_7.index t (0 : Fin 1) * 4 + 1 * q.val = q.val; omega

/-- Where row `r` of the result's block at point `t` sits in the array. -/
theorem emb8 (t : Fin cfg1.N) (r : Fin 8192) (j : Fin 1) :
    ((cfg1.win 8).blk t).view.emb (ix2 r j) = (ix2 (rowAt t r) j : S65536x1.Idx) := by
  obtain ⟨e0_0, e0_1, e1_0, e1_1, e2, e3, e4, e5, e6_0, e6_1, e7, e8_0, e8_1⟩ := idx_facts t
  funext a; apply Fin.ext
  match a with
  | ⟨0, _⟩ => show win1_8.index t (0 : Fin 2) * 8192 + 1 * r.val = t.val * 8192 + r.val; omega
  | ⟨1, _⟩ => show win1_8.index t (1 : Fin 2) * 1 + 1 * j.val = j.val; omega

/-- An index of the result array is in point `t`'s block iff each coordinate is in the block's range on its axis. -/
theorem mem_blk8 (t : Fin cfg1.N) (i : S65536x1.Idx) :
    i ∈ ((cfg1.win 8).blk t).view.set ↔ ∀ a : Fin 2, win1_8.index t a * S8192x1.size a ≤ (i a).val ∧ (i a).val < win1_8.index t a * S8192x1.size a + S8192x1.size a := by
  show i ∈ ((View.whole main_v8).slice (win1_8.rect t)).set ↔ _
  rw [View.set_slice_whole, Rect.mem_set_unit]
  exact Iff.rfl

/-- Every row of the result is written by the point that handles its block of 8192 rows. -/
theorem cover8 (i : S65536x1.Idx) : ∃ t : Fin cfg1.N, (cfg1.win 8).flush t = true ∧ i ∈ ((cfg1.win 8).blk t).view.set := by
  have hi0 : (i 0).val < 65536 := (i 0).isLt
  have hi1 : (i 1).val < 1 := (i 1).isLt
  have hN : cfg1.N = 8 := N_1
  refine ⟨⟨(i 0).val / 8192, by omega⟩, flush1_8 _, ?_⟩
  rw [mem_blk8]
  obtain ⟨e0_0, e0_1, e1_0, e1_1, e2, e3, e4, e5, e6_0, e6_1, e7, e8_0, e8_1⟩ := idx_facts ⟨(i 0).val / 8192, by omega⟩
  intro a
  match a with
  | ⟨0, _⟩ =>
    show win1_8.index ⟨(i 0).val / 8192, _⟩ (0 : Fin 2) * 8192 ≤ (i 0).val ∧ (i 0).val < win1_8.index ⟨(i 0).val / 8192, _⟩ (0 : Fin 2) * 8192 + 8192
    rw [e8_0]; show (i 0).val / 8192 * 8192 ≤ (i 0).val ∧ (i 0).val < (i 0).val / 8192 * 8192 + 8192; omega
  | ⟨1, _⟩ =>
    show win1_8.index ⟨(i 0).val / 8192, _⟩ (1 : Fin 2) * 1 ≤ (i 1).val ∧ (i 1).val < win1_8.index ⟨(i 0).val / 8192, _⟩ (1 : Fin 2) * 1 + 1
    rw [e8_1]; omega

end Cert.KernelIdeal.Blocks1

end
-- ==== Proof.PayFinal.lean ====
/-
  The finalize kernel's stored block READ AT AN INDEX, at the ideal values: the row-wise formula of Spec.lean over the
  loaded blocks.

  The body normalises the hidden block `[8192, 8]` column by column — `(h − mean) · rsqrt (var + ε)`, the batch means and
  variances broadcast down the rows —, scales and shifts it (`· γ + β`), takes the hyperbolic tangent, multiplies by the
  transposed `[4, 8]` weights into a zero accumulator (a sum over the 8 hidden coordinates, `matmulO_apply`), adds the
  bias row, takes the mean over the 4 outputs (a reduction over one axis read as the `Fin`-indexed sum, `sumQ_apply`,
  then a quotient by the literal word) and adds the result to the loaded column: at row `r` the stored block is the
  loaded column's entry plus `Spec.deep` of the normalised hidden row (`out_block`). No algebra is used: the operand
  order of Spec.lean is the printed operations' order, and the float literals stay the words both sides carry.
-/
import proofs.«104323_j42159398977905_1_alg».proof.Proof.Gen.KernelIdeal.Skeleton
import proofs.«104323_j42159398977905_1_alg».proof.Proof.Spec
import proofs.«104323_j42159398977905_1_alg».proof.Proof.LibColumn
import Idealize.ShloMosaic.Lib.ValueLayout
import Idealize.ShloMosaic.PureOps.Ideal.Laws

noncomputable section

namespace Cert.KernelIdeal.PayRead

open Idealize.ShloMosaic Idealize.ShloMosaic.ValueIdx Cert.KernelIdeal Cert.KernelIdeal.Gen Cert.Spec Cert.LibColumn

/-- The hyperbolic tangent of a block read at an index is the extended reals' at the element. -/
theorem tanh_apply {s : Shape} {φ : FTy} (a : FVec Ideal s φ) (i : s.Idx) : tanh a i = Ideal.tanh (a i) := rfl
/-- The reciprocal square root of a block read at an index is the extended reals' at the element. -/
theorem rsqrt_apply {s : Shape} {φ : FTy} (a : FVec Ideal s φ) (i : s.Idx) : rsqrt a i = Ideal.rsqrt (a i) := rfl

/-- The sum over the 4 outputs of an `[8192, 4]` block at `r`. -/
theorem sumQ_apply (src : FVec Ideal S8192x4 .f32) (r : Fin 8192) :
    multiReduction .add [1] S8192 src 0x00000000#32 reduces_S8192x4_S8192 (.inl rfl) rfl (ix1 r)
      = ∑ q : Fin 4, src (ix2 r q) := by
  refine (Ideal.multiReduction_add_single src 0x00000000#32 reduces_S8192x4_S8192 (.inl rfl) rfl (ix1 r)).trans ?_
  refine Finset.sum_congr rfl fun k _ => congrArg src (funext fun a => Fin.ext ?_)
  match a with
  | ⟨0, _⟩ => rfl
  | ⟨1, _⟩ => rfl

/-- The dimension numbers of the `[8192, 8] × [8, 4]` product: one contracting axis, no batch axis. -/
abbrev dotO : DotDims S8192x8 S8x4 S8192x4 := dot_S8192x8_S8x4_S8192x4_1_0_0_1_n_n

/-- The left operand's row coordinate is the result's. -/
theorem dotO_lhs0 (i : S8192x4.Idx) (q : dotO.contr.Idx) : (dotO.lhsIdx i q 0).val = (i 0).val := by
  unfold DotDims.lhsIdx
  rw [dif_neg (show ¬(0 : Fin S8192x8.rank) ∈ dotO.lhsBatch by decide),
    dif_pos (show (0 : Fin S8192x8.rank) ∈ dotO.lhsNonContracting by decide)]
  rfl

/-- The right operand's column coordinate is the result's. -/
theorem dotO_rhs1 (i : S8192x4.Idx) (q : dotO.contr.Idx) : (dotO.rhsIdx i q 1).val = (i 1).val := by
  unfold DotDims.rhsIdx
  rw [dif_neg (show ¬(1 : Fin S8x4.rank) ∈ dotO.rhsBatch by decide),
    dif_pos (show (1 : Fin S8x4.rank) ∈ dotO.rhsNonContracting by decide)]
  rfl

/-- The product into a zero accumulator at `(r, q)` is `∑ j, lhs (r, j) · rhs (j, q)` over the 8 contracted positions:
    the sum over the contraction index, re-indexed through its one coordinate. -/
theorem matmulO_apply (lhs : FVec Ideal S8192x8 .f32) (rhs : FVec Ideal S8x4 .f32) (r : Fin 8192) (q : Fin 4) :
    matmul dot_S8192x8_S8x4_S8192x4_1_0_0_1_n_n none lhs rhs (constant S8192x4 .f32 0x00000000#32) (ix2 r q)
      = ∑ j : Fin 8, lhs (ix2 r j) * rhs (ix2 j q) := by
  show FloatOps.matmul dotO none lhs rhs (constant S8192x4 .f32 0x00000000#32) (ix2 r q) = _
  rw [Ideal.matmul_constant_zero_apply, ← Equiv.sum_comp (contrEquiv1 dotO 8 rfl rfl).symm]
  refine Finset.sum_congr rfl fun k _ => ?_
  have hk := contrEquiv1_symm_val dotO 8 rfl rfl k
  have el : dotO.lhsIdx (ix2 r q) ((contrEquiv1 dotO 8 rfl rfl).symm k) = ix2 r k := funext fun a => Fin.ext (by
    match a with
    | ⟨0, _⟩ => exact dotO_lhs0 _ _
    | ⟨1, _⟩ => exact (dotO.lhsIdx_val_of_single rfl _ _).trans hk)
  have er : dotO.rhsIdx (ix2 r q) ((contrEquiv1 dotO 8 rfl rfl).symm k) = ix2 k q := funext fun a => Fin.ext (by
    match a with
    | ⟨0, _⟩ => exact (dotO.rhsIdx_val_of_single rfl _ _).trans hk
    | ⟨1, _⟩ => exact dotO_rhs1 _ _)
  rw [el, er]

/-- The `[4, 8]` weights transposed read, at `(j, q)`, the weights at `(q, j)`. -/
theorem transposeO_apply (x : Vec Ideal S4x8 .f32) (j : Fin 8) (q : Fin 4) :
    transpose S8x4 [1, 0] x transposes_S4x8_p1_0_S8x4 (ix2 j q) = x (ix2 q j) :=
  transpose_ix2_apply x _ j q

/-- The stored column at row `r` is the loaded column's entry plus the deep term of the row: the mean over the 4 outputs of
    `∑ j, tanh (z j · γ j + β j) · l2w q j + l2b q`, `z j = (h j − mean j) · rsqrt (var j + ε)` the normalised hidden row. -/
theorem out_block (v0 : Vec Ideal S8192x8 .f32) (v2 v4 v6 v7 : Vec Ideal S8 .f32) (v24 : Vec Ideal S4x8 .f32) (v25 : Vec Ideal S4 .f32) (v35 : Vec Ideal S8192x1 .f32) (r : Fin 8192) :
    k1_pay1 (F := Ideal) v0 v2 v4 v6 v7 v24 v25 v35 (ix2 r (0 : Fin 1))
      = v35 (ix2 r (0 : Fin 1)) + Spec.deep (fun j => (v0 (ix2 r j) - v2 (ix1 j)) * Ideal.rsqrt (v4 (ix1 j) + Spec.ceps)) (vec v6) (vec v7) (mat v24) (vec v25) := by
  unfold k1_pay1 Spec.deep
  simp only [addf_apply, divf_apply, broadcast_apply, shapeCast_a_a1_apply, shapeCast_self, Ideal.ofBits_def]
  refine congrArg (_ + Ideal.div · _) ?_
  rw [sumQ_apply]
  refine Finset.sum_congr rfl fun q _ => ?_
  simp only [addf_apply, matmulO_apply, broadcastTo_1b_ab_apply, shapeCast_a_1a_apply]
  refine congrArg₂ (· + ·) (Finset.sum_congr rfl fun j _ => ?_) rfl
  rw [transposeO_apply]
  simp only [tanh_apply, rsqrt_apply, addf_apply, mulf_apply, subf_apply, broadcastTo_1b_ab_apply, shapeCast_a_1a_apply,
    shapeCast_self, broadcast_apply, Ideal.ofBits_def]

end Cert.KernelIdeal.PayRead

end
-- ==== Proof.KFinal1.lean ====
/-
  Region 1, from blocks to the array. What grid point `t` writes back to the result is the row-wise result of the rows
  `8192·t …` of the hidden and fm arrays and of the whole statistics and parameter arrays; every row is written by the
  point that handles its block, so after the region the result IS the row-wise array `outArr` of `SpecArr` over the
  kernel's normalised hidden rows.
-/
import proofs.«104323_j42159398977905_1_alg».proof.Proof.KBlocks1
import proofs.«104323_j42159398977905_1_alg».proof.Proof.SpecArr
import proofs.«104323_j42159398977905_1_alg».proof.Proof.PayFinal

set_option maxRecDepth 16384

noncomputable section

namespace Cert.KernelIdeal.Final1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Blocks1 Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The kernel's normalised hidden rows: each hidden entry less its column mean, times the reciprocal square root of the
    column variance plus ε. -/
def zK (h : A65536x8.Idx → EReal) (mu var : A8.Idx → EReal) : Fin 65536 → Fin 8 → EReal :=
  fun n j => (h (ix2 n j) - mu (ix1 j)) * Ideal.rsqrt (var (ix1 j) + ceps)

/-- One block row's normalised hidden row, from the blocks the body loads. -/
abbrev zrow (x0 : S8192x8.Idx → EReal) (x2 x3 : S8.Idx → EReal) (r : Fin 8192) : Fin 8 → EReal :=
  fun j => (x0 (ix2 r j) - x2 (ix1 j)) * Ideal.rsqrt (x3 (ix1 j) + ceps)

/-- A block row's normalised hidden row is the batch row's, when the blocks read the arrays there. -/
theorem zrow_congr (x0 : S8192x8.Idx → EReal) (x2 x3 : S8.Idx → EReal) (h : A65536x8.Idx → EReal) (mu var : A8.Idx → EReal)
    (r : Fin 8192) (n : Fin 65536) (e0 : ∀ j, x0 (ix2 r j) = h (ix2 n j)) (e2 : ∀ j, x2 (ix1 j) = mu (ix1 j))
    (e3 : ∀ j, x3 (ix1 j) = var (ix1 j)) : zrow x0 x2 x3 r = zK h mu var n :=
  funext fun j => by
    show (x0 (ix2 r j) - x2 (ix1 j)) * Ideal.rsqrt (x3 (ix1 j) + ceps) = (h (ix2 n j) - mu (ix1 j)) * Ideal.rsqrt (var (ix1 j) + ceps)
    rw [e0 j, e2 j, e3 j]

/-- One block row's result, from its fm value and its normalised hidden row. -/
abbrev orow (x1 : S8192x1.Idx → EReal) (z γ β : Fin 8 → EReal) (l2w : Fin 4 → Fin 8 → EReal) (l2b : Fin 4 → EReal) (r : Fin 8192) : EReal :=
  x1 (ix2 r (0 : Fin 1)) + Spec.deep z γ β l2w l2b

/-- WHAT POINT `t` WRITES BACK to the result is block `t` of the row-wise result of the arrays the region finds. -/
theorem flushed8_eq (c : Dev nD) (t : Fin cfg1.N) :
    (dat1 V c).flushed 8 t = ((cfg1.win 8).blk t).view.read (Elt Ideal)
      (outArr (V c main_v3_1) (zK (V c main_v3_0) (V c main_v6) (V c main_v7)) (V c main_arg12) (V c main_arg13) (V c main_arg14) (V c main_arg15)) := by
  show (cfg1.win 8).cut (grid1.coords t) ((dat1 V c).after 8 t) = _
  rw [after1_8]
  unfold out1_8
  rw [View.canon_unit_zero hz2]
  simp only [View.ld_unit_zero (S := S8192x8) hz2, View.ld_unit_zero (S := S8192x1) hz2, View.ld_unit_zero (S := S4x8) hz2, View.ld_unit_zero (S := S8) hz1, View.ld_unit_zero (S := S4) hz1]
  funext y
  obtain ⟨r, j, rfl⟩ : ∃ (r : Fin 8192) (j : Fin 1), y = ix2 r j := ⟨y 0, y 1, eq_ix2 y⟩
  obtain rfl : j = 0 := Subsingleton.elim _ _
  show k1_pay1 (F := Ideal) (iblk1 V c 0 t) (iblk1 V c 2 t) (iblk1 V c 3 t) (iblk1 V c 4 t) (iblk1 V c 5 t) (iblk1 V c 6 t) (iblk1 V c 7 t) (iblk1 V c 1 t) (ix2 r (0 : Fin 1))
      = outArr (V c main_v3_1) (zK (V c main_v3_0) (V c main_v6) (V c main_v7)) (V c main_arg12) (V c main_arg13) (V c main_arg14) (V c main_arg15)
        (((cfg1.win 8).blk t).view.emb (ix2 r (0 : Fin 1)))
  rw [emb8 t r 0]
  refine (PayRead.out_block (iblk1 V c 0 t) (iblk1 V c 2 t) (iblk1 V c 3 t) (iblk1 V c 4 t) (iblk1 V c 5 t) (iblk1 V c 6 t) (iblk1 V c 7 t) (iblk1 V c 1 t) r).trans ?_
  show orow (iblk1 V c 1 t) (zrow (iblk1 V c 0 t) (iblk1 V c 2 t) (iblk1 V c 3 t) r) (vec (iblk1 V c 4 t)) (vec (iblk1 V c 5 t)) (mat (iblk1 V c 6 t)) (vec (iblk1 V c 7 t)) r = _
  have hz : zrow (iblk1 V c 0 t) (iblk1 V c 2 t) (iblk1 V c 3 t) r
      = zK (V c main_v3_0) (V c main_v6) (V c main_v7) (rowAt t r) :=
    zrow_congr _ _ _ _ _ _ r (rowAt t r) (blk_h V c t r) (blk_mu V c t) (blk_var V c t)
  have hg : (vec (iblk1 V c 4 t) : Fin 8 → EReal) = vec (V c main_arg12) := funext fun j => blk_gamma V c t j
  have hb : (vec (iblk1 V c 5 t) : Fin 8 → EReal) = vec (V c main_arg13) := funext fun j => blk_beta V c t j
  have hw : (mat (iblk1 V c 6 t) : Fin 4 → Fin 8 → EReal) = mat (V c main_arg14) := funext fun q => funext fun j => blk_l2w V c t q j
  have hlb : (vec (iblk1 V c 7 t) : Fin 4 → EReal) = vec (V c main_arg15) := funext fun q => blk_l2b V c t q
  rw [hz, hg, hb, hw, hlb]
  exact congrArg (fun a : EReal => a + Spec.deep (zK (V c main_v3_0) (V c main_v6) (V c main_v7) (rowAt t r)) (vec (V c main_arg12))
    (vec (V c main_arg13)) (mat (V c main_arg14)) (vec (V c main_arg15))) (blk_fm V c t r 0)

/-- THE RESULT after region 1: the row-wise result of the arrays the region finds. -/
theorem final8 (c : Dev nD) : (dat1 V c).arrAt 8 cfg1.N
    = outArr (V c main_v3_1) (zK (V c main_v3_0) (V c main_v6) (V c main_v7)) (V c main_arg12) (V c main_arg13) (V c main_arg14) (V c main_arg15) :=
  (dat1 V c).arrAt_eq_of_cover 8 _ (fun t _ => flushed8_eq V c t) cover8

end Cert.KernelIdeal.Final1

end
-- ==== Proof.KValue.lean ====
/-
  The kernel program's result as ONE function of the argument arrays. Region 1 leaves in the result array the row-wise
  result of what it finds; it finds region 0's hidden and fm arrays, the host's batch mean and variance of the hidden
  array, and four arguments; region 0's arrays are the row-wise hidden and fm arrays of what IT finds: ten arguments and
  the host's column means of `Xc`. Composed, the result is `res` of the sixteen arguments.
-/
import proofs.«104323_j42159398977905_1_alg».proof.Proof.KRun
import proofs.«104323_j42159398977905_1_alg».proof.Proof.KHost
import proofs.«104323_j42159398977905_1_alg».proof.Proof.KFinal0
import proofs.«104323_j42159398977905_1_alg».proof.Proof.KFinal1

set_option maxRecDepth 16384

noncomputable section

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

/-- The kernel program's result array from its sixteen argument arrays. -/
def res (Xa Xc : FVec Ideal S65536x64 .f32) (w1 b1 w2 b2 : FVec Ideal S64 .f32) (W1 B1 W2 B2 : FVec Ideal S64x16 .f32)
    (lw : FVec Ideal S8x1024 .f32) (lb γ β : FVec Ideal S8 .f32) (l2w : FVec Ideal S4x8 .f32) (l2b : FVec Ideal S4 .f32) :
    FVec Ideal S65536x1 .f32 :=
  outArr (fmArr Xa Xc (KHost.xcMean (F := Ideal) Xc) w1 b1 w2 b2 W1 B1 W2 B2)
    (Final1.zK (hiddenArr Xa Xc W1 B1 W2 B2 lw lb) (KHost.mu (F := Ideal) (hiddenArr Xa Xc W1 B1 W2 B2 lw lb))
      (KHost.var (F := Ideal) (hiddenArr Xa Xc W1 B1 W2 B2 lw lb))) γ β l2w l2b

variable (m : (ℓ : Loc nD τ sig) → Buf (Elt Ideal) ℓ) (ρ : Dev nD → PrngReg)

/-- The last boundary's contents at the result's buffer: `res` of the launch memory's arguments. -/
theorem W5_result (c : Dev nD) : W5 m ρ c (Proc.devRef .tc main_v8) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [show W5 m ρ c (Proc.devRef .tc main_v8) = (dat1 (V4 m ρ) c).arrAt 8 cfg1.N from W5_arr m ρ c 8]
  rw [Final1.final8 (V4 m ρ) c]
  rw [KHost.V4_v3_1, KHost.V4_v3_0, KHost.V4_v6, KHost.V4_v7, KHost.V4_arg12, KHost.V4_arg13, KHost.V4_arg14, KHost.V4_arg15,
    Final0.final13 (V1 m ρ) c, Final0.final14 (V1 m ρ) c]
  rw [KHost.V1_arg0, KHost.V1_arg1, KHost.V1_arg2, KHost.V1_arg3, KHost.V1_arg4, KHost.V1_arg5, KHost.V1_arg6, KHost.V1_arg7,
    KHost.V1_arg8, KHost.V1_arg9, KHost.V1_arg10, KHost.V1_arg11, KHost.V1_v2]
  rfl

/-- THE KERNEL PROGRAM'S RUN, READ: the result array ends at `res` of the arguments, the arguments as launched. -/
theorem run : θ_run (defs (F := Ideal)) (onTc (τ := τ) (main (F := Ideal))) ⟨m, fun _ => 0, ρ⟩ (fun r => ∀ c : Dev nD,
      r.2.mem ((c.tc : Thread nD τ).loc main_v8) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (W5_result m ρ c), (h c).2⟩) (KRun.run_value m ρ)

end Cert.KernelIdeal.KValue

end
-- ==== Proof.RefRunOps.lean ====
/-
  The reference's @main as a LIST of its host operations, in the printed order, the one function call unfolded at its
  site: the callee's operations (and those of the call nested in it) over the call's own buffers, its operands the
  caller's buffers, its result the buffer the caller reads next. The list is stated twice: in the two windows the
  program is printed in, which is how the program is seen to be the line; and cut at the stages of the computation
  (first-order term, embedding, factorisation-machine term, hidden layer, its mean, its variance, deep term, sum), each
  stage with the references it writes, which is how the contents after the line are read stage by stage.
-/
import proofs.«104323_j42159398977905_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line, window by window -/

/-- The first window's 60 operations, in order. -/
abbrev ops0 : List (HloOp τ sig (Elt F)) :=
  [ StableHlo.unary main_arg2 main_v0 (broadcastInDim S1x64 ![1] bcast_S64_S1x64_1 : (⟨S64, .f32⟩ : BufTy).Contents (Elt F) → (⟨S1x64, .f32⟩ : BufTy).Contents (Elt F)),
    StableHlo.unary main_v0 main_v1 (broadcastInDim S65536x64 ![0, 1] bcast_S1x64_S65536x64_0_1 : (⟨S1x64, .f32⟩ : BufTy).Contents (Elt F) → (⟨S65536x64, .f32⟩ : BufTy).Contents (Elt F)),
    StableHlo.binary main_v1 main_arg0 main_v2 (mulf : (⟨S65536x64, .f32⟩ : BufTy).Contents (Elt F) → (⟨S65536x64, .f32⟩ : BufTy).Contents (Elt F) → (⟨S65536x64, .f32⟩ : BufTy).Contents (Elt F)),
    StableHlo.unary main_arg3 main_v3 (broadcastInDim S1x64 ![1] bcast_S64_S1x64_1 : (⟨S64, .f32⟩ : BufTy).Contents (Elt F) → (⟨S1x64, .f32⟩ : BufTy).Contents (Elt F)),
    StableHlo.unary main_v3 main_v4 (broadcastInDim S65536x64 ![0, 1] bcast_S1x64_S65536x64_0_1 : (⟨S1x64, .f32⟩ : BufTy).Contents (Elt F) → (⟨S65536x64, .f32⟩ : BufTy).Contents (Elt F)),
    StableHlo.binary main_v2 main_v4 main_v5 (addf : (⟨S65536x64, .f32⟩ : BufTy).Contents (Elt F) → (⟨S65536x64, .f32⟩ : BufTy).Contents (Elt F) → (⟨S65536x64, .f32⟩ : BufTy).Contents (Elt F)),
    StableHlo.binary main_v5 main_arg1 main_v6 (mulf : (⟨S65536x64, .f32⟩ : BufTy).Contents (Elt F) → (⟨S65536x64, .f32⟩ : BufTy).Contents (Elt F) → (⟨S65536x64, .f32⟩ : BufTy).Contents (Elt F)),
    StableHlo.nullary main_cst (constant S_ .f32 0x00000000#32),
    StableHlo.binary main_arg1 main_cst main_v7 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    StableHlo.nullary main_cst_0 (constant S_ .f32 0x47800000#32),
    StableHlo.unary main_cst_0 main_v8 (broadcastInDim S64 ![] bcast_S_S64 : (⟨S_, .f32⟩ : BufTy).Contents (Elt F) → (⟨S64, .f32⟩ : BufTy).Contents (Elt F)),
    StableHlo.binary main_v7 main_v8 main_v9 (Host.divf : (⟨S64, .f32⟩ : BufTy).Contents (Elt F) → (⟨S64, .f32⟩ : BufTy).Contents (Elt F) → (⟨S64, .f32⟩ : BufTy).Contents (Elt F)),
    StableHlo.binary main_arg4 main_v9 main_v10 (mulf : (⟨S64, .f32⟩ : BufTy).Contents (Elt F) → (⟨S64, .f32⟩ : BufTy).Contents (Elt F) → (⟨S64, .f32⟩ : BufTy).Contents (Elt F)),
    StableHlo.binary main_v10 main_arg5 main_v11 (addf : (⟨S64, .f32⟩ : BufTy).Contents (Elt F) → (⟨S64, .f32⟩ : BufTy).Contents (Elt F) → (⟨S64, .f32⟩ : BufTy).Contents (Elt F)),
    StableHlo.unary main_v11 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S65536x64 ![0, 1] bcast_S1x64_S65536x64_0_1 : (⟨S1x64, .f32⟩ : BufTy).Contents (Elt F) → (⟨S65536x64, .f32⟩ : BufTy).Contents (Elt F)),
    StableHlo.binary main_arg0 main_v13 main_v14 (mulf : (⟨S65536x64, .f32⟩ : BufTy).Contents (Elt F) → (⟨S65536x64, .f32⟩ : BufTy).Contents (Elt F) → (⟨S65536x64, .f32⟩ : BufTy).Contents (Elt F)),
    StableHlo.binary main_v6 main_v14 main_v15 (addf : (⟨S65536x64, .f32⟩ : BufTy).Contents (Elt F) → (⟨S65536x64, .f32⟩ : BufTy).Contents (Elt F) → (⟨S65536x64, .f32⟩ : BufTy).Contents (Elt F)),
    StableHlo.nullary main_cst_1 (constant S_ .f32 0x00000000#32),
    StableHlo.binary main_v15 main_cst_1 main_v16 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    StableHlo.unary main_v16 main_v17 (broadcastInDim S65536x1 ![0] bcast_S65536_S65536x1_0 : (⟨S65536, .f32⟩ : BufTy).Contents (Elt F) → (⟨S65536x1, .f32⟩ : BufTy).Contents (Elt F)),
    StableHlo.nullary main_cst_2 (constant S_ .f32 0x42800000#32),
    StableHlo.unary main_cst_2 main_v18 (broadcastInDim S65536x1 ![] bcast_S_S65536x1 : (⟨S_, .f32⟩ : BufTy).Contents (Elt F) → (⟨S65536x1, .f32⟩ : BufTy).Contents (Elt F)),
    StableHlo.binary main_v17 main_v18 main_v19 (Host.divf : (⟨S65536x1, .f32⟩ : BufTy).Contents (Elt F) → (⟨S65536x1, .f32⟩ : BufTy).Contents (Elt F) → (⟨S65536x1, .f32⟩ : BufTy).Contents (Elt F)),
    StableHlo.unary main_arg0 main_v20 (broadcastInDim S65536x64x1 ![0, 1] bcast_S65536x64_S65536x64x1_0_1 : (⟨S65536x64, .f32⟩ : BufTy).Contents (Elt F) → (⟨S65536x64x1, .f32⟩ : BufTy).Contents (Elt F)),
    StableHlo.unary main_arg1 main_v21 (broadcastInDim S65536x64x1 ![0, 1] bcast_S65536x64_S65536x64x1_0_1 : (⟨S65536x64, .f32⟩ : BufTy).Contents (Elt F) → (⟨S65536x64x1, .f32⟩ : BufTy).Contents (Elt F)),
    StableHlo.unary main_arg6 main_v22 (broadcastInDim S1x64x16 ![1, 2] bcast_S64x16_S1x64x16_1_2 : (⟨S64x16, .f32⟩ : BufTy).Contents (Elt F) → (⟨S1x64x16, .f32⟩ : BufTy).Contents (Elt F)),
    StableHlo.unary main_v20 main_v23 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.unary main_v22 main_v24 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.binary main_v23 main_v24 main_v25 (mulf : (⟨S65536x64x16, .f32⟩ : BufTy).Contents (Elt F) → (⟨S65536x64x16, .f32⟩ : BufTy).Contents (Elt F) → (⟨S65536x64x16, .f32⟩ : BufTy).Contents (Elt F)),
    StableHlo.unary main_arg7 main_v26 (broadcastInDim S1x64x16 ![1, 2] bcast_S64x16_S1x64x16_1_2 : (⟨S64x16, .f32⟩ : BufTy).Contents (Elt F) → (⟨S1x64x16, .f32⟩ : BufTy).Contents (Elt F)),
    StableHlo.unary main_v26 main_v27 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.binary main_v25 main_v27 main_v28 (addf : (⟨S65536x64x16, .f32⟩ : BufTy).Contents (Elt F) → (⟨S65536x64x16, .f32⟩ : BufTy).Contents (Elt F) → (⟨S65536x64x16, .f32⟩ : BufTy).Contents (Elt F)),
    StableHlo.unary main_v21 main_v29 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.binary main_v28 main_v29 main_v30 (mulf : (⟨S65536x64x16, .f32⟩ : BufTy).Contents (Elt F) → (⟨S65536x64x16, .f32⟩ : BufTy).Contents (Elt F) → (⟨S65536x64x16, .f32⟩ : BufTy).Contents (Elt F)),
    StableHlo.unary main_arg8 main_v31 (broadcastInDim S1x64x16 ![1, 2] bcast_S64x16_S1x64x16_1_2 : (⟨S64x16, .f32⟩ : BufTy).Contents (Elt F) → (⟨S1x64x16, .f32⟩ : BufTy).Contents (Elt F)),
    StableHlo.unary main_v31 main_v32 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.unary main_v21 main_v33 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.binary main_v32 main_v33 main_v34 (mulf : (⟨S65536x64x16, .f32⟩ : BufTy).Contents (Elt F) → (⟨S65536x64x16, .f32⟩ : BufTy).Contents (Elt F) → (⟨S65536x64x16, .f32⟩ : BufTy).Contents (Elt F)),
    StableHlo.unary main_arg9 main_v35 (broadcastInDim S1x64x16 ![1, 2] bcast_S64x16_S1x64x16_1_2 : (⟨S64x16, .f32⟩ : BufTy).Contents (Elt F) → (⟨S1x64x16, .f32⟩ : BufTy).Contents (Elt F)),
    StableHlo.unary main_v35 main_v36 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.binary main_v34 main_v36 main_v37 (addf : (⟨S65536x64x16, .f32⟩ : BufTy).Contents (Elt F) → (⟨S65536x64x16, .f32⟩ : BufTy).Contents (Elt F) → (⟨S65536x64x16, .f32⟩ : BufTy).Contents (Elt F)),
    StableHlo.unary main_v20 main_v38 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.binary main_v38 main_v37 main_v39 (mulf : (⟨S65536x64x16, .f32⟩ : BufTy).Contents (Elt F) → (⟨S65536x64x16, .f32⟩ : BufTy).Contents (Elt F) → (⟨S65536x64x16, .f32⟩ : BufTy).Contents (Elt F)),
    StableHlo.binary main_v30 main_v39 main_v40 (addf : (⟨S65536x64x16, .f32⟩ : BufTy).Contents (Elt F) → (⟨S65536x64x16, .f32⟩ : BufTy).Contents (Elt F) → (⟨S65536x64x16, .f32⟩ : BufTy).Contents (Elt F)),
    StableHlo.nullary main_cst_3 (constant S_ .f32 0x00000000#32),
    StableHlo.binary main_v40 main_cst_3 main_v41 ((fun x v => Host.reduceAdd x v reducesTo_S65536x64x16_S65536x16_d1 h_S_) : (⟨S65536x64x16, .f32⟩ : BufTy).Contents (Elt F) → (⟨S_, .f32⟩ : BufTy).Contents (Elt F) → (⟨S65536x16, .f32⟩ : BufTy).Contents (Elt F)),
    StableHlo.binary main_v41 main_v41 main_v42 (mulf : (⟨S65536x16, .f32⟩ : BufTy).Contents (Elt F) → (⟨S65536x16, .f32⟩ : BufTy).Contents (Elt F) → (⟨S65536x16, .f32⟩ : BufTy).Contents (Elt F)),
    StableHlo.binary main_v40 main_v40 main_v43 (mulf : (⟨S65536x64x16, .f32⟩ : BufTy).Contents (Elt F) → (⟨S65536x64x16, .f32⟩ : BufTy).Contents (Elt F) → (⟨S65536x64x16, .f32⟩ : BufTy).Contents (Elt F)),
    StableHlo.nullary main_cst_4 (constant S_ .f32 0x00000000#32),
    StableHlo.binary main_v43 main_cst_4 main_v44 ((fun x v => Host.reduceAdd x v reducesTo_S65536x64x16_S65536x16_d1 h_S_) : (⟨S65536x64x16, .f32⟩ : BufTy).Contents (Elt F) → (⟨S_, .f32⟩ : BufTy).Contents (Elt F) → (⟨S65536x16, .f32⟩ : BufTy).Contents (Elt F)),
    StableHlo.binary main_v42 main_v44 main_v45 (subf : (⟨S65536x16, .f32⟩ : BufTy).Contents (Elt F) → (⟨S65536x16, .f32⟩ : BufTy).Contents (Elt F) → (⟨S65536x16, .f32⟩ : BufTy).Contents (Elt F)),
    StableHlo.nullary main_cst_5 (constant S_ .f32 0x3F000000#32),
    StableHlo.unary main_cst_5 main_v46 (broadcastInDim S65536x16 ![] bcast_S_S65536x16 : (⟨S_, .f32⟩ : BufTy).Contents (Elt F) → (⟨S65536x16, .f32⟩ : BufTy).Contents (Elt F)),
    StableHlo.binary main_v46 main_v45 main_v47 (mulf : (⟨S65536x16, .f32⟩ : BufTy).Contents (Elt F) → (⟨S65536x16, .f32⟩ : BufTy).Contents (Elt F) → (⟨S65536x16, .f32⟩ : BufTy).Contents (Elt F)),
    StableHlo.nullary main_cst_6 (constant S_ .f32 0x00000000#32),
    StableHlo.binary main_v47 main_cst_6 main_v48 ((fun x v => Host.reduceAdd x v reducesTo_S65536x16_S65536_d1 h_S_) : (⟨S65536x16, .f32⟩ : BufTy).Contents (Elt F) → (⟨S_, .f32⟩ : BufTy).Contents (Elt F) → (⟨S65536, .f32⟩ : BufTy).Contents (Elt F)),
    StableHlo.unary main_v48 main_v49 (broadcastInDim S65536x1 ![0] bcast_S65536_S65536x1_0 : (⟨S65536, .f32⟩ : BufTy).Contents (Elt F) → (⟨S65536x1, .f32⟩ : BufTy).Contents (Elt F)),
    StableHlo.nullary main_cst_7 (constant S_ .f32 0x41800000#32),
    StableHlo.unary main_cst_7 main_v50 (broadcastInDim S65536x1 ![] bcast_S_S65536x1 : (⟨S_, .f32⟩ : BufTy).Contents (Elt F) → (⟨S65536x1, .f32⟩ : BufTy).Contents (Elt F)) ]

/-- The second window's 65 operations, in order: the variance function's twenty-two (its last three the
    selection function's) stand where it is called, over the call's buffers. -/
abbrev ops1 : List (HloOp τ sig (Elt F)) :=
  [ StableHlo.binary main_v49 main_v50 main_v51 (Host.divf : (⟨S65536x1, .f32⟩ : BufTy).Contents (Elt F) → (⟨S65536x1, .f32⟩ : BufTy).Contents (Elt F) → (⟨S65536x1, .f32⟩ : BufTy).Contents (Elt F)),
    StableHlo.reshape main_v40 main_v52 rfl shapeCasts_S65536x64x16_S65536x1024,
    StableHlo.unary main_arg10 main_v53 ((transpose S1024x8 [1, 0] · transposes_S8x1024_S1024x8_1_0) : (⟨S8x1024, .f32⟩ : BufTy).Contents (Elt F) → (⟨S1024x8, .f32⟩ : BufTy).Contents (Elt F)),
    StableHlo.binary main_v52 main_v53 main_v54 ((fun l r => Host.dotGeneral dot_S65536x1024_S1024x8_S65536x8_1_0_0_1_n_n none l r) : (⟨S65536x1024, .f32⟩ : BufTy).Contents (Elt F) → (⟨S1024x8, .f32⟩ : BufTy).Contents (Elt F) → (⟨S65536x8, .f32⟩ : BufTy).Contents (Elt F)),
    StableHlo.unary main_arg11 main_v55 (broadcastInDim S1x8 ![1] bcast_S8_S1x8_1 : (⟨S8, .f32⟩ : BufTy).Contents (Elt F) → (⟨S1x8, .f32⟩ : BufTy).Contents (Elt F)),
    StableHlo.unary main_v55 main_v56 (broadcastInDim S65536x8 ![0, 1] bcast_S1x8_S65536x8_0_1 : (⟨S1x8, .f32⟩ : BufTy).Contents (Elt F) → (⟨S65536x8, .f32⟩ : BufTy).Contents (Elt F)),
    StableHlo.binary main_v54 main_v56 main_v57 (addf : (⟨S65536x8, .f32⟩ : BufTy).Contents (Elt F) → (⟨S65536x8, .f32⟩ : BufTy).Contents (Elt F) → (⟨S65536x8, .f32⟩ : BufTy).Contents (Elt F)),
    StableHlo.nullary main_cst_8 (constant S_ .f32 0x00000000#32),
    StableHlo.binary main_v57 main_cst_8 main_v58 ((fun x v => Host.reduceAdd x v reducesTo_S65536x8_S8_d0 h_S_) : (⟨S65536x8, .f32⟩ : BufTy).Contents (Elt F) → (⟨S_, .f32⟩ : BufTy).Contents (Elt F) → (⟨S8, .f32⟩ : BufTy).Contents (Elt F)),
    StableHlo.nullary main_cst_9 (constant S_ .f32 0x47800000#32),
    StableHlo.unary main_cst_9 main_v59 (broadcastInDim S8 ![] bcast_S_S8 : (⟨S_, .f32⟩ : BufTy).Contents (Elt F) → (⟨S8, .f32⟩ : BufTy).Contents (Elt F)),
    StableHlo.binary main_v58 main_v59 main_v60 (Host.divf : (⟨S8, .f32⟩ : BufTy).Contents (Elt F) → (⟨S8, .f32⟩ : BufTy).Contents (Elt F) → (⟨S8, .f32⟩ : BufTy).Contents (Elt F)),
    StableHlo.nullary main_c (constantI S_ 32 0#32),
    StableHlo.TRef.nullary main_call0.cst (constant S_ .f32 0x00000000#32),
    StableHlo.TRef.binary (.of main_v57 : StableHlo.TRef sig ⟨S65536x8, .f32⟩) main_call0.cst main_call0.v0 (fun x v => Host.reduceAdd x v reducesTo_S65536x8_S8_d0 h_S_),
    StableHlo.TRef.unary main_call0.v0 main_call0.v1 (broadcastInDim S1x8 ![1] bcast_S8_S1x8_1),
    StableHlo.TRef.nullary main_call0.cst_0 (constant S_ .f32 0x47800000#32),
    StableHlo.TRef.unary main_call0.cst_0 main_call0.v2 (broadcastInDim S1x8 ![] bcast_S_S1x8),
    StableHlo.TRef.binary main_call0.v1 main_call0.v2 main_call0.v3 Host.divf,
    StableHlo.TRef.unary main_call0.v3 main_call0.v4 (broadcastInDim S65536x8 ![0, 1] bcast_S1x8_S65536x8_0_1),
    StableHlo.TRef.binary (.of main_v57 : StableHlo.TRef sig ⟨S65536x8, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x8_S8_d0 h_S_),
    StableHlo.TRef.unary main_call0.v8 main_call0.v10 (broadcastInDim S8 ![] bcast_S_S8),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8 ![] bcast_S_S8),
    StableHlo.TRef.ternary main_call0.v12 main_call0.v11 main_call0.call0.v1 main_call0.call0.v2 (fun p a b => select (broadcastInDim S8 ![] bcast_S_S8 p) a b),
    StableHlo.unary main_v60 main_v62 (broadcastInDim S1x8 ![1] bcast_S8_S1x8_1 : (⟨S8, .f32⟩ : BufTy).Contents (Elt F) → (⟨S1x8, .f32⟩ : BufTy).Contents (Elt F)),
    StableHlo.unary main_v62 main_v63 (broadcastInDim S65536x8 ![0, 1] bcast_S1x8_S65536x8_0_1 : (⟨S1x8, .f32⟩ : BufTy).Contents (Elt F) → (⟨S65536x8, .f32⟩ : BufTy).Contents (Elt F)),
    StableHlo.binary main_v57 main_v63 main_v64 (subf : (⟨S65536x8, .f32⟩ : BufTy).Contents (Elt F) → (⟨S65536x8, .f32⟩ : BufTy).Contents (Elt F) → (⟨S65536x8, .f32⟩ : BufTy).Contents (Elt F)),
    StableHlo.nullary main_cst_10 (constant S_ .f32 0x3727C5AC#32),
    StableHlo.unary main_cst_10 main_v65 (broadcastInDim S8 ![] bcast_S_S8 : (⟨S_, .f32⟩ : BufTy).Contents (Elt F) → (⟨S8, .f32⟩ : BufTy).Contents (Elt F)),
    StableHlo.binary main_v61 main_v65 main_v66 (addf : (⟨S8, .f32⟩ : BufTy).Contents (Elt F) → (⟨S8, .f32⟩ : BufTy).Contents (Elt F) → (⟨S8, .f32⟩ : BufTy).Contents (Elt F)),
    StableHlo.unary main_v66 main_v67 (Host.sqrt : (⟨S8, .f32⟩ : BufTy).Contents (Elt F) → (⟨S8, .f32⟩ : BufTy).Contents (Elt F)),
    StableHlo.unary main_v67 main_v68 (broadcastInDim S1x8 ![1] bcast_S8_S1x8_1 : (⟨S8, .f32⟩ : BufTy).Contents (Elt F) → (⟨S1x8, .f32⟩ : BufTy).Contents (Elt F)),
    StableHlo.unary main_v68 main_v69 (broadcastInDim S65536x8 ![0, 1] bcast_S1x8_S65536x8_0_1 : (⟨S1x8, .f32⟩ : BufTy).Contents (Elt F) → (⟨S65536x8, .f32⟩ : BufTy).Contents (Elt F)),
    StableHlo.binary main_v64 main_v69 main_v70 (Host.divf : (⟨S65536x8, .f32⟩ : BufTy).Contents (Elt F) → (⟨S65536x8, .f32⟩ : BufTy).Contents (Elt F) → (⟨S65536x8, .f32⟩ : BufTy).Contents (Elt F)),
    StableHlo.unary main_arg12 main_v71 (broadcastInDim S1x8 ![1] bcast_S8_S1x8_1 : (⟨S8, .f32⟩ : BufTy).Contents (Elt F) → (⟨S1x8, .f32⟩ : BufTy).Contents (Elt F)),
    StableHlo.unary main_v71 main_v72 (broadcastInDim S65536x8 ![0, 1] bcast_S1x8_S65536x8_0_1 : (⟨S1x8, .f32⟩ : BufTy).Contents (Elt F) → (⟨S65536x8, .f32⟩ : BufTy).Contents (Elt F)),
    StableHlo.binary main_v70 main_v72 main_v73 (mulf : (⟨S65536x8, .f32⟩ : BufTy).Contents (Elt F) → (⟨S65536x8, .f32⟩ : BufTy).Contents (Elt F) → (⟨S65536x8, .f32⟩ : BufTy).Contents (Elt F)),
    StableHlo.unary main_arg13 main_v74 (broadcastInDim S1x8 ![1] bcast_S8_S1x8_1 : (⟨S8, .f32⟩ : BufTy).Contents (Elt F) → (⟨S1x8, .f32⟩ : BufTy).Contents (Elt F)),
    StableHlo.unary main_v74 main_v75 (broadcastInDim S65536x8 ![0, 1] bcast_S1x8_S65536x8_0_1 : (⟨S1x8, .f32⟩ : BufTy).Contents (Elt F) → (⟨S65536x8, .f32⟩ : BufTy).Contents (Elt F)),
    StableHlo.binary main_v73 main_v75 main_v76 (addf : (⟨S65536x8, .f32⟩ : BufTy).Contents (Elt F) → (⟨S65536x8, .f32⟩ : BufTy).Contents (Elt F) → (⟨S65536x8, .f32⟩ : BufTy).Contents (Elt F)),
    StableHlo.unary main_v76 main_v77 (Host.tanh : (⟨S65536x8, .f32⟩ : BufTy).Contents (Elt F) → (⟨S65536x8, .f32⟩ : BufTy).Contents (Elt F)),
    StableHlo.unary main_arg14 main_v78 ((transpose S8x4 [1, 0] · transposes_S4x8_S8x4_1_0) : (⟨S4x8, .f32⟩ : BufTy).Contents (Elt F) → (⟨S8x4, .f32⟩ : BufTy).Contents (Elt F)),
    StableHlo.binary main_v77 main_v78 main_v79 ((fun l r => Host.dotGeneral dot_S65536x8_S8x4_S65536x4_1_0_0_1_n_n none l r) : (⟨S65536x8, .f32⟩ : BufTy).Contents (Elt F) → (⟨S8x4, .f32⟩ : BufTy).Contents (Elt F) → (⟨S65536x4, .f32⟩ : BufTy).Contents (Elt F)),
    StableHlo.unary main_arg15 main_v80 (broadcastInDim S1x4 ![1] bcast_S4_S1x4_1 : (⟨S4, .f32⟩ : BufTy).Contents (Elt F) → (⟨S1x4, .f32⟩ : BufTy).Contents (Elt F)),
    StableHlo.unary main_v80 main_v81 (broadcastInDim S65536x4 ![0, 1] bcast_S1x4_S65536x4_0_1 : (⟨S1x4, .f32⟩ : BufTy).Contents (Elt F) → (⟨S65536x4, .f32⟩ : BufTy).Contents (Elt F)),
    StableHlo.binary main_v79 main_v81 main_v82 (addf : (⟨S65536x4, .f32⟩ : BufTy).Contents (Elt F) → (⟨S65536x4, .f32⟩ : BufTy).Contents (Elt F) → (⟨S65536x4, .f32⟩ : BufTy).Contents (Elt F)),
    StableHlo.nullary main_cst_11 (constant S_ .f32 0x00000000#32),
    StableHlo.binary main_v82 main_cst_11 main_v83 ((fun x v => Host.reduceAdd x v reducesTo_S65536x4_S65536_d1 h_S_) : (⟨S65536x4, .f32⟩ : BufTy).Contents (Elt F) → (⟨S_, .f32⟩ : BufTy).Contents (Elt F) → (⟨S65536, .f32⟩ : BufTy).Contents (Elt F)),
    StableHlo.unary main_v83 main_v84 (broadcastInDim S65536x1 ![0] bcast_S65536_S65536x1_0 : (⟨S65536, .f32⟩ : BufTy).Contents (Elt F) → (⟨S65536x1, .f32⟩ : BufTy).Contents (Elt F)),
    StableHlo.nullary main_cst_12 (constant S_ .f32 0x40800000#32),
    StableHlo.unary main_cst_12 main_v85 (broadcastInDim S65536x1 ![] bcast_S_S65536x1 : (⟨S_, .f32⟩ : BufTy).Contents (Elt F) → (⟨S65536x1, .f32⟩ : BufTy).Contents (Elt F)),
    StableHlo.binary main_v84 main_v85 main_v86 (Host.divf : (⟨S65536x1, .f32⟩ : BufTy).Contents (Elt F) → (⟨S65536x1, .f32⟩ : BufTy).Contents (Elt F) → (⟨S65536x1, .f32⟩ : BufTy).Contents (Elt F)),
    StableHlo.binary main_v19 main_v51 main_v87 (addf : (⟨S65536x1, .f32⟩ : BufTy).Contents (Elt F) → (⟨S65536x1, .f32⟩ : BufTy).Contents (Elt F) → (⟨S65536x1, .f32⟩ : BufTy).Contents (Elt F)),
    StableHlo.binary main_v87 main_v86 main_v88 (addf : (⟨S65536x1, .f32⟩ : BufTy).Contents (Elt F) → (⟨S65536x1, .f32⟩ : BufTy).Contents (Elt F) → (⟨S65536x1, .f32⟩ : BufTy).Contents (Elt F)) ]

/-- The whole line. -/
abbrev ops : List (HloOp τ sig (Elt F)) := ops0 ++ ops1

theorem main_part0_eq (c : Dev nD) : main_part0 (F := F) c = seq ops0 := rfl

-- sixty-five binds re-associated: the rewrite under the chain recurses once per statement
set_option maxRecDepth 2048 in
/-- The second window is its line: the two functions' definitions unfolded at their calls, both sides are one chain
    of steps once sequencing is re-associated. -/
theorem main_part1_eq (c : Dev nD) : main_part1 (F := F) c = seq ops1 := by
  simp only [main_part1, fn_var.body, fn_where.body, seq, bind_assoc, pure_bind]

/-- @main is the whole line. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub ..⟩

theorem ops1_sub : (ops1 : List (HloOp τ sig (Elt F))).Forall fun op => op.bufs ⊆ tcRefs τ sig :=
  ⟨StableHlo.binary_bufs_sub .., StableHlo.reshape_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- Every operation of either window determines its results. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (ops0_fresh op) (ops1_fresh op)

/-- The contents after two lines run one after the other: the second's, from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The line, stage by stage -/

/-- The first-order term: the column means of the second input, the two affine products, their sum over the fields, the mean. -/
abbrev segA : List (HloOp τ sig (Elt F)) :=
  [ StableHlo.unary main_arg2 main_v0 (broadcastInDim S1x64 ![1] bcast_S64_S1x64_1 : (⟨S64, .f32⟩ : BufTy).Contents (Elt F) → (⟨S1x64, .f32⟩ : BufTy).Contents (Elt F)),
    StableHlo.unary main_v0 main_v1 (broadcastInDim S65536x64 ![0, 1] bcast_S1x64_S65536x64_0_1 : (⟨S1x64, .f32⟩ : BufTy).Contents (Elt F) → (⟨S65536x64, .f32⟩ : BufTy).Contents (Elt F)),
    StableHlo.binary main_v1 main_arg0 main_v2 (mulf : (⟨S65536x64, .f32⟩ : BufTy).Contents (Elt F) → (⟨S65536x64, .f32⟩ : BufTy).Contents (Elt F) → (⟨S65536x64, .f32⟩ : BufTy).Contents (Elt F)),
    StableHlo.unary main_arg3 main_v3 (broadcastInDim S1x64 ![1] bcast_S64_S1x64_1 : (⟨S64, .f32⟩ : BufTy).Contents (Elt F) → (⟨S1x64, .f32⟩ : BufTy).Contents (Elt F)),
    StableHlo.unary main_v3 main_v4 (broadcastInDim S65536x64 ![0, 1] bcast_S1x64_S65536x64_0_1 : (⟨S1x64, .f32⟩ : BufTy).Contents (Elt F) → (⟨S65536x64, .f32⟩ : BufTy).Contents (Elt F)),
    StableHlo.binary main_v2 main_v4 main_v5 (addf : (⟨S65536x64, .f32⟩ : BufTy).Contents (Elt F) → (⟨S65536x64, .f32⟩ : BufTy).Contents (Elt F) → (⟨S65536x64, .f32⟩ : BufTy).Contents (Elt F)),
    StableHlo.binary main_v5 main_arg1 main_v6 (mulf : (⟨S65536x64, .f32⟩ : BufTy).Contents (Elt F) → (⟨S65536x64, .f32⟩ : BufTy).Contents (Elt F) → (⟨S65536x64, .f32⟩ : BufTy).Contents (Elt F)),
    StableHlo.nullary main_cst (constant S_ .f32 0x00000000#32),
    StableHlo.binary main_arg1 main_cst main_v7 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    StableHlo.nullary main_cst_0 (constant S_ .f32 0x47800000#32),
    StableHlo.unary main_cst_0 main_v8 (broadcastInDim S64 ![] bcast_S_S64 : (⟨S_, .f32⟩ : BufTy).Contents (Elt F) → (⟨S64, .f32⟩ : BufTy).Contents (Elt F)),
    StableHlo.binary main_v7 main_v8 main_v9 (Host.divf : (⟨S64, .f32⟩ : BufTy).Contents (Elt F) → (⟨S64, .f32⟩ : BufTy).Contents (Elt F) → (⟨S64, .f32⟩ : BufTy).Contents (Elt F)),
    StableHlo.binary main_arg4 main_v9 main_v10 (mulf : (⟨S64, .f32⟩ : BufTy).Contents (Elt F) → (⟨S64, .f32⟩ : BufTy).Contents (Elt F) → (⟨S64, .f32⟩ : BufTy).Contents (Elt F)),
    StableHlo.binary main_v10 main_arg5 main_v11 (addf : (⟨S64, .f32⟩ : BufTy).Contents (Elt F) → (⟨S64, .f32⟩ : BufTy).Contents (Elt F) → (⟨S64, .f32⟩ : BufTy).Contents (Elt F)),
    StableHlo.unary main_v11 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S65536x64 ![0, 1] bcast_S1x64_S65536x64_0_1 : (⟨S1x64, .f32⟩ : BufTy).Contents (Elt F) → (⟨S65536x64, .f32⟩ : BufTy).Contents (Elt F)),
    StableHlo.binary main_arg0 main_v13 main_v14 (mulf : (⟨S65536x64, .f32⟩ : BufTy).Contents (Elt F) → (⟨S65536x64, .f32⟩ : BufTy).Contents (Elt F) → (⟨S65536x64, .f32⟩ : BufTy).Contents (Elt F)),
    StableHlo.binary main_v6 main_v14 main_v15 (addf : (⟨S65536x64, .f32⟩ : BufTy).Contents (Elt F) → (⟨S65536x64, .f32⟩ : BufTy).Contents (Elt F) → (⟨S65536x64, .f32⟩ : BufTy).Contents (Elt F)),
    StableHlo.nullary main_cst_1 (constant S_ .f32 0x00000000#32),
    StableHlo.binary main_v15 main_cst_1 main_v16 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    StableHlo.unary main_v16 main_v17 (broadcastInDim S65536x1 ![0] bcast_S65536_S65536x1_0 : (⟨S65536, .f32⟩ : BufTy).Contents (Elt F) → (⟨S65536x1, .f32⟩ : BufTy).Contents (Elt F)),
    StableHlo.nullary main_cst_2 (constant S_ .f32 0x42800000#32),
    StableHlo.unary main_cst_2 main_v18 (broadcastInDim S65536x1 ![] bcast_S_S65536x1 : (⟨S_, .f32⟩ : BufTy).Contents (Elt F) → (⟨S65536x1, .f32⟩ : BufTy).Contents (Elt F)),
    StableHlo.binary main_v17 main_v18 main_v19 (Host.divf : (⟨S65536x1, .f32⟩ : BufTy).Contents (Elt F) → (⟨S65536x1, .f32⟩ : BufTy).Contents (Elt F) → (⟨S65536x1, .f32⟩ : BufTy).Contents (Elt F)) ]
/-- The references it writes. -/
abbrev segA_W : List (Ref sig .tc) := [main_v0, main_v1, main_v2, main_v3, main_v4, main_v5, main_v6, main_cst, main_v7, main_cst_0, main_v8, main_v9, main_v10, main_v11, main_v12, main_v13, main_v14, main_v15, main_cst_1, main_v16, main_v17, main_cst_2, main_v18, main_v19]
theorem segA_writes : (segA : List (HloOp τ sig (Elt F))).Forall fun op => op.writes ⊆ (segA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segA_of (V : Valuation τ sig (Elt F)) (r : Ref sig .tc) (h : r ∉ segA_W) :
    after segA V (Proc.devRef .tc r) = V (Proc.devRef .tc r) :=
  after_of_writes_sub segA V segA_writes h

/-- The embedding tensor. -/
abbrev segB : List (HloOp τ sig (Elt F)) :=
  [ StableHlo.unary main_arg0 main_v20 (broadcastInDim S65536x64x1 ![0, 1] bcast_S65536x64_S65536x64x1_0_1 : (⟨S65536x64, .f32⟩ : BufTy).Contents (Elt F) → (⟨S65536x64x1, .f32⟩ : BufTy).Contents (Elt F)),
    StableHlo.unary main_arg1 main_v21 (broadcastInDim S65536x64x1 ![0, 1] bcast_S65536x64_S65536x64x1_0_1 : (⟨S65536x64, .f32⟩ : BufTy).Contents (Elt F) → (⟨S65536x64x1, .f32⟩ : BufTy).Contents (Elt F)),
    StableHlo.unary main_arg6 main_v22 (broadcastInDim S1x64x16 ![1, 2] bcast_S64x16_S1x64x16_1_2 : (⟨S64x16, .f32⟩ : BufTy).Contents (Elt F) → (⟨S1x64x16, .f32⟩ : BufTy).Contents (Elt F)),
    StableHlo.unary main_v20 main_v23 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.unary main_v22 main_v24 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.binary main_v23 main_v24 main_v25 (mulf : (⟨S65536x64x16, .f32⟩ : BufTy).Contents (Elt F) → (⟨S65536x64x16, .f32⟩ : BufTy).Contents (Elt F) → (⟨S65536x64x16, .f32⟩ : BufTy).Contents (Elt F)),
    StableHlo.unary main_arg7 main_v26 (broadcastInDim S1x64x16 ![1, 2] bcast_S64x16_S1x64x16_1_2 : (⟨S64x16, .f32⟩ : BufTy).Contents (Elt F) → (⟨S1x64x16, .f32⟩ : BufTy).Contents (Elt F)),
    StableHlo.unary main_v26 main_v27 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.binary main_v25 main_v27 main_v28 (addf : (⟨S65536x64x16, .f32⟩ : BufTy).Contents (Elt F) → (⟨S65536x64x16, .f32⟩ : BufTy).Contents (Elt F) → (⟨S65536x64x16, .f32⟩ : BufTy).Contents (Elt F)),
    StableHlo.unary main_v21 main_v29 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.binary main_v28 main_v29 main_v30 (mulf : (⟨S65536x64x16, .f32⟩ : BufTy).Contents (Elt F) → (⟨S65536x64x16, .f32⟩ : BufTy).Contents (Elt F) → (⟨S65536x64x16, .f32⟩ : BufTy).Contents (Elt F)),
    StableHlo.unary main_arg8 main_v31 (broadcastInDim S1x64x16 ![1, 2] bcast_S64x16_S1x64x16_1_2 : (⟨S64x16, .f32⟩ : BufTy).Contents (Elt F) → (⟨S1x64x16, .f32⟩ : BufTy).Contents (Elt F)),
    StableHlo.unary main_v31 main_v32 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.unary main_v21 main_v33 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.binary main_v32 main_v33 main_v34 (mulf : (⟨S65536x64x16, .f32⟩ : BufTy).Contents (Elt F) → (⟨S65536x64x16, .f32⟩ : BufTy).Contents (Elt F) → (⟨S65536x64x16, .f32⟩ : BufTy).Contents (Elt F)),
    StableHlo.unary main_arg9 main_v35 (broadcastInDim S1x64x16 ![1, 2] bcast_S64x16_S1x64x16_1_2 : (⟨S64x16, .f32⟩ : BufTy).Contents (Elt F) → (⟨S1x64x16, .f32⟩ : BufTy).Contents (Elt F)),
    StableHlo.unary main_v35 main_v36 (broadcastInDim S65536x64x16 ![0, 1, 2] bcast_S1x64x16_S65536x64x16_0_1_2 : (⟨S1x64x16, .f32⟩ : BufTy).Contents (Elt F) → (⟨S65536x64x16, .f32⟩ : BufTy).Contents (Elt F)),
    StableHlo.binary main_v34 main_v36 main_v37 (addf : (⟨S65536x64x16, .f32⟩ : BufTy).Contents (Elt F) → (⟨S65536x64x16, .f32⟩ : BufTy).Contents (Elt F) → (⟨S65536x64x16, .f32⟩ : BufTy).Contents (Elt F)),
    StableHlo.unary main_v20 main_v38 (broadcastInDim S65536x64x16 ![0, 1, 2] bcast_S65536x64x1_S65536x64x16_0_1_2 : (⟨S65536x64x1, .f32⟩ : BufTy).Contents (Elt F) → (⟨S65536x64x16, .f32⟩ : BufTy).Contents (Elt F)),
    StableHlo.binary main_v38 main_v37 main_v39 (mulf : (⟨S65536x64x16, .f32⟩ : BufTy).Contents (Elt F) → (⟨S65536x64x16, .f32⟩ : BufTy).Contents (Elt F) → (⟨S65536x64x16, .f32⟩ : BufTy).Contents (Elt F)),
    StableHlo.binary main_v30 main_v39 main_v40 (addf : (⟨S65536x64x16, .f32⟩ : BufTy).Contents (Elt F) → (⟨S65536x64x16, .f32⟩ : BufTy).Contents (Elt F) → (⟨S65536x64x16, .f32⟩ : BufTy).Contents (Elt F)) ]
/-- The references it writes. -/
abbrev segB_W : List (Ref sig .tc) := [main_v20, main_v21, main_v22, main_v23, main_v24, main_v25, main_v26, main_v27, main_v28, main_v29, main_v30, main_v31, main_v32, main_v33, main_v34, main_v35, main_v36, main_v37, main_v38, main_v39, main_v40]
theorem segB_writes : (segB : List (HloOp τ sig (Elt F))).Forall fun op => op.writes ⊆ (segB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segB_of (V : Valuation τ sig (Elt F)) (r : Ref sig .tc) (h : r ∉ segB_W) :
    after segB V (Proc.devRef .tc r) = V (Proc.devRef .tc r) :=
  after_of_writes_sub segB V segB_writes h

/-- The factorisation-machine term of the embedding: squared field sums less summed squares, halved, averaged over the coordinates. -/
abbrev segC : List (HloOp τ sig (Elt F)) :=
  [ StableHlo.nullary main_cst_3 (constant S_ .f32 0x00000000#32),
    StableHlo.binary main_v40 main_cst_3 main_v41 ((fun x v => Host.reduceAdd x v reducesTo_S65536x64x16_S65536x16_d1 h_S_) : (⟨S65536x64x16, .f32⟩ : BufTy).Contents (Elt F) → (⟨S_, .f32⟩ : BufTy).Contents (Elt F) → (⟨S65536x16, .f32⟩ : BufTy).Contents (Elt F)),
    StableHlo.binary main_v41 main_v41 main_v42 (mulf : (⟨S65536x16, .f32⟩ : BufTy).Contents (Elt F) → (⟨S65536x16, .f32⟩ : BufTy).Contents (Elt F) → (⟨S65536x16, .f32⟩ : BufTy).Contents (Elt F)),
    StableHlo.binary main_v40 main_v40 main_v43 (mulf : (⟨S65536x64x16, .f32⟩ : BufTy).Contents (Elt F) → (⟨S65536x64x16, .f32⟩ : BufTy).Contents (Elt F) → (⟨S65536x64x16, .f32⟩ : BufTy).Contents (Elt F)),
    StableHlo.nullary main_cst_4 (constant S_ .f32 0x00000000#32),
    StableHlo.binary main_v43 main_cst_4 main_v44 ((fun x v => Host.reduceAdd x v reducesTo_S65536x64x16_S65536x16_d1 h_S_) : (⟨S65536x64x16, .f32⟩ : BufTy).Contents (Elt F) → (⟨S_, .f32⟩ : BufTy).Contents (Elt F) → (⟨S65536x16, .f32⟩ : BufTy).Contents (Elt F)),
    StableHlo.binary main_v42 main_v44 main_v45 (subf : (⟨S65536x16, .f32⟩ : BufTy).Contents (Elt F) → (⟨S65536x16, .f32⟩ : BufTy).Contents (Elt F) → (⟨S65536x16, .f32⟩ : BufTy).Contents (Elt F)),
    StableHlo.nullary main_cst_5 (constant S_ .f32 0x3F000000#32),
    StableHlo.unary main_cst_5 main_v46 (broadcastInDim S65536x16 ![] bcast_S_S65536x16 : (⟨S_, .f32⟩ : BufTy).Contents (Elt F) → (⟨S65536x16, .f32⟩ : BufTy).Contents (Elt F)),
    StableHlo.binary main_v46 main_v45 main_v47 (mulf : (⟨S65536x16, .f32⟩ : BufTy).Contents (Elt F) → (⟨S65536x16, .f32⟩ : BufTy).Contents (Elt F) → (⟨S65536x16, .f32⟩ : BufTy).Contents (Elt F)),
    StableHlo.nullary main_cst_6 (constant S_ .f32 0x00000000#32),
    StableHlo.binary main_v47 main_cst_6 main_v48 ((fun x v => Host.reduceAdd x v reducesTo_S65536x16_S65536_d1 h_S_) : (⟨S65536x16, .f32⟩ : BufTy).Contents (Elt F) → (⟨S_, .f32⟩ : BufTy).Contents (Elt F) → (⟨S65536, .f32⟩ : BufTy).Contents (Elt F)),
    StableHlo.unary main_v48 main_v49 (broadcastInDim S65536x1 ![0] bcast_S65536_S65536x1_0 : (⟨S65536, .f32⟩ : BufTy).Contents (Elt F) → (⟨S65536x1, .f32⟩ : BufTy).Contents (Elt F)),
    StableHlo.nullary main_cst_7 (constant S_ .f32 0x41800000#32),
    StableHlo.unary main_cst_7 main_v50 (broadcastInDim S65536x1 ![] bcast_S_S65536x1 : (⟨S_, .f32⟩ : BufTy).Contents (Elt F) → (⟨S65536x1, .f32⟩ : BufTy).Contents (Elt F)),
    StableHlo.binary main_v49 main_v50 main_v51 (Host.divf : (⟨S65536x1, .f32⟩ : BufTy).Contents (Elt F) → (⟨S65536x1, .f32⟩ : BufTy).Contents (Elt F) → (⟨S65536x1, .f32⟩ : BufTy).Contents (Elt F)) ]
/-- The references it writes. -/
abbrev segC_W : List (Ref sig .tc) := [main_cst_3, main_v41, main_v42, main_v43, main_cst_4, main_v44, main_v45, main_cst_5, main_v46, main_v47, main_cst_6, main_v48, main_v49, main_cst_7, main_v50, main_v51]
theorem segC_writes : (segC : List (HloOp τ sig (Elt F))).Forall fun op => op.writes ⊆ (segC_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segC_of (V : Valuation τ sig (Elt F)) (r : Ref sig .tc) (h : r ∉ segC_W) :
    after segC V (Proc.devRef .tc r) = V (Proc.devRef .tc r) :=
  after_of_writes_sub segC V segC_writes h

/-- The first dense layer over the flattened embedding. -/
abbrev segD : List (HloOp τ sig (Elt F)) :=
  [ StableHlo.reshape main_v40 main_v52 rfl shapeCasts_S65536x64x16_S65536x1024,
    StableHlo.unary main_arg10 main_v53 ((transpose S1024x8 [1, 0] · transposes_S8x1024_S1024x8_1_0) : (⟨S8x1024, .f32⟩ : BufTy).Contents (Elt F) → (⟨S1024x8, .f32⟩ : BufTy).Contents (Elt F)),
    StableHlo.binary main_v52 main_v53 main_v54 ((fun l r => Host.dotGeneral dot_S65536x1024_S1024x8_S65536x8_1_0_0_1_n_n none l r) : (⟨S65536x1024, .f32⟩ : BufTy).Contents (Elt F) → (⟨S1024x8, .f32⟩ : BufTy).Contents (Elt F) → (⟨S65536x8, .f32⟩ : BufTy).Contents (Elt F)),
    StableHlo.unary main_arg11 main_v55 (broadcastInDim S1x8 ![1] bcast_S8_S1x8_1 : (⟨S8, .f32⟩ : BufTy).Contents (Elt F) → (⟨S1x8, .f32⟩ : BufTy).Contents (Elt F)),
    StableHlo.unary main_v55 main_v56 (broadcastInDim S65536x8 ![0, 1] bcast_S1x8_S65536x8_0_1 : (⟨S1x8, .f32⟩ : BufTy).Contents (Elt F) → (⟨S65536x8, .f32⟩ : BufTy).Contents (Elt F)),
    StableHlo.binary main_v54 main_v56 main_v57 (addf : (⟨S65536x8, .f32⟩ : BufTy).Contents (Elt F) → (⟨S65536x8, .f32⟩ : BufTy).Contents (Elt F) → (⟨S65536x8, .f32⟩ : BufTy).Contents (Elt F)) ]
/-- The references it writes. -/
abbrev segD_W : List (Ref sig .tc) := [main_v52, main_v53, main_v54, main_v55, main_v56, main_v57]
theorem segD_writes : (segD : List (HloOp τ sig (Elt F))).Forall fun op => op.writes ⊆ (segD_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segD_of (V : Valuation τ sig (Elt F)) (r : Ref sig .tc) (h : r ∉ segD_W) :
    after segD V (Proc.devRef .tc r) = V (Proc.devRef .tc r) :=
  after_of_writes_sub segD V segD_writes h

/-- The batch mean of each hidden column. -/
abbrev segE : List (HloOp τ sig (Elt F)) :=
  [ StableHlo.nullary main_cst_8 (constant S_ .f32 0x00000000#32),
    StableHlo.binary main_v57 main_cst_8 main_v58 ((fun x v => Host.reduceAdd x v reducesTo_S65536x8_S8_d0 h_S_) : (⟨S65536x8, .f32⟩ : BufTy).Contents (Elt F) → (⟨S_, .f32⟩ : BufTy).Contents (Elt F) → (⟨S8, .f32⟩ : BufTy).Contents (Elt F)),
    StableHlo.nullary main_cst_9 (constant S_ .f32 0x47800000#32),
    StableHlo.unary main_cst_9 main_v59 (broadcastInDim S8 ![] bcast_S_S8 : (⟨S_, .f32⟩ : BufTy).Contents (Elt F) → (⟨S8, .f32⟩ : BufTy).Contents (Elt F)),
    StableHlo.binary main_v58 main_v59 main_v60 (Host.divf : (⟨S8, .f32⟩ : BufTy).Contents (Elt F) → (⟨S8, .f32⟩ : BufTy).Contents (Elt F) → (⟨S8, .f32⟩ : BufTy).Contents (Elt F)) ]
/-- The references it writes. -/
abbrev segE_W : List (Ref sig .tc) := [main_cst_8, main_v58, main_cst_9, main_v59, main_v60]
theorem segE_writes : (segE : List (HloOp τ sig (Elt F))).Forall fun op => op.writes ⊆ (segE_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segE_of (V : Valuation τ sig (Elt F)) (r : Ref sig .tc) (h : r ∉ segE_W) :
    after segE V (Proc.devRef .tc r) = V (Proc.devRef .tc r) :=
  after_of_writes_sub segE V segE_writes h

/-- The batch variance of each hidden column: the zero offset, then the variance function's operations at its call. -/
abbrev segF : List (HloOp τ sig (Elt F)) :=
  [ StableHlo.nullary main_c (constantI S_ 32 0#32),
    StableHlo.TRef.nullary main_call0.cst (constant S_ .f32 0x00000000#32),
    StableHlo.TRef.binary (.of main_v57 : StableHlo.TRef sig ⟨S65536x8, .f32⟩) main_call0.cst main_call0.v0 (fun x v => Host.reduceAdd x v reducesTo_S65536x8_S8_d0 h_S_),
    StableHlo.TRef.unary main_call0.v0 main_call0.v1 (broadcastInDim S1x8 ![1] bcast_S8_S1x8_1),
    StableHlo.TRef.nullary main_call0.cst_0 (constant S_ .f32 0x47800000#32),
    StableHlo.TRef.unary main_call0.cst_0 main_call0.v2 (broadcastInDim S1x8 ![] bcast_S_S1x8),
    StableHlo.TRef.binary main_call0.v1 main_call0.v2 main_call0.v3 Host.divf,
    StableHlo.TRef.unary main_call0.v3 main_call0.v4 (broadcastInDim S65536x8 ![0, 1] bcast_S1x8_S65536x8_0_1),
    StableHlo.TRef.binary (.of main_v57 : StableHlo.TRef sig ⟨S65536x8, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x8_S8_d0 h_S_),
    StableHlo.TRef.unary main_call0.v8 main_call0.v10 (broadcastInDim S8 ![] bcast_S_S8),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8 ![] bcast_S_S8),
    StableHlo.TRef.ternary main_call0.v12 main_call0.v11 main_call0.call0.v1 main_call0.call0.v2 (fun p a b => select (broadcastInDim S8 ![] bcast_S_S8 p) a b) ]
/-- The references it writes. -/
abbrev segF_W : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v61]
theorem segF_writes : (segF : List (HloOp τ sig (Elt F))).Forall fun op => op.writes ⊆ (segF_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segF_of (V : Valuation τ sig (Elt F)) (r : Ref sig .tc) (h : r ∉ segF_W) :
    after segF V (Proc.devRef .tc r) = V (Proc.devRef .tc r) :=
  after_of_writes_sub segF V segF_writes h

/-- The deep term: normalise, scale and shift, the hyperbolic tangent, the second dense layer, the mean over its outputs. -/
abbrev segG : List (HloOp τ sig (Elt F)) :=
  [ StableHlo.unary main_v60 main_v62 (broadcastInDim S1x8 ![1] bcast_S8_S1x8_1 : (⟨S8, .f32⟩ : BufTy).Contents (Elt F) → (⟨S1x8, .f32⟩ : BufTy).Contents (Elt F)),
    StableHlo.unary main_v62 main_v63 (broadcastInDim S65536x8 ![0, 1] bcast_S1x8_S65536x8_0_1 : (⟨S1x8, .f32⟩ : BufTy).Contents (Elt F) → (⟨S65536x8, .f32⟩ : BufTy).Contents (Elt F)),
    StableHlo.binary main_v57 main_v63 main_v64 (subf : (⟨S65536x8, .f32⟩ : BufTy).Contents (Elt F) → (⟨S65536x8, .f32⟩ : BufTy).Contents (Elt F) → (⟨S65536x8, .f32⟩ : BufTy).Contents (Elt F)),
    StableHlo.nullary main_cst_10 (constant S_ .f32 0x3727C5AC#32),
    StableHlo.unary main_cst_10 main_v65 (broadcastInDim S8 ![] bcast_S_S8 : (⟨S_, .f32⟩ : BufTy).Contents (Elt F) → (⟨S8, .f32⟩ : BufTy).Contents (Elt F)),
    StableHlo.binary main_v61 main_v65 main_v66 (addf : (⟨S8, .f32⟩ : BufTy).Contents (Elt F) → (⟨S8, .f32⟩ : BufTy).Contents (Elt F) → (⟨S8, .f32⟩ : BufTy).Contents (Elt F)),
    StableHlo.unary main_v66 main_v67 (Host.sqrt : (⟨S8, .f32⟩ : BufTy).Contents (Elt F) → (⟨S8, .f32⟩ : BufTy).Contents (Elt F)),
    StableHlo.unary main_v67 main_v68 (broadcastInDim S1x8 ![1] bcast_S8_S1x8_1 : (⟨S8, .f32⟩ : BufTy).Contents (Elt F) → (⟨S1x8, .f32⟩ : BufTy).Contents (Elt F)),
    StableHlo.unary main_v68 main_v69 (broadcastInDim S65536x8 ![0, 1] bcast_S1x8_S65536x8_0_1 : (⟨S1x8, .f32⟩ : BufTy).Contents (Elt F) → (⟨S65536x8, .f32⟩ : BufTy).Contents (Elt F)),
    StableHlo.binary main_v64 main_v69 main_v70 (Host.divf : (⟨S65536x8, .f32⟩ : BufTy).Contents (Elt F) → (⟨S65536x8, .f32⟩ : BufTy).Contents (Elt F) → (⟨S65536x8, .f32⟩ : BufTy).Contents (Elt F)),
    StableHlo.unary main_arg12 main_v71 (broadcastInDim S1x8 ![1] bcast_S8_S1x8_1 : (⟨S8, .f32⟩ : BufTy).Contents (Elt F) → (⟨S1x8, .f32⟩ : BufTy).Contents (Elt F)),
    StableHlo.unary main_v71 main_v72 (broadcastInDim S65536x8 ![0, 1] bcast_S1x8_S65536x8_0_1 : (⟨S1x8, .f32⟩ : BufTy).Contents (Elt F) → (⟨S65536x8, .f32⟩ : BufTy).Contents (Elt F)),
    StableHlo.binary main_v70 main_v72 main_v73 (mulf : (⟨S65536x8, .f32⟩ : BufTy).Contents (Elt F) → (⟨S65536x8, .f32⟩ : BufTy).Contents (Elt F) → (⟨S65536x8, .f32⟩ : BufTy).Contents (Elt F)),
    StableHlo.unary main_arg13 main_v74 (broadcastInDim S1x8 ![1] bcast_S8_S1x8_1 : (⟨S8, .f32⟩ : BufTy).Contents (Elt F) → (⟨S1x8, .f32⟩ : BufTy).Contents (Elt F)),
    StableHlo.unary main_v74 main_v75 (broadcastInDim S65536x8 ![0, 1] bcast_S1x8_S65536x8_0_1 : (⟨S1x8, .f32⟩ : BufTy).Contents (Elt F) → (⟨S65536x8, .f32⟩ : BufTy).Contents (Elt F)),
    StableHlo.binary main_v73 main_v75 main_v76 (addf : (⟨S65536x8, .f32⟩ : BufTy).Contents (Elt F) → (⟨S65536x8, .f32⟩ : BufTy).Contents (Elt F) → (⟨S65536x8, .f32⟩ : BufTy).Contents (Elt F)),
    StableHlo.unary main_v76 main_v77 (Host.tanh : (⟨S65536x8, .f32⟩ : BufTy).Contents (Elt F) → (⟨S65536x8, .f32⟩ : BufTy).Contents (Elt F)),
    StableHlo.unary main_arg14 main_v78 ((transpose S8x4 [1, 0] · transposes_S4x8_S8x4_1_0) : (⟨S4x8, .f32⟩ : BufTy).Contents (Elt F) → (⟨S8x4, .f32⟩ : BufTy).Contents (Elt F)),
    StableHlo.binary main_v77 main_v78 main_v79 ((fun l r => Host.dotGeneral dot_S65536x8_S8x4_S65536x4_1_0_0_1_n_n none l r) : (⟨S65536x8, .f32⟩ : BufTy).Contents (Elt F) → (⟨S8x4, .f32⟩ : BufTy).Contents (Elt F) → (⟨S65536x4, .f32⟩ : BufTy).Contents (Elt F)),
    StableHlo.unary main_arg15 main_v80 (broadcastInDim S1x4 ![1] bcast_S4_S1x4_1 : (⟨S4, .f32⟩ : BufTy).Contents (Elt F) → (⟨S1x4, .f32⟩ : BufTy).Contents (Elt F)),
    StableHlo.unary main_v80 main_v81 (broadcastInDim S65536x4 ![0, 1] bcast_S1x4_S65536x4_0_1 : (⟨S1x4, .f32⟩ : BufTy).Contents (Elt F) → (⟨S65536x4, .f32⟩ : BufTy).Contents (Elt F)),
    StableHlo.binary main_v79 main_v81 main_v82 (addf : (⟨S65536x4, .f32⟩ : BufTy).Contents (Elt F) → (⟨S65536x4, .f32⟩ : BufTy).Contents (Elt F) → (⟨S65536x4, .f32⟩ : BufTy).Contents (Elt F)),
    StableHlo.nullary main_cst_11 (constant S_ .f32 0x00000000#32),
    StableHlo.binary main_v82 main_cst_11 main_v83 ((fun x v => Host.reduceAdd x v reducesTo_S65536x4_S65536_d1 h_S_) : (⟨S65536x4, .f32⟩ : BufTy).Contents (Elt F) → (⟨S_, .f32⟩ : BufTy).Contents (Elt F) → (⟨S65536, .f32⟩ : BufTy).Contents (Elt F)),
    StableHlo.unary main_v83 main_v84 (broadcastInDim S65536x1 ![0] bcast_S65536_S65536x1_0 : (⟨S65536, .f32⟩ : BufTy).Contents (Elt F) → (⟨S65536x1, .f32⟩ : BufTy).Contents (Elt F)),
    StableHlo.nullary main_cst_12 (constant S_ .f32 0x40800000#32),
    StableHlo.unary main_cst_12 main_v85 (broadcastInDim S65536x1 ![] bcast_S_S65536x1 : (⟨S_, .f32⟩ : BufTy).Contents (Elt F) → (⟨S65536x1, .f32⟩ : BufTy).Contents (Elt F)),
    StableHlo.binary main_v84 main_v85 main_v86 (Host.divf : (⟨S65536x1, .f32⟩ : BufTy).Contents (Elt F) → (⟨S65536x1, .f32⟩ : BufTy).Contents (Elt F) → (⟨S65536x1, .f32⟩ : BufTy).Contents (Elt F)) ]
/-- The references it writes. -/
abbrev segG_W : List (Ref sig .tc) := [main_v62, main_v63, main_v64, main_cst_10, main_v65, main_v66, main_v67, main_v68, main_v69, main_v70, main_v71, main_v72, main_v73, main_v74, main_v75, main_v76, main_v77, main_v78, main_v79, main_v80, main_v81, main_v82, main_cst_11, main_v83, main_v84, main_cst_12, main_v85, main_v86]
theorem segG_writes : (segG : List (HloOp τ sig (Elt F))).Forall fun op => op.writes ⊆ (segG_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segG_of (V : Valuation τ sig (Elt F)) (r : Ref sig .tc) (h : r ∉ segG_W) :
    after segG V (Proc.devRef .tc r) = V (Proc.devRef .tc r) :=
  after_of_writes_sub segG V segG_writes h

/-- The sum of the three terms. -/
abbrev segH : List (HloOp τ sig (Elt F)) :=
  [ StableHlo.binary main_v19 main_v51 main_v87 (addf : (⟨S65536x1, .f32⟩ : BufTy).Contents (Elt F) → (⟨S65536x1, .f32⟩ : BufTy).Contents (Elt F) → (⟨S65536x1, .f32⟩ : BufTy).Contents (Elt F)),
    StableHlo.binary main_v87 main_v86 main_v88 (addf : (⟨S65536x1, .f32⟩ : BufTy).Contents (Elt F) → (⟨S65536x1, .f32⟩ : BufTy).Contents (Elt F) → (⟨S65536x1, .f32⟩ : BufTy).Contents (Elt F)) ]
/-- The references it writes. -/
abbrev segH_W : List (Ref sig .tc) := [main_v87, main_v88]
theorem segH_writes : (segH : List (HloOp τ sig (Elt F))).Forall fun op => op.writes ⊆ (segH_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference it does not write keeps its contents. -/
theorem segH_of (V : Valuation τ sig (Elt F)) (r : Ref sig .tc) (h : r ∉ segH_W) :
    after segH V (Proc.devRef .tc r) = V (Proc.devRef .tc r) :=
  after_of_writes_sub segH V segH_writes h

/-- The line is its stages in order. -/
theorem ops_eq_segs : (ops : List (HloOp τ sig (Elt F))) = segA ++ (segB ++ (segC ++ (segD ++ (segE ++ (segF ++ (segG ++ segH)))))) := rfl

/-- The contents after the line: each stage's, from the stage before. -/
theorem after_ops (V : Valuation τ sig (Elt F)) :
    after ops V = after segH (after segG (after segF (after segE (after segD (after segC (after segB (after segA V))))))) := by
  rw [ops_eq_segs]; simp only [after_append]

end Cert.ReferenceIdeal.RefRun

end
-- ==== Proof.RefStages.lean ====
/-
  The reference's host operations grouped into the stages of the computation, each stage ONE function of whole arrays
  (the printed operations in the printed order): the column means of `Xc`, the first-order term, the embedding tensor,
  the factorisation-machine term, the first dense layer, its batch mean and variance, the deep term, and the result.
-/
import proofs.«104323_j42159398977905_1_alg».proof.ReferenceIdeal
import proofs.«104323_j42159398977905_1_alg».proof.Proof.Gen.ReferenceIdeal
import Idealize.ShloMosaic.PureOps.Ideal

noncomputable section

namespace Cert.ReferenceIdeal.RefStages

open Idealize.ShloMosaic Cert.ReferenceIdeal Cert.ReferenceIdeal.Facts₀ Cert.ReferenceIdeal.Facts

/-- The column means of `Xc` over the batch. -/
def xcMean (Xc : FVec Ideal S65536x64 .f32) : FVec Ideal S64 .f32 :=
  have cst : FVec Ideal S_ .f32 := constant S_ .f32 0x00000000#32
  have v7 : FVec Ideal S64 .f32 := Host.reduceAdd Xc cst reducesTo_S65536x64_S64_d0 h_S_
  have cst_0 : FVec Ideal S_ .f32 := constant S_ .f32 0x47800000#32
  have v8 : FVec Ideal S64 .f32 := broadcastInDim S64 ![] bcast_S_S64 cst_0
  have v9 : FVec Ideal S64 .f32 := Host.divf v7 v8
  v9

/-- The first-order term, one value per row. -/
def fmFirst (Xa Xc : FVec Ideal S65536x64 .f32) (w1 b1 w2 b2 : FVec Ideal S64 .f32) : FVec Ideal S65536x1 .f32 :=
  have v0 : FVec Ideal S1x64 .f32 := broadcastInDim S1x64 ![1] bcast_S64_S1x64_1 w1
  have v1 : FVec Ideal S65536x64 .f32 := broadcastInDim S65536x64 ![0, 1] bcast_S1x64_S65536x64_0_1 v0
  have v2 : FVec Ideal S65536x64 .f32 := mulf v1 Xa
  have v3 : FVec Ideal S1x64 .f32 := broadcastInDim S1x64 ![1] bcast_S64_S1x64_1 b1
  have v4 : FVec Ideal S65536x64 .f32 := broadcastInDim S65536x64 ![0, 1] bcast_S1x64_S65536x64_0_1 v3
  have v5 : FVec Ideal S65536x64 .f32 := addf v2 v4
  have v6 : FVec Ideal S65536x64 .f32 := mulf v5 Xc
  have v10 : FVec Ideal S64 .f32 := mulf w2 (xcMean Xc)
  have v11 : FVec Ideal S64 .f32 := addf v10 b2
  have v12 : FVec Ideal S1x64 .f32 := broadcastInDim S1x64 ![1] bcast_S64_S1x64_1 v11
  have v13 : FVec Ideal S65536x64 .f32 := broadcastInDim S65536x64 ![0, 1] bcast_S1x64_S65536x64_0_1 v12
  have v14 : FVec Ideal S65536x64 .f32 := mulf Xa v13
  have v15 : FVec Ideal S65536x64 .f32 := addf v6 v14
  have cst_1 : FVec Ideal S_ .f32 := constant S_ .f32 0x00000000#32
  have v16 : FVec Ideal S65536 .f32 := Host.reduceAdd v15 cst_1 reducesTo_S65536x64_S65536_d1 h_S_
  have v17 : FVec Ideal S65536x1 .f32 := broadcastInDim S65536x1 ![0] bcast_S65536_S65536x1_0 v16
  have cst_2 : FVec Ideal S_ .f32 := constant S_ .f32 0x42800000#32
  have v18 : FVec Ideal S65536x1 .f32 := broadcastInDim S65536x1 ![] bcast_S_S65536x1 cst_2
  have v19 : FVec Ideal S65536x1 .f32 := Host.divf v17 v18
  v19

/-- The embedding tensor. -/
def emb (Xa Xc : FVec Ideal S65536x64 .f32) (W1 B1 W2 B2 : FVec Ideal S64x16 .f32) : FVec Ideal S65536x64x16 .f32 :=
  have v20 : FVec Ideal S65536x64x1 .f32 := broadcastInDim S65536x64x1 ![0, 1] bcast_S65536x64_S65536x64x1_0_1 Xa
  have v21 : FVec Ideal S65536x64x1 .f32 := broadcastInDim S65536x64x1 ![0, 1] bcast_S65536x64_S65536x64x1_0_1 Xc
  have v22 : FVec Ideal S1x64x16 .f32 := broadcastInDim S1x64x16 ![1, 2] bcast_S64x16_S1x64x16_1_2 W1
  have v23 : FVec Ideal S65536x64x16 .f32 := broadcastInDim S65536x64x16 ![0, 1, 2] bcast_S65536x64x1_S65536x64x16_0_1_2 v20
  have v24 : FVec Ideal S65536x64x16 .f32 := broadcastInDim S65536x64x16 ![0, 1, 2] bcast_S1x64x16_S65536x64x16_0_1_2 v22
  have v25 : FVec Ideal S65536x64x16 .f32 := mulf v23 v24
  have v26 : FVec Ideal S1x64x16 .f32 := broadcastInDim S1x64x16 ![1, 2] bcast_S64x16_S1x64x16_1_2 B1
  have v27 : FVec Ideal S65536x64x16 .f32 := broadcastInDim S65536x64x16 ![0, 1, 2] bcast_S1x64x16_S65536x64x16_0_1_2 v26
  have v28 : FVec Ideal S65536x64x16 .f32 := addf v25 v27
  have v29 : FVec Ideal S65536x64x16 .f32 := broadcastInDim S65536x64x16 ![0, 1, 2] bcast_S65536x64x1_S65536x64x16_0_1_2 v21
  have v30 : FVec Ideal S65536x64x16 .f32 := mulf v28 v29
  have v31 : FVec Ideal S1x64x16 .f32 := broadcastInDim S1x64x16 ![1, 2] bcast_S64x16_S1x64x16_1_2 W2
  have v32 : FVec Ideal S65536x64x16 .f32 := broadcastInDim S65536x64x16 ![0, 1, 2] bcast_S1x64x16_S65536x64x16_0_1_2 v31
  have v33 : FVec Ideal S65536x64x16 .f32 := broadcastInDim S65536x64x16 ![0, 1, 2] bcast_S65536x64x1_S65536x64x16_0_1_2 v21
  have v34 : FVec Ideal S65536x64x16 .f32 := mulf v32 v33
  have v35 : FVec Ideal S1x64x16 .f32 := broadcastInDim S1x64x16 ![1, 2] bcast_S64x16_S1x64x16_1_2 B2
  have v36 : FVec Ideal S65536x64x16 .f32 := broadcastInDim S65536x64x16 ![0, 1, 2] bcast_S1x64x16_S65536x64x16_0_1_2 v35
  have v37 : FVec Ideal S65536x64x16 .f32 := addf v34 v36
  have v38 : FVec Ideal S65536x64x16 .f32 := broadcastInDim S65536x64x16 ![0, 1, 2] bcast_S65536x64x1_S65536x64x16_0_1_2 v20
  have v39 : FVec Ideal S65536x64x16 .f32 := mulf v38 v37
  have v40 : FVec Ideal S65536x64x16 .f32 := addf v30 v39
  v40

/-- The factorisation-machine term of an embedding tensor, one value per row. -/
def fmSecond (E : FVec Ideal S65536x64x16 .f32) : FVec Ideal S65536x1 .f32 :=
  have cst_3 : FVec Ideal S_ .f32 := constant S_ .f32 0x00000000#32
  have v41 : FVec Ideal S65536x16 .f32 := Host.reduceAdd E cst_3 reducesTo_S65536x64x16_S65536x16_d1 h_S_
  have v42 : FVec Ideal S65536x16 .f32 := mulf v41 v41
  have v43 : FVec Ideal S65536x64x16 .f32 := mulf E E
  have cst_4 : FVec Ideal S_ .f32 := constant S_ .f32 0x00000000#32
  have v44 : FVec Ideal S65536x16 .f32 := Host.reduceAdd v43 cst_4 reducesTo_S65536x64x16_S65536x16_d1 h_S_
  have v45 : FVec Ideal S65536x16 .f32 := subf v42 v44
  have cst_5 : FVec Ideal S_ .f32 := constant S_ .f32 0x3F000000#32
  have v46 : FVec Ideal S65536x16 .f32 := broadcastInDim S65536x16 ![] bcast_S_S65536x16 cst_5
  have v47 : FVec Ideal S65536x16 .f32 := mulf v46 v45
  have cst_6 : FVec Ideal S_ .f32 := constant S_ .f32 0x00000000#32
  have v48 : FVec Ideal S65536 .f32 := Host.reduceAdd v47 cst_6 reducesTo_S65536x16_S65536_d1 h_S_
  have v49 : FVec Ideal S65536x1 .f32 := broadcastInDim S65536x1 ![0] bcast_S65536_S65536x1_0 v48
  have cst_7 : FVec Ideal S_ .f32 := constant S_ .f32 0x41800000#32
  have v50 : FVec Ideal S65536x1 .f32 := broadcastInDim S65536x1 ![] bcast_S_S65536x1 cst_7
  have v51 : FVec Ideal S65536x1 .f32 := Host.divf v49 v50
  v51

/-- The first dense layer over the flattened embedding. -/
def hidden (E : FVec Ideal S65536x64x16 .f32) (lw : FVec Ideal S8x1024 .f32) (lb : FVec Ideal S8 .f32) : FVec Ideal S65536x8 .f32 :=
  have v52 : FVec Ideal S65536x1024 .f32 := shapeCast S65536x1024 E shapeCasts_S65536x64x16_S65536x1024
  have v53 : FVec Ideal S1024x8 .f32 := transpose S1024x8 [1, 0] lw transposes_S8x1024_S1024x8_1_0
  have v54 : FVec Ideal S65536x8 .f32 := Host.dotGeneral dot_S65536x1024_S1024x8_S65536x8_1_0_0_1_n_n none v52 v53
  have v55 : FVec Ideal S1x8 .f32 := broadcastInDim S1x8 ![1] bcast_S8_S1x8_1 lb
  have v56 : FVec Ideal S65536x8 .f32 := broadcastInDim S65536x8 ![0, 1] bcast_S1x8_S65536x8_0_1 v55
  have v57 : FVec Ideal S65536x8 .f32 := addf v54 v56
  v57

/-- The batch mean of each hidden column. -/
def mu (h : FVec Ideal S65536x8 .f32) : FVec Ideal S8 .f32 :=
  have cst_8 : FVec Ideal S_ .f32 := constant S_ .f32 0x00000000#32
  have v58 : FVec Ideal S8 .f32 := Host.reduceAdd h cst_8 reducesTo_S65536x8_S8_d0 h_S_
  have cst_9 : FVec Ideal S_ .f32 := constant S_ .f32 0x47800000#32
  have v59 : FVec Ideal S8 .f32 := broadcastInDim S8 ![] bcast_S_S8 cst_9
  have v60 : FVec Ideal S8 .f32 := Host.divf v58 v59
  v60

/-- The batch variance of each hidden column: the mean squared deviation from the column mean, divided by the count
    less the `ddof` argument `0`, kept where that divisor is positive (else the fill value). -/
def var (h : FVec Ideal S65536x8 .f32) : FVec Ideal S8 .f32 :=
  have c : IVec S_ 32 := constantI S_ 32 0#32
  have cst : FVec Ideal S_ .f32 := constant S_ .f32 0x00000000#32
  have u0 : FVec Ideal S8 .f32 := Host.reduceAdd h cst reducesTo_S65536x8_S8_d0 h_S_
  have u1 : FVec Ideal S1x8 .f32 := broadcastInDim S1x8 ![1] bcast_S8_S1x8_1 u0
  have cst_0 : FVec Ideal S_ .f32 := constant S_ .f32 0x47800000#32
  have u2 : FVec Ideal S1x8 .f32 := broadcastInDim S1x8 ![] bcast_S_S1x8 cst_0
  have u3 : FVec Ideal S1x8 .f32 := Host.divf u1 u2
  have u4 : FVec Ideal S65536x8 .f32 := broadcastInDim S65536x8 ![0, 1] bcast_S1x8_S65536x8_0_1 u3
  have u5 : FVec Ideal S65536x8 .f32 := subf h u4
  have u6 : FVec Ideal S65536x8 .f32 := mulf u5 u5
  have u7 : FVec Ideal S_ .f32 := sitofp .f32 c
  have cst_1 : FVec Ideal S_ .f32 := constant S_ .f32 0x47800000#32
  have u8 : FVec Ideal S_ .f32 := subf cst_1 u7
  have cst_2 : FVec Ideal S_ .f32 := constant S_ .f32 0x00000000#32
  have u9 : FVec Ideal S8 .f32 := Host.reduceAdd u6 cst_2 reducesTo_S65536x8_S8_d0 h_S_
  have u10 : FVec Ideal S8 .f32 := broadcastInDim S8 ![] bcast_S_S8 u8
  have u11 : FVec Ideal S8 .f32 := Host.divf u9 u10
  have cst_3 : FVec Ideal S_ .f32 := constant S_ .f32 0x00000000#32
  have u12 : IVec S_ 1 := cmpf .ogt u8 cst_3
  have cst_4 : FVec Ideal S_ .f32 := constant S_ .f32 0x7FC00000#32
  have w0 : FVec Ideal S_ .f32 := id cst_4
  have w1 : FVec Ideal S8 .f32 := broadcastInDim S8 ![] bcast_S_S8 w0
  have w2 : FVec Ideal S8 .f32 := select (broadcastInDim S8 ![] bcast_S_S8 u12) u11 w1
  w2

/-- The deep term from the hidden layer `h`, its column means `m` and variances `v`: normalise, scale and shift,
    `tanh`, the second dense layer, the mean over its four outputs. -/
def deep (h : FVec Ideal S65536x8 .f32) (m v γ β : FVec Ideal S8 .f32) (l2w : FVec Ideal S4x8 .f32) (l2b : FVec Ideal S4 .f32) :
    FVec Ideal S65536x1 .f32 :=
  have v62 : FVec Ideal S1x8 .f32 := broadcastInDim S1x8 ![1] bcast_S8_S1x8_1 m
  have v63 : FVec Ideal S65536x8 .f32 := broadcastInDim S65536x8 ![0, 1] bcast_S1x8_S65536x8_0_1 v62
  have v64 : FVec Ideal S65536x8 .f32 := subf h v63
  have cst_10 : FVec Ideal S_ .f32 := constant S_ .f32 0x3727C5AC#32
  have v65 : FVec Ideal S8 .f32 := broadcastInDim S8 ![] bcast_S_S8 cst_10
  have v66 : FVec Ideal S8 .f32 := addf v v65
  have v67 : FVec Ideal S8 .f32 := Host.sqrt v66
  have v68 : FVec Ideal S1x8 .f32 := broadcastInDim S1x8 ![1] bcast_S8_S1x8_1 v67
  have v69 : FVec Ideal S65536x8 .f32 := broadcastInDim S65536x8 ![0, 1] bcast_S1x8_S65536x8_0_1 v68
  have v70 : FVec Ideal S65536x8 .f32 := Host.divf v64 v69
  have v71 : FVec Ideal S1x8 .f32 := broadcastInDim S1x8 ![1] bcast_S8_S1x8_1 γ
  have v72 : FVec Ideal S65536x8 .f32 := broadcastInDim S65536x8 ![0, 1] bcast_S1x8_S65536x8_0_1 v71
  have v73 : FVec Ideal S65536x8 .f32 := mulf v70 v72
  have v74 : FVec Ideal S1x8 .f32 := broadcastInDim S1x8 ![1] bcast_S8_S1x8_1 β
  have v75 : FVec Ideal S65536x8 .f32 := broadcastInDim S65536x8 ![0, 1] bcast_S1x8_S65536x8_0_1 v74
  have v76 : FVec Ideal S65536x8 .f32 := addf v73 v75
  have v77 : FVec Ideal S65536x8 .f32 := Host.tanh v76
  have v78 : FVec Ideal S8x4 .f32 := transpose S8x4 [1, 0] l2w transposes_S4x8_S8x4_1_0
  have v79 : FVec Ideal S65536x4 .f32 := Host.dotGeneral dot_S65536x8_S8x4_S65536x4_1_0_0_1_n_n none v77 v78
  have v80 : FVec Ideal S1x4 .f32 := broadcastInDim S1x4 ![1] bcast_S4_S1x4_1 l2b
  have v81 : FVec Ideal S65536x4 .f32 := broadcastInDim S65536x4 ![0, 1] bcast_S1x4_S65536x4_0_1 v80
  have v82 : FVec Ideal S65536x4 .f32 := addf v79 v81
  have cst_11 : FVec Ideal S_ .f32 := constant S_ .f32 0x00000000#32
  have v83 : FVec Ideal S65536 .f32 := Host.reduceAdd v82 cst_11 reducesTo_S65536x4_S65536_d1 h_S_
  have v84 : FVec Ideal S65536x1 .f32 := broadcastInDim S65536x1 ![0] bcast_S65536_S65536x1_0 v83
  have cst_12 : FVec Ideal S_ .f32 := constant S_ .f32 0x40800000#32
  have v85 : FVec Ideal S65536x1 .f32 := broadcastInDim S65536x1 ![] bcast_S_S65536x1 cst_12
  have v86 : FVec Ideal S65536x1 .f32 := Host.divf v84 v85
  v86

/-- The reference's result. -/
def out (Xa Xc : FVec Ideal S65536x64 .f32) (w1 b1 w2 b2 : FVec Ideal S64 .f32) (W1 B1 W2 B2 : FVec Ideal S64x16 .f32)
    (lw : FVec Ideal S8x1024 .f32) (lb γ β : FVec Ideal S8 .f32) (l2w : FVec Ideal S4x8 .f32) (l2b : FVec Ideal S4 .f32) :
    FVec Ideal S65536x1 .f32 :=
  addf (addf (fmFirst Xa Xc w1 b1 w2 b2) (fmSecond (emb Xa Xc W1 B1 W2 B2)))
    (deep (hidden (emb Xa Xc W1 B1 W2 B2) lw lb) (mu (hidden (emb Xa Xc W1 B1 W2 B2) lw lb))
      (var (hidden (emb Xa Xc W1 B1 W2 B2) lw lb)) γ β l2w l2b)

end Cert.ReferenceIdeal.RefStages

end
-- ==== Proof.RefRun.lean ====
import proofs.«104323_j42159398977905_1_alg».proof.Proof.RefRunOps
import proofs.«104323_j42159398977905_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-! The run of the reference read back: after every weakly fair execution of @main its result buffer holds the stages'
    composition `RefStages.out` of the arguments' launch contents, and the arguments are unchanged. Each stage's
    result is the stage function of the contents the stage starts from (the operations' results composed, which is the
    stage function's body); a buffer a stage does not write passes through it; the eight compose. -/

/-! ## Each stage's result, from the contents it starts from -/

theorem segA_out (V : Valuation τ sig (Elt Ideal)) :
    after segA V (main_v19 : DevRef τ sig)
      = RefStages.fmFirst (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

theorem segB_out (V : Valuation τ sig (Elt Ideal)) :
    after segB V (main_v40 : DevRef τ sig)
      = RefStages.emb (V (main_arg0 : DevRef τ sig)) (V (main_arg1 : DevRef τ sig)) (V (main_arg6 : DevRef τ sig)) (V (main_arg7 : DevRef τ sig)) (V (main_arg8 : DevRef τ sig)) (V (main_arg9 : DevRef τ sig)) := by
  after_results_simp
  rfl

theorem segC_out (V : Valuation τ sig (Elt Ideal)) :
    after segC V (main_v51 : DevRef τ sig) = RefStages.fmSecond (V (main_v40 : DevRef τ sig)) := by
  after_results_simp
  rfl

theorem segD_out (V : Valuation τ sig (Elt Ideal)) :
    after segD V (main_v57 : DevRef τ sig) = RefStages.hidden (V (main_v40 : DevRef τ sig)) (V (main_arg10 : DevRef τ sig)) (V (main_arg11 : DevRef τ sig)) := by
  after_results_simp
  rfl

theorem segE_out (V : Valuation τ sig (Elt Ideal)) :
    after segE V (main_v60 : DevRef τ sig) = RefStages.mu (V (main_v57 : DevRef τ sig)) := by
  after_results_simp
  rfl

theorem segF_out (V : Valuation τ sig (Elt Ideal)) :
    after segF V (main_v61 : DevRef τ sig) = RefStages.var (V (main_v57 : DevRef τ sig)) := by
  after_results_simp
  rfl

theorem segG_out (V : Valuation τ sig (Elt Ideal)) :
    after segG V (main_v86 : DevRef τ sig)
      = RefStages.deep (V (main_v57 : DevRef τ sig)) (V (main_v60 : DevRef τ sig)) (V (main_v61 : DevRef τ sig)) (V (main_arg12 : DevRef τ sig)) (V (main_arg13 : DevRef τ sig)) (V (main_arg14 : DevRef τ sig)) (V (main_arg15 : DevRef τ sig)) := by
  after_results_simp
  rfl

theorem segH_out (V : Valuation τ sig (Elt Ideal)) :
    after segH V (main_v88 : DevRef τ sig)
      = (addf (addf ((V (main_v19 : DevRef τ sig)) : FVec Ideal S65536x1 .f32) (V (main_v51 : DevRef τ sig))) (V (main_v86 : DevRef τ sig)) : FVec Ideal S65536x1 .f32) := by
  after_results_simp

/-! ## The stages composed -/

/-- A reference no stage writes holds after the line what it held before. -/
theorem ops_of (V : Valuation τ sig (Elt Ideal)) (r : Ref sig .tc) (hA : r ∉ segA_W) (hB : r ∉ segB_W) (hC : r ∉ segC_W) (hD : r ∉ segD_W) (hE : r ∉ segE_W) (hF : r ∉ segF_W) (hG : r ∉ segG_W) (hH : r ∉ segH_W) :
    after ops V (Proc.devRef .tc r) = V (Proc.devRef .tc r) := by
  rw [after_ops, segH_of _ _ hH, segG_of _ _ hG, segF_of _ _ hF, segE_of _ _ hE, segD_of _ _ hD, segC_of _ _ hC,
    segB_of _ _ hB, segA_of _ _ hA]

/-- The result buffer after the line: the stages' composition of the arguments. Read from the last stage back: the
    sum's three operands are the first-order term (written by the first stage, untouched since), the
    factorisation-machine term (of the embedding the second stage leaves) and the deep term (of the hidden layer, its
    mean and its variance, each of the hidden layer the fourth stage leaves); the arguments pass through every stage. -/
theorem out_eq (V : Valuation τ sig (Elt Ideal)) :
    after ops V (main_v88 : DevRef τ sig)
      = RefStages.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops, segH_out, segG_out]
  -- the first-order term
  rw [segG_of _ main_v19 (by decide), segF_of _ main_v19 (by decide), segE_of _ main_v19 (by decide),
    segD_of _ main_v19 (by decide), segC_of _ main_v19 (by decide), segB_of _ main_v19 (by decide), segA_out]
  -- the factorisation-machine term
  rw [segG_of _ main_v51 (by decide), segF_of _ main_v51 (by decide), segE_of _ main_v51 (by decide),
    segD_of _ main_v51 (by decide), segC_out, segB_out]
  -- the hidden layer, its mean, its variance
  rw [segF_out, segF_of _ main_v60 (by decide), segE_out, segF_of _ main_v57 (by decide), segE_of _ main_v57 (by decide),
    segD_out, segC_of _ main_v40 (by decide), segB_out]
  -- the arguments pass through
  simp only [segF_of _ main_arg12 (by decide), segF_of _ main_arg13 (by decide), segF_of _ main_arg14 (by decide), segF_of _ main_arg15 (by decide),
    segE_of _ main_arg12 (by decide), segE_of _ main_arg13 (by decide), segE_of _ main_arg14 (by decide), segE_of _ main_arg15 (by decide),
    segD_of _ main_arg12 (by decide), segD_of _ main_arg13 (by decide), segD_of _ main_arg14 (by decide), segD_of _ main_arg15 (by decide),
    segC_of _ main_arg10 (by decide), segC_of _ main_arg11 (by decide), segC_of _ main_arg12 (by decide), segC_of _ main_arg13 (by decide), segC_of _ main_arg14 (by decide), segC_of _ main_arg15 (by decide),
    segB_of _ main_arg10 (by decide), segB_of _ main_arg11 (by decide), segB_of _ main_arg12 (by decide), segB_of _ main_arg13 (by decide), segB_of _ main_arg14 (by decide), segB_of _ main_arg15 (by decide),
    segA_of _ main_arg0 (by decide), segA_of _ main_arg1 (by decide), segA_of _ main_arg2 (by decide), segA_of _ main_arg3 (by decide), segA_of _ main_arg4 (by decide), segA_of _ main_arg5 (by decide), segA_of _ main_arg6 (by decide), segA_of _ main_arg7 (by decide), segA_of _ main_arg8 (by decide), segA_of _ main_arg9 (by decide), segA_of _ main_arg10 (by decide), segA_of _ main_arg11 (by decide), segA_of _ main_arg12 (by decide), segA_of _ main_arg13 (by decide), segA_of _ main_arg14 (by decide), segA_of _ main_arg15 (by decide)]
  rfl

/-! ## The run -/

/-- On every device, from any memory with zero counters: every weakly fair execution of @main terminates with the
    result at `RefStages.out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v88)
        = RefStages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v88).trans (out_eq (launchContents m c)),
      (h c main_arg0).trans (ops_of (launchContents m c) main_arg0 (by decide) (by decide) (by decide) (by decide) (by decide) (by decide) (by decide) (by decide)),
      (h c main_arg1).trans (ops_of (launchContents m c) main_arg1 (by decide) (by decide) (by decide) (by decide) (by decide) (by decide) (by decide) (by decide)),
      (h c main_arg2).trans (ops_of (launchContents m c) main_arg2 (by decide) (by decide) (by decide) (by decide) (by decide) (by decide) (by decide) (by decide)),
      (h c main_arg3).trans (ops_of (launchContents m c) main_arg3 (by decide) (by decide) (by decide) (by decide) (by decide) (by decide) (by decide) (by decide)),
      (h c main_arg4).trans (ops_of (launchContents m c) main_arg4 (by decide) (by decide) (by decide) (by decide) (by decide) (by decide) (by decide) (by decide)),
      (h c main_arg5).trans (ops_of (launchContents m c) main_arg5 (by decide) (by decide) (by decide) (by decide) (by decide) (by decide) (by decide) (by decide)),
      (h c main_arg6).trans (ops_of (launchContents m c) main_arg6 (by decide) (by decide) (by decide) (by decide) (by decide) (by decide) (by decide) (by decide)),
      (h c main_arg7).trans (ops_of (launchContents m c) main_arg7 (by decide) (by decide) (by decide) (by decide) (by decide) (by decide) (by decide) (by decide)),
      (h c main_arg8).trans (ops_of (launchContents m c) main_arg8 (by decide) (by decide) (by decide) (by decide) (by decide) (by decide) (by decide) (by decide)),
      (h c main_arg9).trans (ops_of (launchContents m c) main_arg9 (by decide) (by decide) (by decide) (by decide) (by decide) (by decide) (by decide) (by decide)),
      (h c main_arg10).trans (ops_of (launchContents m c) main_arg10 (by decide) (by decide) (by decide) (by decide) (by decide) (by decide) (by decide) (by decide)),
      (h c main_arg11).trans (ops_of (launchContents m c) main_arg11 (by decide) (by decide) (by decide) (by decide) (by decide) (by decide) (by decide) (by decide)),
      (h c main_arg12).trans (ops_of (launchContents m c) main_arg12 (by decide) (by decide) (by decide) (by decide) (by decide) (by decide) (by decide) (by decide)),
      (h c main_arg13).trans (ops_of (launchContents m c) main_arg13 (by decide) (by decide) (by decide) (by decide) (by decide) (by decide) (by decide) (by decide)),
      (h c main_arg14).trans (ops_of (launchContents m c) main_arg14 (by decide) (by decide) (by decide) (by decide) (by decide) (by decide) (by decide) (by decide)),
      (h c main_arg15).trans (ops_of (launchContents m c) main_arg15 (by decide) (by decide) (by decide) (by decide) (by decide) (by decide) (by decide) (by decide))⟩)
    (run_seq scopedRefs_eq scopedSems_eq defs main (fun _ => ops) main_eq (fun _ => ops_sub) m ρ (fun _ => ops_fresh))

/-- The same run, keeping only that the arguments are unchanged. -/
theorem run_args (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.ReferenceIdeal.RefRun

end
-- ==== Proof.RefRead.lean ====
/-
  The reference's stages read at an index: each stage function of whole arrays, read at one row `n` of the batch, is
  the row-wise formula of the specification. No algebra happens here: every product and sum keeps the operand order of
  the printed operation; what is proved is the bookkeeping of indices (a broadcast reads its operand at the kept
  coordinates, a reshape at the same row-major position, a transpose at the swapped pair, a one-axis reduction as the
  sum over that axis's coordinates from the initial value zero, a dot product as the sum over the contracted coordinate).
-/
import proofs.«104323_j42159398977905_1_alg».proof.Proof.RefStages
import proofs.«104323_j42159398977905_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.Spec

/-! ## Broadcasts read at an index -/

section Broadcasts
variable {α : Type}

/-- A vector `[b]` placed as the one row of `[1, b]` reads, at `(u, c)`, the vector at `c`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- One row `[1, b]` repeated over `[a, b]` reads, at `(p, c)`, the row at `c`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A matrix `[a, b]` given a trailing unit axis reads, at `(p, c, u)`, the matrix at `(p, c)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (p : Fin a) (c : Fin b) (u : Fin 1) :
    broadcastInDim ⟨3, ![a, b, 1]⟩ ![0, 1] h x (ix3 p c u) = x (ix2 p c) := by
  refine broadcastInDim_apply _ h x (ix3 p c u) (ix2 p c) fun ax => ?_
  match ax with
  | ⟨0, _⟩ =>
    show p.val = if a = 1 then 0 else p.val
    split
    · have := p.isLt; omega
    · rfl
  | ⟨1, _⟩ =>
    show c.val = if b = 1 then 0 else c.val
    split
    · have := c.isLt; omega
    · rfl

/-- A matrix `[b, c]` given a leading unit axis reads, at `(u, q, r)`, the matrix at `(q, r)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin 3)) (u : Fin 1) (q : Fin b) (r : Fin c) :
    broadcastInDim ⟨3, ![1, b, c]⟩ ![1, 2] h x (ix3 u q r) = x (ix2 q r) := by
  refine broadcastInDim_apply _ h x (ix3 u q r) (ix2 q r) fun ax => ?_
  match ax with
  | ⟨0, _⟩ =>
    show q.val = if b = 1 then 0 else q.val
    split
    · have := q.isLt; omega
    · rfl
  | ⟨1, _⟩ =>
    show r.val = if c = 1 then 0 else r.val
    split
    · have := r.isLt; omega
    · rfl

/-- An array `[a, b, 1]` repeated along its last axis over `[a, b, c]` reads, at `(p, q, r)`, the array at `(p, q, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim ⟨3, ![a, b, c]⟩ ![0, 1, 2] h x (ix3 p q r) = x (ix3 p q (0 : Fin 1)) := by
  refine broadcastInDim_apply _ h x (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, b, c]` repeated along its first axis over `[a, b, c]` reads, at `(p, q, r)`, the array at `(0, q, r)`. -/
theorem bcast_1bc_abc_apply {a b c : ℕ} (x : (⟨3, ![1, b, c]⟩ : Shape).Idx → α)
    (h : (⟨3, ![1, b, c]⟩ : Shape).BroadcastsInDim ⟨3, ![a, b, c]⟩ (![0, 1, 2] : Fin 3 → Fin 3)) (p : Fin a) (q : Fin b) (r : Fin c) :
    broadcastInDim ⟨3, ![a, b, c]⟩ ![0, 1, 2] h x (ix3 p q r) = x (ix3 (0 : Fin 1) q r) := by
  refine broadcastInDim_apply _ h x (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A scalar constant spread over any shape reads, everywhere, the extended real its word encodes. -/
theorem bcast_const_apply {t : Shape} (w : BitVec 32) (h : S_.BroadcastsInDim t (![] : Fin 0 → Fin t.rank)) (j : t.Idx) :
    broadcastInDim t ![] h (constant (F := Ideal) S_ .f32 w) j = Ideal.ofBits .f32 w := rfl

end Broadcasts

/-! ## One-axis sums from the initial value zero, read at an index -/

/-- The sum of a matrix `[a, b]` along its rows' coordinate (axis 1), from zero, at `p`: `∑ k, x (p, k)`. -/
theorem reduce_ab_axis1_apply {a b : ℕ} (x : FVec Ideal ⟨2, ![a, b]⟩ .f32)
    (h' : (⟨2, ![a, b]⟩ : Shape).ReducesTo [1] ⟨1, ![a]⟩) (hu : 0 < S_.numel) (p : Fin a) :
    Host.reduceAdd (F := Ideal) x (constant (F := Ideal) S_ .f32 0x00000000#32) h' hu (ix1 p) = ∑ k : Fin b, x (ix2 p k) := by
  have h : (⟨2, ![a, b]⟩ : Shape).Reduces [1] ⟨1, ![a]⟩ := ⟨h'.1, Nat.one_pos, h'.2⟩
  refine (Ideal.hostReduceAdd_single h' h x _ (ix1 p)).trans ?_
  refine (congrArg (· + _) Ideal.ofBits_zero_f32).trans ((zero_add _).trans ?_)
  refine Finset.sum_congr rfl fun k _ => congrArg x ?_
  funext ax; refine Fin.ext ?_
  match ax with
  | ⟨0, _⟩ => rfl
  | ⟨1, _⟩ => rfl

/-- The sum of an array `[a, b, c]` along its middle axis, from zero, at `(p, r)`: `∑ k, x (p, k, r)`. -/
theorem reduce_abc_axis1_apply {a b c : ℕ} (x : FVec Ideal ⟨3, ![a, b, c]⟩ .f32)
    (h' : (⟨3, ![a, b, c]⟩ : Shape).ReducesTo [1] ⟨2, ![a, c]⟩) (hu : 0 < S_.numel) (p : Fin a) (r : Fin c) :
    Host.reduceAdd (F := Ideal) x (constant (F := Ideal) S_ .f32 0x00000000#32) h' hu (ix2 p r) = ∑ k : Fin b, x (ix3 p k r) := by
  have h : (⟨3, ![a, b, c]⟩ : Shape).Reduces [1] ⟨2, ![a, c]⟩ := ⟨h'.1, Nat.two_pos, h'.2⟩
  refine (Ideal.hostReduceAdd_single h' h x _ (ix2 p r)).trans ?_
  refine (congrArg (· + _) Ideal.ofBits_zero_f32).trans ((zero_add _).trans ?_)
  refine Finset.sum_congr rfl fun k _ => congrArg x ?_
  funext ax; refine Fin.ext ?_
  match ax with
  | ⟨0, _⟩ => rfl
  | ⟨1, _⟩ => rfl
  | ⟨2, _⟩ => rfl

/-! ## A matrix product read at an index -/

/-- The host's product of `[a, b]` by `[b, c]` (contracting the first operand's columns with the second's rows), at
    `(p, r)`: `∑ k, x (p, k) * y (k, r)`. -/
theorem dot_ab_bc_apply {a b c : ℕ} (wf : DotDims.WF ⟨2, ![a, b]⟩ ⟨2, ![b, c]⟩ ⟨2, ![a, c]⟩ [1] [0] [0] [1] [] [])
    (x : FVec Ideal ⟨2, ![a, b]⟩ .f32) (y : FVec Ideal ⟨2, ![b, c]⟩ .f32) (p : Fin a) (r : Fin c) :
    Host.dotGeneral (F := Ideal) (⟨[1], [0], [0], [1], [], [], wf⟩ : DotDims ⟨2, ![a, b]⟩ ⟨2, ![b, c]⟩ ⟨2, ![a, c]⟩) none x y (ix2 p r)
      = ∑ k : Fin b, x (ix2 p k) * y (ix2 k r) := by
  have hr : (⟨[1], [0], [0], [1], [], [], wf⟩ : DotDims ⟨2, ![a, b]⟩ ⟨2, ![b, c]⟩ ⟨2, ![a, c]⟩).contr.rank = 1 := rfl
  have hs : (⟨[1], [0], [0], [1], [], [], wf⟩ : DotDims ⟨2, ![a, b]⟩ ⟨2, ![b, c]⟩ ⟨2, ![a, c]⟩).contr.size ⟨0, by omega⟩ = b := rfl
  refine (Ideal.dotGeneral_apply _ none .single x y (ix2 p r)).trans ?_
  refine (Equiv.sum_comp (contrEquiv1 _ b hr hs).symm _).symm.trans ?_
  refine Finset.sum_congr rfl fun k _ => congrArg₂ (· * ·) (congrArg x ?_) (congrArg y ?_)
  · funext ax; refine Fin.ext ?_
    match ax with
    | ⟨0, _⟩ => rfl
    | ⟨1, _⟩ => rfl
  · funext ax; refine Fin.ext ?_
    match ax with
    | ⟨0, _⟩ => rfl
    | ⟨1, _⟩ => rfl

/-! ## The embedding tensor -/

/-- The embedding tensor at `(n, f, e)` is the row-wise embedding of row `n` at field `f`, coordinate `e`. -/
theorem emb_apply (Xa Xc : FVec Ideal S65536x64 .f32) (W1 B1 W2 B2 : FVec Ideal S64x16 .f32) (n : Fin 65536) (f : Fin 64) (e : Fin 16) :
    RefStages.emb Xa Xc W1 B1 W2 B2 (ix3 n f e) = Spec.emb (row Xa n) (row Xc n) (mat W1) (mat B1) (mat W2) (mat B2) f e := by
  unfold RefStages.emb Spec.emb
  simp only [addf_apply, mulf_apply, bcast_ab1_abc_apply (a := 65536) (b := 64) (c := 16),
    bcast_1bc_abc_apply (a := 65536) (b := 64) (c := 16), bcast_ab_ab1_apply (a := 65536) (b := 64),
    bcast_bc_1bc_apply (b := 64) (c := 16)]

/-! ## The factorisation-machine term and the first-order term -/

/-- The factorisation-machine term at row `n` is the row-wise one of that row's embedding. -/
theorem fmSecond_apply (E : FVec Ideal S65536x64x16 .f32) (n : Fin 65536) :
    RefStages.fmSecond E (ix2 n (0 : Fin 1)) = Spec.second (fun f e => E (ix3 n f e)) := by
  unfold RefStages.fmSecond Spec.second
  simp only [Host.divf, Ideal.hostDivf_def, bcast_a_a1_apply (a := 65536), bcast_const_apply (t := S65536x16),
    bcast_const_apply (t := S65536x1), reduce_ab_axis1_apply (a := 65536) (b := 16), mulf_apply, subf_apply,
    reduce_abc_axis1_apply (a := 65536) (b := 64) (c := 16)]

/-- The first-order term at row `n` is the row-wise one, over the column means of `Xc`. -/
theorem fmFirst_apply (Xa Xc : FVec Ideal S65536x64 .f32) (w1 b1 w2 b2 : FVec Ideal S64 .f32) (n : Fin 65536) :
    RefStages.fmFirst Xa Xc w1 b1 w2 b2 (ix2 n (0 : Fin 1))
      = Spec.first (row Xa n) (row Xc n) (vec w1) (vec b1) (vec w2) (vec b2) (vec (RefStages.xcMean Xc)) := by
  unfold RefStages.fmFirst Spec.first
  simp only [Host.divf, Ideal.hostDivf_def, bcast_a_a1_apply (a := 65536), bcast_const_apply (t := S65536x1),
    reduce_ab_axis1_apply (a := 65536) (b := 64), mulf_apply, addf_apply,
    bcast_1b_ab_apply (a := 65536) (b := 64), bcast_b_1b_apply (b := 64)]

/-! ## The two dense layers -/

/-- The flattened embedding `[65536, 1024]` at `(n, k)` is the embedding at field `k / 16`, coordinate `k % 16`. -/
theorem flatten_apply (E : FVec Ideal S65536x64x16 .f32) (h : S65536x64x16.ShapeCasts S65536x1024) (n : Fin 65536) (k : Fin 1024) :
    shapeCast S65536x1024 E h (ix2 n k) = E (ix3 n (fieldOf k) (coordOf k)) := by
  refine shapeCast_apply E h (ix2 n k) (ix3 n (fieldOf k) (coordOf k)) ?_
  rw [Shape.rowMajor_val_three, Shape.rowMajor_val_two]
  show (n.val * 64 + k.val / 16) * 16 + k.val % 16 = n.val * 1024 + k.val
  omega

/-- The first dense layer's product at `(n, j)` is the sum over the contracted coordinate. -/
theorem dot1_apply (x : FVec Ideal S65536x1024 .f32) (y : FVec Ideal S1024x8 .f32) (n : Fin 65536) (j : Fin 8) :
    Host.dotGeneral (F := Ideal) dot_S65536x1024_S1024x8_S65536x8_1_0_0_1_n_n none x y (ix2 n j)
      = ∑ k : Fin 1024, x (ix2 n k) * y (ix2 k j) :=
  dot_ab_bc_apply (a := 65536) (b := 1024) (c := 8) _ x y n j

/-- The second dense layer's product at `(n, q)` is the sum over the contracted coordinate. -/
theorem dot2_apply (x : FVec Ideal S65536x8 .f32) (y : FVec Ideal S8x4 .f32) (n : Fin 65536) (q : Fin 4) :
    Host.dotGeneral (F := Ideal) dot_S65536x8_S8x4_S65536x4_1_0_0_1_n_n none x y (ix2 n q)
      = ∑ k : Fin 8, x (ix2 n k) * y (ix2 k q) :=
  dot_ab_bc_apply (a := 65536) (b := 8) (c := 4) _ x y n q

/-- The first dense layer at `(n, j)` is the row-wise one of row `n`'s embedding at output `j`. -/
theorem hidden_apply (E : FVec Ideal S65536x64x16 .f32) (lw : FVec Ideal S8x1024 .f32) (lb : FVec Ideal S8 .f32) (n : Fin 65536) (j : Fin 8) :
    RefStages.hidden E lw lb (ix2 n j) = Spec.hidden (fun f e => E (ix3 n f e)) (mat lw) (vec lb) j := by
  unfold RefStages.hidden Spec.hidden
  simp only [addf_apply, bcast_1b_ab_apply (a := 65536) (b := 8), bcast_b_1b_apply (b := 8), dot1_apply, flatten_apply,
    transpose_ix2_apply (a := 8) (b := 1024)]

/-- The deep term at row `n` is the row-wise one of that row's normalised hidden values. -/
theorem deep_apply (h : FVec Ideal S65536x8 .f32) (m v γ β : FVec Ideal S8 .f32) (l2w : FVec Ideal S4x8 .f32) (l2b : FVec Ideal S4 .f32) (n : Fin 65536) :
    RefStages.deep h m v γ β l2w l2b (ix2 n (0 : Fin 1))
      = Spec.deep (fun j => Ideal.div (h (ix2 n j) - m (ix1 j)) (Ideal.sqrt (v (ix1 j) + Spec.ceps))) (vec γ) (vec β) (mat l2w) (vec l2b) := by
  unfold RefStages.deep Spec.deep
  simp only [Host.divf, Host.sqrt, Host.tanh, Ideal.hostDivf_def, Ideal.hostUnary_sqrt_def, Ideal.hostUnary_tanh_def,
    bcast_a_a1_apply (a := 65536), bcast_const_apply (t := S65536x1), bcast_const_apply (t := S8),
    reduce_ab_axis1_apply (a := 65536) (b := 4), addf_apply, mulf_apply, subf_apply,
    bcast_1b_ab_apply (a := 65536) (b := 4), bcast_b_1b_apply (b := 4), dot2_apply,
    transpose_ix2_apply (a := 4) (b := 8), bcast_1b_ab_apply (a := 65536) (b := 8), bcast_b_1b_apply (b := 8)]

end Cert.ReferenceIdeal.RefRead

end
-- ==== Proof.Law.lean ====
/-
  The one law that joins the two programs, and the facts about the literals it needs.

  The kernel normalises a hidden entry by multiplying with the reciprocal square root of `variance + ε`; the reference
  divides by the square root. On the extended reals the two agree whenever `0 < v`, the infinity included:
  at a positive real `v` both are `a · (√v)⁻¹` (the divisor `√v` is not zero), and at `v = ⊤` both are `a · 0`
  (the reciprocal square root of `⊤` is `0`, and `⊤⁻¹ = 0`). It fails at `v = 0` and below, which is why the
  variance's sign matters: a mean of squares is never negative on the extended reals, and `ε` is positive.
-/
import Idealize.ShloMosaic.PureOps.Ideal

noncomputable section

namespace Cert.Law

open Idealize.ShloMosaic

/-- `a · rsqrt v = a / sqrt v` for every `a`, when `0 < v ≤ ⊤`. -/
theorem mul_rsqrt_eq_div_sqrt (a v : EReal) (hv : 0 < v) : a * Ideal.rsqrt v = Ideal.div a (Ideal.sqrt v) := by
  induction v using EReal.rec with
  | bot => exact absurd hv (not_lt.mpr bot_le)
  | top =>
    rw [Ideal.rsqrt_top, Ideal.sqrt_top, Ideal.div, if_neg (by simp), EReal.inv_top]
  | coe r =>
    have hr : 0 < r := EReal.coe_pos.mp hv
    have hs : 0 < Real.sqrt r := Real.sqrt_pos.mpr hr
    rw [Ideal.rsqrt_coe, Ideal.sqrt_coe, if_neg (not_lt.mpr hr.le), if_neg hr.ne', if_neg (not_lt.mpr hr.le),
      Ideal.div_coe hs.ne', one_div]

/-- The batch-norm `ε` (the f32 nearest 1e-5) is a positive real. -/
theorem eps_pos : (0 : EReal) < Ideal.ofBits .f32 0x3727C5AC#32 := by
  have h : Ideal.ofBits .f32 0x3727C5AC#32 = (((8388608 + 2606508 : ℕ) : ℝ) * (2 : ℝ) ^ ((110 : ℤ) - 127 - 23) : ℝ) := by
    simp [Ideal.ofBits, Ideal.ieee, -EReal.coe_mul]
  rw [h]
  exact EReal.coe_pos.mpr (by positivity)

/-- The batch size 65536, as the f32 word both programs divide by. -/
theorem ofBits_65536 : Ideal.ofBits .f32 0x47800000#32 = ((65536 : ℝ) : EReal) := by
  simp [Ideal.ofBits, Ideal.ieee, -EReal.coe_mul]; norm_num

end Cert.Law

end
-- ==== Proof.VarPos.lean ====
/-
  The batch variance the reference computes is never negative, on the extended reals and with no assumption on the
  hidden values: it is a sum, from zero, of squares (a square is non-negative at the two infinities too), divided by the
  positive real 65536; the guard that selects it, "the divisor is above zero", holds. So the variance plus the positive
  `ε` is positive.
-/
import proofs.«104323_j42159398977905_1_alg».proof.Proof.RefStages
import proofs.«104323_j42159398977905_1_alg».proof.Proof.Spec
import proofs.«104323_j42159398977905_1_alg».proof.Proof.Law
import Idealize.ShloMosaic.Lib.ValueIdx
import Idealize.ShloMosaic.PureOps.Ideal.Laws

noncomputable section

namespace Cert.ReferenceIdeal.VarPos

open Idealize.ShloMosaic Idealize.ShloMosaic.ValueIdx Cert.ReferenceIdeal

/-- A square is never negative on the extended reals: `⊥ · ⊥ = ⊤ · ⊤ = ⊤`, and a real's square is a real's. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

/-- A one-axis sum, from the initial value zero, of non-negative entries is non-negative at every index. -/
theorem reduce_nonneg {s t : Shape} {a : Fin s.rank} (x : s.Idx → EReal) (h' : s.ReducesTo [a] t) (ht : 0 < t.rank)
    (hu : 0 < S_.numel) (hx : ∀ i, 0 ≤ x i) (j : t.Idx) :
    (0 : EReal) ≤ Host.reduceAdd (F := Ideal) (φ := .f32) x (constant (F := Ideal) S_ .f32 0x00000000#32) h' hu j := by
  have h : s.Reduces [a] t := ⟨h'.1, ht, h'.2⟩
  refine le_of_le_of_eq ?_ (Ideal.hostReduceAdd_single h' h x _ j).symm
  exact add_nonneg (le_of_eq Ideal.ofBits_zero_f32.symm) (Finset.sum_nonneg fun k _ => hx _)

/-- The divisor: the count 65536 less the integer zero converted is the real 65536. -/
theorem divisor_eq :
    Ideal.ofBits .f32 0x47800000#32 - (((0#32 : BitVec 32).toInt : ℝ) : EReal) = ((65536 : ℝ) : EReal) := by
  rw [Law.ofBits_65536]; simp

/-- The guard: 65536 is above the zero word's value. -/
theorem guard_eq : Ideal.cmp .ogt ((65536 : ℝ) : EReal) (Ideal.ofBits .f32 0x00000000#32) = 1#1 := by
  have hpos : (0 : EReal) < ((65536 : ℝ) : EReal) := EReal.coe_pos.mpr (by norm_num)
  rw [Ideal.ofBits_zero_f32]
  unfold Ideal.cmp
  simp [hpos]

/-- The batch variance of a hidden column is never negative. -/
theorem var_nonneg (h : FVec Ideal S65536x8 .f32) (j : Fin 8) : (0 : EReal) ≤ RefStages.var h (ix1 j) := by
  unfold RefStages.var
  show (0 : EReal) ≤ Scalar.select
    (Ideal.cmp .ogt (Ideal.ofBits .f32 0x47800000#32 - (((0#32 : BitVec 32).toInt : ℝ) : EReal)) (Ideal.ofBits .f32 0x00000000#32))
    (Ideal.div (Host.reduceAdd (F := Ideal) (φ := .f32) (mulf _ _) (constant (F := Ideal) S_ .f32 0x00000000#32) _ _ (ix1 j))
      (Ideal.ofBits .f32 0x47800000#32 - (((0#32 : BitVec 32).toInt : ℝ) : EReal)))
    _
  rw [divisor_eq, guard_eq, select_one, Ideal.div_coe (by norm_num)]
  exact mul_nonneg (reduce_nonneg _ _ Nat.one_pos _ (fun i => mul_self_nonneg _) _) (EReal.coe_nonneg.mpr (by norm_num))

/-- So the variance plus the positive `ε` is positive. -/
theorem var_eps_pos (h : FVec Ideal S65536x8 .f32) (j : Fin 8) : (0 : EReal) < RefStages.var h (ix1 j) + Spec.ceps :=
  Right.add_pos_of_nonneg_of_pos (var_nonneg h j) Law.eps_pos

end Cert.ReferenceIdeal.VarPos

end
-- ==== Proof.Bridge.lean ====
/-
  The two programs compute one function. Row by row the reference's result is `(first + second) + deep` of the row's
  embedding and of its hidden row normalised by DIVIDING by the square root of `variance + ε`; the kernel program's is
  the same with the hidden row normalised by MULTIPLYING with the reciprocal square root. The embedding, the hidden
  array, the column means of `Xc` and the batch statistics of the hidden array are the same terms on both sides (the
  host operations that compute the statistics are spelt identically in the two programs), and the two normalisations
  agree because `variance + ε` is positive (`Law.mul_rsqrt_eq_div_sqrt`, `VarPos.var_eps_pos`).
-/
import proofs.«104323_j42159398977905_1_alg».proof.Proof.KValue
import proofs.«104323_j42159398977905_1_alg».proof.Proof.RefRead
import proofs.«104323_j42159398977905_1_alg».proof.Proof.VarPos
import proofs.«104323_j42159398977905_1_alg».proof.Proof.Law

noncomputable section

namespace Cert.Bridge

open Idealize.ShloMosaic Idealize.ShloMosaic.ValueIdx Cert.Spec

/-- The host's column means of `Xc`, batch means and batch variances are spelt identically in the two programs. -/
theorem xcMean_eq (Xc : FVec Ideal Cert.ReferenceIdeal.S65536x64 .f32) :
    Cert.KernelIdeal.KHost.xcMean (F := Ideal) Xc = Cert.ReferenceIdeal.RefStages.xcMean Xc := rfl
theorem mu_eq (h : FVec Ideal Cert.ReferenceIdeal.S65536x8 .f32) :
    Cert.KernelIdeal.KHost.mu (F := Ideal) h = Cert.ReferenceIdeal.RefStages.mu h := rfl
theorem var_eq (h : FVec Ideal Cert.ReferenceIdeal.S65536x8 .f32) :
    Cert.KernelIdeal.KHost.var (F := Ideal) h = Cert.ReferenceIdeal.RefStages.var h := rfl

/-- THE TWO RESULTS ARE ONE FUNCTION of the sixteen argument arrays. -/
theorem out_eq (Xa Xc : FVec Ideal Cert.ReferenceIdeal.S65536x64 .f32) (w1 b1 w2 b2 : FVec Ideal Cert.ReferenceIdeal.S64 .f32)
    (W1 B1 W2 B2 : FVec Ideal Cert.ReferenceIdeal.S64x16 .f32) (lw : FVec Ideal Cert.ReferenceIdeal.S8x1024 .f32)
    (lb γ β : FVec Ideal Cert.ReferenceIdeal.S8 .f32) (l2w : FVec Ideal Cert.ReferenceIdeal.S4x8 .f32)
    (l2b : FVec Ideal Cert.ReferenceIdeal.S4 .f32) :
    Cert.ReferenceIdeal.RefStages.out Xa Xc w1 b1 w2 b2 W1 B1 W2 B2 lw lb γ β l2w l2b
      = Cert.KernelIdeal.KValue.res Xa Xc w1 b1 w2 b2 W1 B1 W2 B2 lw lb γ β l2w l2b := by
  -- the reference's embedding tensor, row by row, and its hidden array are the row-wise ones
  have hE : ∀ n : Fin 65536, (fun f e => Cert.ReferenceIdeal.RefStages.emb Xa Xc W1 B1 W2 B2 (ix3 n f e)) = embOf Xa Xc W1 B1 W2 B2 n :=
    fun n => funext fun f => funext fun e => Cert.ReferenceIdeal.RefRead.emb_apply Xa Xc W1 B1 W2 B2 n f e
  have hH : Cert.ReferenceIdeal.RefStages.hidden (Cert.ReferenceIdeal.RefStages.emb Xa Xc W1 B1 W2 B2) lw lb = hiddenArr Xa Xc W1 B1 W2 B2 lw lb := by
    funext i
    obtain ⟨n, j, rfl⟩ : ∃ (n : Fin 65536) (j : Fin 8), i = ix2 n j := ⟨i 0, i 1, eq_ix2 i⟩
    rw [Cert.ReferenceIdeal.RefRead.hidden_apply, hE n]; rfl
  unfold Cert.ReferenceIdeal.RefStages.out Cert.KernelIdeal.KValue.res
  rw [hH, xcMean_eq, mu_eq, var_eq]
  generalize hiddenArr Xa Xc W1 B1 W2 B2 lw lb = H
  funext i
  obtain ⟨n, q, rfl⟩ : ∃ (n : Fin 65536) (q : Fin 1), i = ix2 n q := ⟨i 0, i 1, eq_ix2 i⟩
  obtain rfl : q = 0 := Subsingleton.elim _ _
  show (Cert.ReferenceIdeal.RefStages.fmFirst Xa Xc w1 b1 w2 b2 (ix2 n (0 : Fin 1)) + Cert.ReferenceIdeal.RefStages.fmSecond (Cert.ReferenceIdeal.RefStages.emb Xa Xc W1 B1 W2 B2) (ix2 n (0 : Fin 1)))
      + Cert.ReferenceIdeal.RefStages.deep H (Cert.ReferenceIdeal.RefStages.mu H) (Cert.ReferenceIdeal.RefStages.var H) γ β l2w l2b (ix2 n (0 : Fin 1)) = _
  rw [Cert.ReferenceIdeal.RefRead.fmFirst_apply, Cert.ReferenceIdeal.RefRead.fmSecond_apply, Cert.ReferenceIdeal.RefRead.deep_apply, hE n]
  -- the two normalisations of the hidden row agree: the variance plus ε is positive
  have hz : (fun j : Fin 8 => Ideal.div (H (ix2 n j) - Cert.ReferenceIdeal.RefStages.mu H (ix1 j)) (Ideal.sqrt (Cert.ReferenceIdeal.RefStages.var H (ix1 j) + ceps)))
      = Cert.KernelIdeal.Final1.zK H (Cert.ReferenceIdeal.RefStages.mu H) (Cert.ReferenceIdeal.RefStages.var H) n :=
    funext fun j => (Cert.Law.mul_rsqrt_eq_div_sqrt _ _ (Cert.ReferenceIdeal.VarPos.var_eps_pos H j)).symm
  rw [hz]
  rfl

end Cert.Bridge

end
-- ==== Proof.lean ====
/-
  The certificate of the DeepFM forward pass: the two-kernel program against its jnp reference, over the extended reals.

  The three frames: the two kernel programs' are the launch over their five segments (host operations, the embedding
  region, host operations, the outlined variance, the finalize region); the reference's is its run with the result
  dropped. The idealization rewrote nothing, so `preserves` is trivial. The value claim: the kernel program's result
  array is one function `res` of its sixteen arguments (each region's output read block by block as a row-wise array,
  the host's statistics as whole-array functions), the reference's is its operations' composed term, and the two are
  one function row by row — identical sums and products, and `a · rsqrt v = a / sqrt v` at the positive `v = variance + ε`.
-/
import proofs.«104323_j42159398977905_1_alg».proof.Defs
import proofs.«104323_j42159398977905_1_alg».proof.Proof.Gen.Kernel
import proofs.«104323_j42159398977905_1_alg».proof.Proof.Gen.Kernel.Frame
import proofs.«104323_j42159398977905_1_alg».proof.Proof.Gen.KernelIdeal
import proofs.«104323_j42159398977905_1_alg».proof.Proof.Gen.KernelIdeal.Frame
import proofs.«104323_j42159398977905_1_alg».proof.Proof.Gen.ReferenceIdeal
import proofs.«104323_j42159398977905_1_alg».proof.Proof.Gen.Pre_finite_inputs
import proofs.«104323_j42159398977905_1_alg».proof.Proof.KValue
import proofs.«104323_j42159398977905_1_alg».proof.Proof.RefRun
import proofs.«104323_j42159398977905_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.run_args m ρ

/-- The ideal pass rewrote no operation. -/
theorem preserves : Cert.preserves_Kernel_KernelIdeal := trivial

/-- From memories agreeing on the arguments both programs end with the same result array: the kernel program's `res`
    of its arguments, which the reference's composed term equals. -/
theorem algebraic : Cert.algebraic_KernelIdeal_ReferenceIdeal := by
  intro m ρ m' ρ' _ hagree
  refine ⟨fun c => Cert.KernelIdeal.KValue.res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.KValue.run m ρ, ?_⟩
  refine (θ_run Cert.ReferenceIdeal.defs _ _).mono (fun r h c => ⟨(h c).1.trans ?_, (h c).2⟩)
    (Cert.ReferenceIdeal.RefRun.run m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  exact Cert.Bridge.out_eq _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
